-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2x512x512 : Shape := ⟨4, ![32, 2, 512, 512]⟩
abbrev S1x2x251x251 : Shape := ⟨4, ![1, 2, 251, 251]⟩
abbrev S_ : Shape := ⟨0, ![]⟩

class Facts : Prop where
  bcast_S_S32x2x512x512 : S_.BroadcastsInDim S32x2x512x512 (![] : Fin 0 → Fin S32x2x512x512.rank)
  reducesTo_S32x2x512x512_S_d0_1_2_3 : S32x2x512x512.ReducesTo [0, 1, 2, 3] S_
  h_S_ : 0 < S_.numel
  bcast_S_S1x2x251x251 : S_.BroadcastsInDim S1x2x251x251 (![] : Fin 0 → Fin S1x2x251x251.rank)
  reducesTo_S1x2x251x251_S_d0_1_2_3 : S1x2x251x251.ReducesTo [0, 1, 2, 3] S_

variable [Facts]

def fn {F : FTy → Type} [FloatOps F] (main_arg0 : FVec F S32x2x512x512 .f32) (main_arg1 : FVec F S1x2x251x251 .f32) : IVec S_ 1 :=
  let main_v0 : FVec F S32x2x512x512 .f32 := Host.absf main_arg0
  let main_cst : FVec F S_ .f32 := constant S_ .f32 0x7F800000#32
  let main_v1 : FVec F S32x2x512x512 .f32 := broadcastInDim S32x2x512x512 ![] bcast_S_S32x2x512x512 main_cst
  let main_v2 : IVec S32x2x512x512 1 := cmpf .olt main_v0 main_v1
  let main_c : IVec S_ 1 := constantI S_ 1 1#1
  let main_v3 : IVec S_ 1 := (fun x v => Host.reduce IntOp.andi x v reducesTo_S32x2x512x512_S_d0_1_2_3 h_S_) main_v2 main_c
  let main_v4 : FVec F S1x2x251x251 .f32 := Host.absf main_arg1
  let main_cst_0 : FVec F S_ .f32 := constant S_ .f32 0x7F800000#32
  let main_v5 : FVec F S1x2x251x251 .f32 := broadcastInDim S1x2x251x251 ![] bcast_S_S1x2x251x251 main_cst_0
  let main_v6 : IVec S1x2x251x251 1 := cmpf .olt main_v4 main_v5
  let main_c_1 : IVec S_ 1 := constantI S_ 1 1#1
  let main_v7 : IVec S_ 1 := (fun x v => Host.reduce IntOp.andi x v reducesTo_S1x2x251x251_S_d0_1_2_3 h_S_) main_v6 main_c_1
  let main_v8 : IVec S_ 1 := andi main_v3 main_v7
  main_v8
-- ==== Kernel.lean ====
abbrev S32x2x512x512 : Shape := ⟨4, ![32, 2, 512, 512]⟩
abbrev S1x2x251x251 : Shape := ⟨4, ![1, 2, 251, 251]⟩
abbrev S2x251x251 : Shape := ⟨3, ![2, 251, 251]⟩
abbrev S_ : Shape := ⟨0, ![]⟩
abbrev S2x256x256 : Shape := ⟨3, ![2, 256, 256]⟩
abbrev S512x256 : Shape := ⟨2, ![512, 256]⟩
abbrev S1x2x128x512 : Shape := ⟨4, ![1, 2, 128, 512]⟩
abbrev S256x1 : Shape := ⟨2, ![256, 1]⟩
abbrev S1x1x128x512 : Shape := ⟨4, ![1, 1, 128, 512]⟩
abbrev S128x512 : Shape := ⟨2, ![128, 512]⟩
abbrev S8x512 : Shape := ⟨2, ![8, 512]⟩
abbrev S1x512 : Shape := ⟨2, ![1, 512]⟩
abbrev S512 : Shape := ⟨1, ![512]⟩
abbrev S256x512 : Shape := ⟨2, ![256, 512]⟩
abbrev S512x512 : Shape := ⟨2, ![512, 512]⟩

abbrev nBuf : Space → Nat
  | .hbm => 10
  | .vmem => 5
  | .smem => 0
  | _ => 0

abbrev bufTy : (tb : Table) → Fin (tcTables nBuf tb) → BufTy
  | .hbm, ⟨0, _⟩ => ⟨S32x2x512x512, .f32⟩
  | .hbm, ⟨1, _⟩ => ⟨S1x2x251x251, .f32⟩
  | .hbm, ⟨2, _⟩ => ⟨S2x251x251, .f32⟩
  | .hbm, ⟨3, _⟩ => ⟨S_, .i32⟩
  | .hbm, ⟨4, _⟩ => ⟨S_, .f32⟩
  | .hbm, ⟨5, _⟩ => ⟨S2x256x256, .f32⟩
  | .hbm, ⟨6, _⟩ => ⟨S2x256x256, .f32⟩
  | .hbm, ⟨7, _⟩ => ⟨S512x256, .f32⟩
  | .hbm, ⟨8, _⟩ => ⟨S512x256, .bf16⟩
  | .hbm, ⟨9, _⟩ => ⟨S32x2x512x512, .f32⟩
  | .local _ .vmem, ⟨0, _⟩ => ⟨S1x2x128x512, .f32⟩
  | .local _ .vmem, ⟨1, _⟩ => ⟨S1x2x128x512, .f32⟩
  | .local _ .vmem, ⟨2, _⟩ => ⟨S512x256, .bf16⟩
  | .local _ .vmem, ⟨3, _⟩ => ⟨S1x2x128x512, .f32⟩
  | .local _ .vmem, ⟨4, _⟩ => ⟨S1x2x128x512, .f32⟩
  | _, _ => ⟨S32x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 4], ![false, false]⟩

@[reducible] def k0_t1_loop : Scf.Loop 32 :=
  let c0_i32_3 : BitVec 32 := 0#32
  let c16_i32 : BitVec 32 := 16#32
  let v3 : BitVec 32 := Scalar.addi c0_i32_3 c16_i32
  let c1_i32_4 : BitVec 32 := 1#32
  ⟨c0_i32_3, v3, c1_i32_4⟩
def k0_mult1 (k0_t1 : Fin k0_t1_loop.trips) : BitVec 32 :=
  let c0_i32_3 : BitVec 32 := 0#32
  let c1_i32_4 : BitVec 32 := 1#32
  let arg5 : BitVec 32 := Scf.iv c0_i32_3 c1_i32_4 k0_t1
  let c8_i32 : BitVec 32 := 8#32
  let v4 : BitVec 32 := Scalar.muli arg5 c8_i32
  v4
def k0_off1 (k0_t1 : Fin k0_t1_loop.trips) : Fin 2 → Nat :=
  let c0_i32_3 : BitVec 32 := 0#32
  let c1_i32_4 : BitVec 32 := 1#32
  let arg5 : BitVec 32 := Scf.iv c0_i32_3 c1_i32_4 k0_t1
  let c8_i32 : BitVec 32 := 8#32
  let v4 : BitVec 32 := Scalar.muli arg5 c8_i32
  let v5 : BitVec 32 := v4
  let c0_i32_9 : BitVec 32 := 0#32
  ![v5.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x2x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S1x2x251x251_S2x251x251 : S1x2x251x251.ShapeCasts S2x251x251
  pads_S2x251x251_S2x256x256_000_050_050 : S2x251x251.Pads (![0, 0, 0] : Fin 3 → Nat) ![0, 5, 5] ![0, 0, 0] S2x256x256
  h_S_ : 0 < S_.numel
  transposes_S2x256x256_S2x256x256_0_2_1 : S2x256x256.Transposes [0, 2, 1] S2x256x256
  shapeCasts_S2x256x256_S512x256 : S2x256x256.ShapeCasts S512x256
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  iota_S256x1_d0_w32 : S256x1.Iotas .tc 32 [0]
  inb_S1x2x128x512_S1x1x128x512_0_0_0_0 : ∀ a, (![0, 0, 0, 0] : Fin 4 → Nat) a + S1x1x128x512.size a ≤ S1x2x128x512.size a
  squeezes_S1x1x128x512_S128x512 : S1x1x128x512.Squeezes S128x512
  inb_S8x512_S1x512_0_0 : ∀ a, (![0, 0] : Fin 2 → Nat) a + S1x512.size a ≤ S8x512.size a
  h_S1x512 : 0 < S1x512.numel
  shapeCasts_S1x512_S512 : S1x512.ShapeCasts S512
  inb_S1x2x128x512_S1x1x128x512_0_1_0_0 : ∀ a, (![0, 1, 0, 0] : Fin 4 → Nat) a + S1x1x128x512.size a ≤ S1x2x128x512.size a
  shapeCasts_S512_S1x512 : S512.ShapeCasts S1x512
  broadcasts_S256x1_S256x512 : S256x1.Broadcasts S256x512
  broadcasts_S1x512_S256x512 : S1x512.Broadcasts S256x512
  shapeCasts_S1x512_S1x512 : S1x512.ShapeCasts S1x512
  slices_S512x512_o0_0_S256x512 : S512x512.Slices ![0, 0] S256x512
  slices_S512x512_o256_0_S256x512 : S512x512.Slices ![256, 0] S256x512
  reduces_S256x512_S512 : S256x512.Reduces [0] S512
  inb_S8x512_S1x512_1_0 : ∀ a, (![1, 0] : Fin 2 → Nat) a + S1x512.size a ≤ S8x512.size a
  inb_S8x512_S1x512_2_0 : ∀ a, (![2, 0] : Fin 2 → Nat) a + S1x512.size a ≤ S8x512.size a
  inb_S8x512_S1x512_3_0 : ∀ a, (![3, 0] : Fin 2 → Nat) a + S1x512.size a ≤ S8x512.size a
  inb_S8x512_S1x512_4_0 : ∀ a, (![4, 0] : Fin 2 → Nat) a + S1x512.size a ≤ S8x512.size a
  inb_S8x512_S1x512_5_0 : ∀ a, (![5, 0] : Fin 2 → Nat) a + S1x512.size a ≤ S8x512.size a
  inb_S8x512_S1x512_6_0 : ∀ a, (![6, 0] : Fin 2 → Nat) a + S1x512.size a ≤ S8x512.size a
  inb_S8x512_S1x512_7_0 : ∀ a, (![7, 0] : Fin 2 → Nat) a + S1x512.size a ≤ S8x512.size a
  dot_S512x256_S256x512_S512x512_1_0_0_1_n_n_wf : DotDims.WF S512x256 S256x512 S512x512 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x512.size a ≤ S128x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x128x512.size a ≤ S32x2x512x512.size a
  hwx0_0 : ∀ i : grid0.Coords, EltTy.bits .f32 = 32 ∨ (Rect.block (s := S32x2x512x512) S1x2x128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x128x512.size a ≤ S32x2x512x512.size a
  hwx0_2 : ∀ i : grid0.Coords, EltTy.bits .f32 = 32 ∨ (Rect.block (s := S32x2x512x512) S1x2x128x512.size (cc0_transform_2 i) (hinb0_2 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S1x2x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2x128x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x2x512x512 : Shape := ⟨4, ![32, 2, 512, 512]⟩
abbrev S1x2x251x251 : Shape := ⟨4, ![1, 2, 251, 251]⟩
abbrev S2x251x251 : Shape := ⟨3, ![2, 251, 251]⟩
abbrev S_ : Shape := ⟨0, ![]⟩
abbrev S32x1x512x512 : Shape := ⟨4, ![32, 1, 512, 512]⟩
abbrev S32x512x512 : Shape := ⟨3, ![32, 512, 512]⟩
abbrev S32x512x512x1 : Shape := ⟨4, ![32, 512, 512, 1]⟩
abbrev S32x512x512x2 : Shape := ⟨4, ![32, 512, 512, 2]⟩
abbrev S2x32x512x512 : Shape := ⟨4, ![2, 32, 512, 512]⟩
abbrev S1x32x512x512 : Shape := ⟨4, ![1, 32, 512, 512]⟩

abbrev nBuf : Space → Nat
  | .hbm => 155
  | .vmem => 0
  | .smem => 0
  | _ => 0

abbrev hbmTy0_0 (i : Nat) : BufTy := match i % 128 with
  | 0 => ⟨S32x2x512x512, .f32⟩
  | 1 => ⟨S1x2x251x251, .f32⟩
  | 2 => ⟨S2x251x251, .f32⟩
  | 3 => ⟨S_, .f32⟩
  | 4 => ⟨S_, .f32⟩
  | 5 => ⟨S_, .f32⟩
  | 6 => ⟨S32x2x512x512, .f32⟩
  | 7 => ⟨S32x2x512x512, .f32⟩
  | 8 => ⟨S_, .f32⟩
  | 9 => ⟨S32x2x512x512, .f32⟩
  | 10 => ⟨S32x2x512x512, .f32⟩
  | 11 => ⟨S32x1x512x512, .f32⟩
  | 12 => ⟨S32x512x512, .f32⟩
  | 13 => ⟨S_, .f32⟩
  | 14 => ⟨S32x512x512, .f32⟩
  | 15 => ⟨S32x512x512, .f32⟩
  | 16 => ⟨S32x1x512x512, .f32⟩
  | 17 => ⟨S32x512x512, .f32⟩
  | 18 => ⟨S_, .f32⟩
  | 19 => ⟨S32x512x512, .f32⟩
  | 20 => ⟨S32x512x512, .f32⟩
  | 21 => ⟨S32x512x512, .f32⟩
  | 22 => ⟨S32x512x512, .i32⟩
  | 23 => ⟨S_, .i32⟩
  | 24 => ⟨S_, .i32⟩
  | 25 => ⟨S_, .i32⟩
  | 26 => ⟨S32x512x512, .i32⟩
  | 27 => ⟨S32x512x512, .i32⟩
  | 28 => ⟨S_, .i32⟩
  | 29 => ⟨S32x512x512, .i32⟩
  | 30 => ⟨S32x512x512, .i32⟩
  | 31 => ⟨S32x512x512, .f32⟩
  | 32 => ⟨S32x512x512, .i32⟩
  | 33 => ⟨S_, .i32⟩
  | 34 => ⟨S_, .i32⟩
  | 35 => ⟨S_, .i32⟩
  | 36 => ⟨S32x512x512, .i32⟩
  | 37 => ⟨S32x512x512, .i32⟩
  | 38 => ⟨S_, .i32⟩
  | 39 => ⟨S32x512x512, .i32⟩
  | 40 => ⟨S32x512x512, .i32⟩
  | 41 => ⟨S32x512x512, .f32⟩
  | 42 => ⟨S32x512x512, .f32⟩
  | 43 => ⟨S32x512x512, .f32⟩
  | 44 => ⟨S32x512x512, .f32⟩
  | 45 => ⟨S_, .i32⟩
  | 46 => ⟨S32x512x512, .i32⟩
  | 47 => ⟨S32x512x512, .i32⟩
  | 48 => ⟨S_, .i32⟩
  | 49 => ⟨S32x512x512, .i32⟩
  | 50 => ⟨S32x512x512, .i32⟩
  | 51 => ⟨S_, .i32⟩
  | 52 => ⟨S32x512x512, .i32⟩
  | 53 => ⟨S32x512x512, .i1⟩
  | 54 => ⟨S_, .i32⟩
  | 55 => ⟨S32x512x512, .i32⟩
  | 56 => ⟨S32x512x512, .i32⟩
  | 57 => ⟨S32x512x512, .i32⟩
  | 58 => ⟨S_, .i32⟩
  | 59 => ⟨S32x512x512, .i32⟩
  | 60 => ⟨S32x512x512, .i1⟩
  | 61 => ⟨S_, .i32⟩
  | 62 => ⟨S32x512x512, .i32⟩
  | 63 => ⟨S32x512x512, .i32⟩
  | 64 => ⟨S32x512x512, .i32⟩
  | 65 => ⟨S32x512x512x1, .i32⟩
  | 66 => ⟨S32x512x512x1, .i32⟩
  | 67 => ⟨S32x512x512x2, .i32⟩
  | 68 => ⟨S2x32x512x512, .f32⟩
  | 69 => ⟨S_, .i32⟩
  | 70 => ⟨S32x512x512, .i32⟩
  | 71 => ⟨S32x512x512, .i1⟩
  | 72 => ⟨S_, .i32⟩
  | 73 => ⟨S32x512x512, .i32⟩
  | 74 => ⟨S32x512x512, .i32⟩
  | 75 => ⟨S32x512x512, .i32⟩
  | 76 => ⟨S_, .i32⟩
  | 77 => ⟨S32x512x512, .i32⟩
  | 78 => ⟨S32x512x512, .i1⟩
  | 79 => ⟨S_, .i32⟩
  | 80 => ⟨S32x512x512, .i32⟩
  | 81 => ⟨S32x512x512, .i32⟩
  | 82 => ⟨S32x512x512, .i32⟩
  | 83 => ⟨S32x512x512x1, .i32⟩
  | 84 => ⟨S32x512x512x1, .i32⟩
  | 85 => ⟨S32x512x512x2, .i32⟩
  | 86 => ⟨S2x32x512x512, .f32⟩
  | 87 => ⟨S_, .i32⟩
  | 88 => ⟨S32x512x512, .i32⟩
  | 89 => ⟨S32x512x512, .i1⟩
  | 90 => ⟨S_, .i32⟩
  | 91 => ⟨S32x512x512, .i32⟩
  | 92 => ⟨S32x512x512, .i32⟩
  | 93 => ⟨S32x512x512, .i32⟩
  | 94 => ⟨S_, .i32⟩
  | 95 => ⟨S32x512x512, .i32⟩
  | 96 => ⟨S32x512x512, .i1⟩
  | 97 => ⟨S_, .i32⟩
  | 98 => ⟨S32x512x512, .i32⟩
  | 99 => ⟨S32x512x512, .i32⟩
  | 100 => ⟨S32x512x512, .i32⟩
  | 101 => ⟨S32x512x512x1, .i32⟩
  | 102 => ⟨S32x512x512x1, .i32⟩
  | 103 => ⟨S32x512x512x2, .i32⟩
  | 104 => ⟨S2x32x512x512, .f32⟩
  | 105 => ⟨S_, .i32⟩
  | 106 => ⟨S32x512x512, .i32⟩
  | 107 => ⟨S32x512x512, .i1⟩
  | 108 => ⟨S_, .i32⟩
  | 109 => ⟨S32x512x512, .i32⟩
  | 110 => ⟨S32x512x512, .i32⟩
  | 111 => ⟨S32x512x512, .i32⟩
  | 112 => ⟨S_, .i32⟩
  | 113 => ⟨S32x512x512, .i32⟩
  | 114 => ⟨S32x512x512, .i1⟩
  | 115 => ⟨S_, .i32⟩
  | 116 => ⟨S32x512x512, .i32⟩
  | 117 => ⟨S32x512x512, .i32⟩
  | 118 => ⟨S32x512x512, .i32⟩
  | 119 => ⟨S32x512x512x1, .i32⟩
  | 120 => ⟨S32x512x512x1, .i32⟩
  | 121 => ⟨S32x512x512x2, .i32⟩
  | 122 => ⟨S2x32x512x512, .f32⟩
  | 123 => ⟨S_, .f32⟩
  | 124 => ⟨S32x512x512, .f32⟩
  | 125 => ⟨S32x512x512, .f32⟩
  | 126 => ⟨S_, .f32⟩
  | 127 => ⟨S32x512x512, .f32⟩
  | _ => ⟨S32x2x512x512, .f32⟩

abbrev hbmTy0_1 (i : Nat) : BufTy := match i % 128 with
  | 0 => ⟨S32x512x512, .f32⟩
  | 1 => ⟨S32x512x512, .f32⟩
  | 2 => ⟨S_, .f32⟩
  | 3 => ⟨S32x512x512, .f32⟩
  | 4 => ⟨S32x512x512, .f32⟩
  | 5 => ⟨S32x512x512, .f32⟩
  | 6 => ⟨S_, .f32⟩
  | 7 => ⟨S32x512x512, .f32⟩
  | 8 => ⟨S32x512x512, .f32⟩
  | 9 => ⟨S32x512x512, .f32⟩
  | 10 => ⟨S32x512x512, .f32⟩
  | 11 => ⟨S1x32x512x512, .f32⟩
  | 12 => ⟨S2x32x512x512, .f32⟩
  | 13 => ⟨S2x32x512x512, .f32⟩
  | 14 => ⟨S1x32x512x512, .f32⟩
  | 15 => ⟨S2x32x512x512, .f32⟩
  | 16 => ⟨S2x32x512x512, .f32⟩
  | 17 => ⟨S2x32x512x512, .f32⟩
  | 18 => ⟨S1x32x512x512, .f32⟩
  | 19 => ⟨S2x32x512x512, .f32⟩
  | 20 => ⟨S2x32x512x512, .f32⟩
  | 21 => ⟨S2x32x512x512, .f32⟩
  | 22 => ⟨S1x32x512x512, .f32⟩
  | 23 => ⟨S2x32x512x512, .f32⟩
  | 24 => ⟨S2x32x512x512, .f32⟩
  | 25 => ⟨S2x32x512x512, .f32⟩
  | 26 => ⟨S32x2x512x512, .f32⟩
  | _ => ⟨S32x2x512x512, .f32⟩

abbrev hbmTy (i : Nat) : BufTy := match i / 128 with
  | 0 => hbmTy0_0 i
  | 1 => hbmTy0_1 i
  | _ => ⟨S32x2x512x512, .f32⟩

abbrev bufTy : (tb : Table) → Fin (tcTables nBuf tb) → BufTy
  | .hbm, ⟨i, _⟩ => hbmTy i
  | _, _ => ⟨S32x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_c_3 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_4 : Ref sig .tc := ⟨.hbm, 33, rfl⟩
abbrev main_c_5 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_6 : Ref sig .tc := ⟨.hbm, 45, rfl⟩
abbrev main_v20 : Ref sig .tc := ⟨.hbm, 46, rfl⟩
abbrev main_v21 : Ref sig .tc := ⟨.hbm, 47, rfl⟩
abbrev main_c_7 : Ref sig .tc := ⟨.hbm, 48, rfl⟩
abbrev main_v22 : Ref sig .tc := ⟨.hbm, 49, rfl⟩
abbrev main_v23 : Ref sig .tc := ⟨.hbm, 50, rfl⟩
abbrev main_c_8 : Ref sig .tc := ⟨.hbm, 51, rfl⟩
abbrev main_v24 : Ref sig .tc := ⟨.hbm, 52, rfl⟩
abbrev main_v25 : Ref sig .tc := ⟨.hbm, 53, rfl⟩
abbrev main_c_9 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_10 : Ref sig .tc := ⟨.hbm, 58, rfl⟩
abbrev main_v29 : Ref sig .tc := ⟨.hbm, 59, rfl⟩
abbrev main_v30 : Ref sig .tc := ⟨.hbm, 60, rfl⟩
abbrev main_c_11 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_12 : Ref sig .tc := ⟨.hbm, 69, rfl⟩
abbrev main_v38 : Ref sig .tc := ⟨.hbm, 70, rfl⟩
abbrev main_v39 : Ref sig .tc := ⟨.hbm, 71, rfl⟩
abbrev main_c_13 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_14 : Ref sig .tc := ⟨.hbm, 76, rfl⟩
abbrev main_v43 : Ref sig .tc := ⟨.hbm, 77, rfl⟩
abbrev main_v44 : Ref sig .tc := ⟨.hbm, 78, rfl⟩
abbrev main_c_15 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_16 : Ref sig .tc := ⟨.hbm, 87, rfl⟩
abbrev main_v52 : Ref sig .tc := ⟨.hbm, 88, rfl⟩
abbrev main_v53 : Ref sig .tc := ⟨.hbm, 89, rfl⟩
abbrev main_c_17 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c_18 : Ref sig .tc := ⟨.hbm, 94, rfl⟩
abbrev main_v57 : Ref sig .tc := ⟨.hbm, 95, rfl⟩
abbrev main_v58 : Ref sig .tc := ⟨.hbm, 96, rfl⟩
abbrev main_c_19 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_c_20 : Ref sig .tc := ⟨.hbm, 105, rfl⟩
abbrev main_v66 : Ref sig .tc := ⟨.hbm, 106, rfl⟩
abbrev main_v67 : Ref sig .tc := ⟨.hbm, 107, rfl⟩
abbrev main_c_21 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_c_22 : Ref sig .tc := ⟨.hbm, 112, rfl⟩
abbrev main_v71 : Ref sig .tc := ⟨.hbm, 113, rfl⟩
abbrev main_v72 : Ref sig .tc := ⟨.hbm, 114, rfl⟩
abbrev main_c_23 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_24 : Ref sig .tc := ⟨.hbm, 123, rfl⟩
abbrev main_v80 : Ref sig .tc := ⟨.hbm, 124, rfl⟩
abbrev main_v81 : Ref sig .tc := ⟨.hbm, 125, rfl⟩
abbrev main_cst_25 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_26 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_27 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩

abbrev nD : Nat := 1
abbrev τ : Topo := Topo.v7x

variable {F : FTy → Type} [FloatOps F]

class Facts₀ : Prop where
  shapeCasts_S1x2x251x251_S2x251x251 : S1x2x251x251.ShapeCasts S2x251x251
  bcast_S_S32x2x512x512 : S_.BroadcastsInDim S32x2x512x512 (![] : Fin 0 → Fin S32x2x512x512.rank)
  slices_S32x2x512x512_S32x1x512x512_0_0_0_0 : S32x2x512x512.Slices ![0, 0, 0, 0] S32x1x512x512
  shapeCasts_S32x1x512x512_S32x512x512 : S32x1x512x512.ShapeCasts S32x512x512
  bcast_S_S32x512x512 : S_.BroadcastsInDim S32x512x512 (![] : Fin 0 → Fin S32x512x512.rank)
  slices_S32x2x512x512_S32x1x512x512_0_1_0_0 : S32x2x512x512.Slices ![0, 1, 0, 0] S32x1x512x512
  bcast_S32x512x512_S32x512x512x1_0_1_2 : S32x512x512.BroadcastsInDim S32x512x512x1 (![0, 1, 2] : Fin 3 → Fin S32x512x512x1.rank)
  concatenates_S32x512x512x1_S32x512x512x1_S32x512x512x2_d3 : Shape.Concatenates [S32x512x512x1, S32x512x512x1] S32x512x512x2 3
  bcast_S32x512x512_S1x32x512x512_1_2_3 : S32x512x512.BroadcastsInDim S1x32x512x512 (![1, 2, 3] : Fin 3 → Fin S1x32x512x512.rank)
  bcast_S1x32x512x512_S2x32x512x512_0_1_2_3 : S1x32x512x512.BroadcastsInDim S2x32x512x512 (![0, 1, 2, 3] : Fin 4 → Fin S2x32x512x512.rank)
  transposes_S2x32x512x512_S32x2x512x512_1_0_2_3 : S2x32x512x512.Transposes [1, 0, 2, 3] S32x2x512x512
  gather_S2x251x251_S32x512x512x2_S2x32x512x512_0_12_n_n_12_3_211_wf : GatherDims.WF S2x251x251 S32x512x512x2 S2x32x512x512 [0] [1, 2] [] [1, 2] [] 3 ![2, 1, 1]

variable [Facts₀]

def gather_S2x251x251_S32x512x512x2_S2x32x512x512_0_12_n_n_12_3_211 : GatherDims S2x251x251 S32x512x512x2 S2x32x512x512 where
  offsetDims := [0]
  collapsedSliceDims := [1, 2]
  operandBatchingDims := []
  startIndicesBatchingDims := []
  startIndexMap := [1, 2]
  indexVectorDim := 3
  sliceSizes := ![2, 1, 1]
  wf := gather_S2x251x251_S32x512x512x2_S2x32x512x512_0_12_n_n_12_3_211_wf

class Facts : Prop extends Facts₀ where

variable [Facts]
-- ==== Proof.K.Loop.lean ====
/-
  The row loop of the lookup kernel, by its invariant.

  The kernel's body walks its block of 128 rows in 16 trips of 8 rows. A trip reads rows 8k … 8k+7 of both coordinate
  channels from the coordinates' staging buffer and stores the same rows of both result channels into the result's
  staging buffer — each store through the view of one row of one channel —; it touches nothing else. One trip is run
  symbolically at a generic k (`trip`): what it leaves in the result's buffer is a function of what the buffer held,
  sixteen row stores, found by that run. `bandsBefore k` is the result's buffer before trip k: its contents at loop
  entry with the bands of the trips before k stored into it. The invariant (`rowInv`) holds the coordinates' buffer
  at its entry contents and the result's buffer at `bandsBefore k`; a trip takes it from k to k + 1 (`rowInv_step`).
-/
import proofs.«159610_j32693291057269_2_alg».proof.Proof.Gen.Kernel.Loops

set_option maxRecDepth 16384

noncomputable section

namespace Cert.Kernel.LoopInst

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip of the row loop touches: the coordinates' staging buffer, read at its contents, and the result's
    staging buffer — a whole buffer — written. -/
abbrev TripRes (c : Dev nD) (arg2 : Memref sig .tc .vmem S1x2x128x512 .f32) (arg4 : Memref sig .tc .vmem S1x2x128x512 .f32)
    (X2 : BufTy.Contents (Elt F) arg2.view.ty) (f4 : BufTy.Contents (Elt F) arg4.view.ty) : sProp 𝕄G :=
  iprop((arg2.view.loc (c : Thread nD τ) ↦[arg2.view.set]{fullShare} X2) ∗ (arg4.view.loc (c : Thread nD τ) ↦{fullShare} f4))

set_option maxHeartbeats 0 in
/-- ONE TRIP at a symbolic k: from the trip's resources the region runs to the same resources, the result's buffer
    at a function of its contents before the trip — sixteen row stores, which the run finds. -/
@[irreducible] def trip (𝒱 : Variants) (c : Dev nD) (bd : Option 𝒱.V) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (k : Fin k0_t1_loop.trips) :
    { g : BufTy.Contents (Elt F) arg4.view.ty → BufTy.Contents (Elt F) arg4.view.ty // ∀ (E : Set ℕ) (f4 : BufTy.Contents (Elt F) arg4.view.ty),
      TripRes (F := F) c arg2 arg4 X2 f4
      ⊢ wp frame (wpE (defs₀ (F := F)) 𝒱 (c : Thread nD τ) bd) E (k0_t1_body (F := F) i arg2 harg2 arg3 harg3 arg4 harg4 v0 v2 k PUnit.unit)
          (fun _ => TripRes (F := F) c arg2 arg4 X2 (g f4)) } := by
  have hk : k.val < 16 := Nat.lt_of_lt_of_le k.isLt k0_t1_abs.2.1
  refine ⟨?_, fun E f4 => ?run⟩
  case run =>
    unfold k0_t1_body
    iintro ⟨HR2, HW4⟩
    sl_exec
    sl_step
    sl_close

/-- What trip k leaves in the result's buffer, as a function of what it held. -/
abbrev band (𝒱 : Variants) (c : Dev nD) (bd : Option 𝒱.V) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (k : Fin k0_t1_loop.trips) :
    BufTy.Contents (Elt F) arg4.view.ty → BufTy.Contents (Elt F) arg4.view.ty :=
  (trip (F := F) 𝒱 c bd i arg2 harg2 arg3 harg3 arg4 harg4 v0 v2 X2 k).1

/-- Trip k's band stored into `prev`; past the last trip, `prev` itself. -/
@[irreducible] def bandStep (𝒱 : Variants) (c : Dev nD) (bd : Option 𝒱.V) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (k : ℕ) (prev : BufTy.Contents (Elt F) arg4.view.ty) :
    BufTy.Contents (Elt F) arg4.view.ty :=
  if h : k < k0_t1_loop.trips then band (F := F) 𝒱 c bd i arg2 harg2 arg3 harg3 arg4 harg4 v0 v2 X2 ⟨k, h⟩ prev else prev

/-- The result's buffer before trip k: the entry contents G4 with the bands of the trips before k stored into it. -/
def bandsBefore (𝒱 : Variants) (c : Dev nD) (bd : Option 𝒱.V) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (G4 : BufTy.Contents (Elt F) arg4.view.ty) : ℕ → BufTy.Contents (Elt F) arg4.view.ty
  | 0 => G4
  | k + 1 => bandStep 𝒱 c bd i arg2 harg2 arg3 harg3 arg4 harg4 v0 v2 X2 k (bandsBefore 𝒱 c bd i arg2 harg2 arg3 harg3 arg4 harg4 v0 v2 X2 G4 k)

theorem bandsBefore_zero (𝒱 : Variants) (c : Dev nD) (bd : Option 𝒱.V) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (G4 : BufTy.Contents (Elt F) arg4.view.ty) :
    bandsBefore (F := F) 𝒱 c bd i arg2 harg2 arg3 harg3 arg4 harg4 v0 v2 X2 G4 0 = G4 := rfl

theorem bandsBefore_succ (𝒱 : Variants) (c : Dev nD) (bd : Option 𝒱.V) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (G4 : BufTy.Contents (Elt F) arg4.view.ty) (k : Fin k0_t1_loop.trips) :
    bandsBefore (F := F) 𝒱 c bd i arg2 harg2 arg3 harg3 arg4 harg4 v0 v2 X2 G4 (k.val + 1)
      = band (F := F) 𝒱 c bd i arg2 harg2 arg3 harg3 arg4 harg4 v0 v2 X2 k (bandsBefore (F := F) 𝒱 c bd i arg2 harg2 arg3 harg3 arg4 harg4 v0 v2 X2 G4 k.val) := by
  rw [bandsBefore.eq_2]; unfold bandStep; exact dif_pos k.isLt

/-- THE INVARIANT before trip k: the coordinates' buffer at its entry contents X2, the result's buffer at its entry
    contents G4 with the bands of the trips before k stored. -/
abbrev rowInv (𝒱 : Variants) (c : Dev nD) (bd : Option 𝒱.V) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (G4 : BufTy.Contents (Elt F) arg4.view.ty) (k : ℕ) (_u : Unit) : sProp 𝕄G :=
  iprop((arg2.view.loc (c : Thread nD τ) ↦[arg2.view.set]{fullShare} X2)
    ∗ (arg4.view.loc (c : Thread nD τ) ↦{fullShare} bandsBefore (F := F) 𝒱 c bd i arg2 harg2 arg3 harg3 arg4 harg4 v0 v2 X2 G4 k))

/-- A trip takes the invariant at k to the invariant at k + 1. -/
theorem rowInv_step (𝒱 : Variants) (c : Dev nD) (bd : Option 𝒱.V) (E : Set ℕ) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (G4 : BufTy.Contents (Elt F) arg4.view.ty) (k : Fin k0_t1_loop.trips) (acc : Unit) :
    rowInv (F := F) 𝒱 c bd i arg2 harg2 arg3 harg3 arg4 harg4 v0 v2 X2 G4 k.val acc
      ⊢ wp frame (wpE (defs₀ (F := F)) 𝒱 (c : Thread nD τ) bd) E (k0_t1_body (F := F) i arg2 harg2 arg3 harg3 arg4 harg4 v0 v2 k acc)
          (rowInv (F := F) 𝒱 c bd i arg2 harg2 arg3 harg3 arg4 harg4 v0 v2 X2 G4 (k.val + 1)) := by
  cases acc
  iintro ⟨HR2, HW4⟩
  iapply (wp_wand_r Idealize.ShloMosaic.frame (wpE (defs₀ (F := F)) 𝒱 (c : Thread nD τ) bd) E)
  isplitl [HR2 HW4]
  · iapply ((trip (F := F) 𝒱 c bd i arg2 harg2 arg3 harg3 arg4 harg4 v0 v2 X2 k).2 E _)
    isplitl [HR2]; · iexact HR2
    iexact HW4
  · iintro %_ ⟨HR2, HW4⟩
    isplitl [HR2]; · iexact HR2
    rw [bandsBefore_succ]
    iexact HW4

end Cert.Kernel.LoopInst

end
-- ==== Proof.K.RowFn.lean ====
/-
  One row of the kernel's arithmetic as one pure function.

  The body of the kernel treats each of the eight rows of a chunk alike: from the row's two coordinate vectors
  (channel 0 and channel 1, 512 lanes each), the staged table (two channels of 256 × 256, stacked on the first axis,
  indexed [(channel, column), row]) and the column of candidate indices 0 … 255, it clips and scales the coordinates,
  takes their cells and weights, builds the two-hot weight matrices over the candidates, contracts the table with
  the row weights by a matrix product, and contracts each channel's half of the product with the column weights by a
  sum along the candidate axis. The first row's operations, as the skeleton names them, are taken as THE row
  function: `scaled` (a coordinate vector clipped and scaled), `cells` (its cells), `colWeights` (the two-hot
  column weights), `product` (the table against the two-hot row weights), and the two stored results `rowCh0`,
  `rowCh1`.
-/
import proofs.«159610_j32693291057269_2_alg».proof.Proof.Gen.Kernel.Skeleton

noncomputable section

namespace Cert.Kernel.Row

open Cert.Kernel Cert.Kernel.Gen Idealize.ShloMosaic

variable {F : FTy → Type} [FloatOps F] [Facts]

/-- The two-hot column weights [256, 512] of a row, from the candidate column and the row's channel-1 vector. -/
def colWeights (v2 : IVec S256x1 32) (v14 : Vec F S1x512 .f32) : FVec F S256x512 .f32 :=
  k0_pay8 v2 (k0_pay5 v14) (k0_pay7 v14)

/-- The table contracted with the two-hot row weights [512, 512], from the row's channel-0 vector. -/
def product (v1 : FVec F S512x256 .bf16) (v2 : IVec S256x1 32) (v9 : Vec F S1x512 .f32) : FVec F S512x512 .f32 :=
  k0_pay9 v1 v2 (k0_pay4 v9) (k0_pay6 v9)

/-- Channel 0 of the row, as stored: the upper half of the product against the column weights, summed over the
    candidates. -/
def rowCh0 (v1 : FVec F S512x256 .bf16) (v2 : IVec S256x1 32) (v9 v14 : Vec F S1x512 .f32) : FVec F S1x512 .f32 :=
  k0_pay11 (colWeights v2 v14) (k0_pay10 v1 v2 (k0_pay4 v9) (k0_pay6 v9))

/-- Channel 1 of the row, as stored: the lower half of the product against the column weights, summed over the
    candidates. -/
def rowCh1 (v1 : FVec F S512x256 .bf16) (v2 : IVec S256x1 32) (v9 v14 : Vec F S1x512 .f32) : FVec F S1x512 .f32 :=
  k0_pay12 (colWeights v2 v14) (product v1 v2 v9)

end Cert.Kernel.Row

end
-- ==== Proof.K.RowGeom.lean ====
/-
  The geometry of one row's view.

  The staging buffers have shape [1, 2, 128, 512] (a batch of one, channel, row, lane). Row rr of the band of eight
  rows that trip k works on, in channel ch, is reached through a chain of views: the rectangle of channel ch (all of
  the other three axes), its two leading unit axes dropped so that it is indexed as [128, 512], the rectangle of rows
  8k … 8k + 7 of that, and the rectangle of the single row rr of that. Lane w of this row is the buffer's element
  (0, ch, 8k + rr, w): the two unit-stride rectangles add their offsets, and dropping the two leading unit axes is the
  row-major re-indexing of [1, 1, 128, 512] as [128, 512], which matches (r, w) with (0, 0, r, w). So a read through
  the row reads the buffer there, a store through the row lands there, and, placements being injective, a store
  through the row changes nothing at any other (channel, row).
-/
import proofs.«159610_j32693291057269_2_alg».proof.Proof.Gen.Kernel
import Idealize.ShloMosaic.Lib.ValueIdx
import Idealize.ShloMosaic.Lib.Pipeline.Value

noncomputable section

namespace Cert.Kernel.RowGeom

open Cert.Kernel Cert.Kernel.Gen Idealize.ShloMosaic Idealize.ShloMosaic.ValueIdx

variable [Facts] {Val : EltTy → Type}

/-- The rows of trip k's band lie inside the 128 rows: 8k + rr < 128 for rr < 8, there being at most 16 trips. -/
theorem row_lt (k : Fin k0_t1_loop.trips) {rr : ℕ} (hrr : rr < 8) : 8 * k.val + rr < 128 := by
  have h1 := k.isLt
  have h2 := Gen.k0_t1_abs.2.1
  omega

/-- The band of eight rows that trip k works on, in channel ch, as a memref of shape [8, 512]. -/
abbrev rowMem (m : Memref sig .tc .vmem S1x2x128x512 .f32) (ch : ℕ)
    (inb4 : ∀ a, (![0, ch, 0, 0] : Fin 4 → ℕ) a + S1x1x128x512.size a ≤ S1x2x128x512.size a)
    (hs4 : ∀ a, (Rect.unit (s := S1x2x128x512) ![0, ch, 0, 0] S1x1x128x512.size inb4).stride a = 1)
    (k : Fin k0_t1_loop.trips)
    (hs2 : ∀ a, (Rect.unit (s := S128x512) (k0_off1 k) S8x512.size (Facts₀.k0_off1_inb k)).stride a = 1) :
    Memref sig .tc .vmem S8x512 .f32 :=
  ((m.slice (Rect.unit (s := S1x2x128x512) ![0, ch, 0, 0] S1x1x128x512.size inb4) hs4).squeeze S128x512
      Facts₀.squeezes_S1x1x128x512_S128x512).slice
    (Rect.unit (s := S128x512) (k0_off1 k) S8x512.size (Facts₀.k0_off1_inb k)) hs2

/-! ## The three steps of the placement -/

/-- Lane w of row rr of trip k's band, as an index of the band's [128, 512] parent: (8k + rr, w). The two unit-stride
    rectangles add their offsets. -/
theorem band_idx (k : Fin k0_t1_loop.trips) (rr : ℕ)
    (inb2 : ∀ a, (![rr, 0] : Fin 2 → ℕ) a + S1x512.size a ≤ S8x512.size a) (w : Fin 512) (hrr : rr < 8) :
    (Rect.unit (s := S128x512) (k0_off1 k) S8x512.size (Facts₀.k0_off1_inb k)).emb
        ((Rect.unit (s := S8x512) ![rr, 0] S1x512.size inb2).emb (ix2 (0 : Fin 1) w))
      = ix2 (⟨8 * k.val + rr, row_lt k hrr⟩ : Fin 128) w := by
  funext a
  refine Fin.ext ?_
  rw [Rect.emb_apply]
  match a with
  | ⟨0, _⟩ =>
    rw [Rect.emb_apply]
    simp [Gen.k0_off1_eq, Rect.unit]
  | ⟨1, _⟩ =>
    rw [Rect.emb_apply]
    simp [Gen.k0_off1_eq, Rect.unit]

/-- Dropping the two leading unit axes of [1, 1, 128, 512] matches (r, w) with (0, 0, r, w): both have row-major
    position 512 r + w. -/
theorem squeeze_idx (h : S128x512.numel = S1x1x128x512.numel) (r : Fin 128) (w : Fin 512) :
    Shape.reshapeEquiv h (ix2 r w) = ix4 (0 : Fin 1) (0 : Fin 1) r w := by
  apply Shape.reshapeEquiv_eq_of_rowMajor
  rw [Shape.rowMajor_val_four, Shape.rowMajor_val_two]
  simp

/-- The rectangle of channel ch places (0, 0, r, w) at (0, ch, r, w). -/
theorem chan_idx (ch : ℕ)
    (inb4 : ∀ a, (![0, ch, 0, 0] : Fin 4 → ℕ) a + S1x1x128x512.size a ≤ S1x2x128x512.size a) (hch : ch < 2)
    (r : Fin 128) (w : Fin 512) :
    (Rect.unit (s := S1x2x128x512) ![0, ch, 0, 0] S1x1x128x512.size inb4).emb (ix4 (0 : Fin 1) (0 : Fin 1) r w)
      = ix4 (0 : Fin 1) (⟨ch, hch⟩ : Fin 2) r w := by
  funext a
  refine Fin.ext ?_
  rw [Rect.emb_apply]
  match a with
  | ⟨0, _⟩ => simp [Rect.unit]
  | ⟨1, _⟩ => simp [Rect.unit]
  | ⟨2, _⟩ => simp [Rect.unit]
  | ⟨3, _⟩ => simp [Rect.unit]

/-! ## The row's placement, and reads and stores through it -/

section Row
variable (m : Memref sig .tc .vmem S1x2x128x512 .f32) (ch : ℕ)
    (inb4 : ∀ a, (![0, ch, 0, 0] : Fin 4 → ℕ) a + S1x1x128x512.size a ≤ S1x2x128x512.size a)
    (hs4 : ∀ a, (Rect.unit (s := S1x2x128x512) ![0, ch, 0, 0] S1x1x128x512.size inb4).stride a = 1)
    (k : Fin k0_t1_loop.trips)
    (hs2 : ∀ a, (Rect.unit (s := S128x512) (k0_off1 k) S8x512.size (Facts₀.k0_off1_inb k)).stride a = 1)
    (rr : ℕ) (inb2 : ∀ a, (![rr, 0] : Fin 2 → ℕ) a + S1x512.size a ≤ S8x512.size a)
    (w : Fin 512) (hch : ch < 2) (hrr : rr < 8)

/-- Lane w of row rr of trip k's band of channel ch is the buffer's element (0, ch, 8k + rr, w). -/
theorem row_emb :
    ((rowMem m ch inb4 hs4 k hs2).access (Rect.unit (s := S8x512) ![rr, 0] S1x512.size inb2)).emb (ix2 (0 : Fin 1) w)
      = m.view.emb (ix4 (0 : Fin 1) (⟨ch, hch⟩ : Fin 2) (⟨8 * k.val + rr, row_lt k hrr⟩ : Fin 128) w) := by
  have e : (Rect.unit (s := S1x2x128x512) ![0, ch, 0, 0] S1x1x128x512.size inb4).emb
      (Shape.reshapeEquiv (Facts₀.squeezes_S1x1x128x512_S128x512).numel_eq
        ((Rect.unit (s := S128x512) (k0_off1 k) S8x512.size (Facts₀.k0_off1_inb k)).emb
          ((Rect.unit (s := S8x512) ![rr, 0] S1x512.size inb2).emb (ix2 (0 : Fin 1) w))))
      = ix4 (0 : Fin 1) (⟨ch, hch⟩ : Fin 2) (⟨8 * k.val + rr, row_lt k hrr⟩ : Fin 128) w := by
    rw [band_idx k rr inb2 w hrr]
    exact (congrArg _ (squeeze_idx _ _ _)).trans (chan_idx ch inb4 hch _ _)
  exact congrArg m.view.emb e

/-- A load of the row reads, at lane w, the buffer at (0, ch, 8k + rr, w). -/
theorem row_read (f : m.view.ty.Contents Val) :
    View.readAt Val (rowMem m ch inb4 hs4 k hs2).view (Rect.unit (s := S8x512) ![rr, 0] S1x512.size inb2).toLoadRect f (ix2 (0 : Fin 1) w)
      = m.view.read Val f (ix4 (0 : Fin 1) (⟨ch, hch⟩ : Fin 2) (⟨8 * k.val + rr, row_lt k hrr⟩ : Fin 128) w) :=
  congrArg (fun i => _root_.cast (congrArg Val m.view.elt_eq) (f i)) (row_emb m ch inb4 hs4 k hs2 rr inb2 w hch hrr)

/-- After a store of v through the row, the buffer at (0, ch, 8k + rr, w) holds v at lane w. -/
theorem row_write_hit (f : m.view.ty.Contents Val) (v : S1x512.Idx → Val .f32) :
    m.view.read Val (View.write Val ((rowMem m ch inb4 hs4 k hs2).access (Rect.unit (s := S8x512) ![rr, 0] S1x512.size inb2)) f v Finset.univ)
        (ix4 (0 : Fin 1) (⟨ch, hch⟩ : Fin 2) (⟨8 * k.val + rr, row_lt k hrr⟩ : Fin 128) w) = v (ix2 (0 : Fin 1) w) :=
  (row_read m ch inb4 hs4 k hs2 rr inb2 w hch hrr _).symm.trans
    (View.read_write_of_mem (v := (rowMem m ch inb4 hs4 k hs2).access (Rect.unit (s := S8x512) ![rr, 0] S1x512.size inb2))
      f v (Finset.mem_univ (ix2 (0 : Fin 1) w)))

include hch hrr in
/-- A store through the row changes nothing at any other (channel, row): placements are injective, and an index with
    another channel or another row is not one of the row's. -/
theorem row_write_miss (f : m.view.ty.Contents Val) (v : S1x512.Idx → Val .f32) (ch' : Fin 2) (r' : Fin 128)
    (hne : ch'.val ≠ ch ∨ r'.val ≠ 8 * k.val + rr) :
    m.view.read Val (View.write Val ((rowMem m ch inb4 hs4 k hs2).access (Rect.unit (s := S8x512) ![rr, 0] S1x512.size inb2)) f v Finset.univ)
        (ix4 (0 : Fin 1) ch' r' w) = m.view.read Val f (ix4 (0 : Fin 1) ch' r' w) := by
  have hnot : m.view.emb (ix4 (0 : Fin 1) ch' r' w)
      ∉ ((rowMem m ch inb4 hs4 k hs2).access (Rect.unit (s := S8x512) ![rr, 0] S1x512.size inb2)).setOn Finset.univ := by
    intro hmem
    unfold View.setOn at hmem
    rw [Finset.mem_map] at hmem
    obtain ⟨x, -, hx⟩ := hmem
    have hx' : x = ix2 (0 : Fin 1) (x 1 : Fin 512) := by
      funext a
      match a with
      | ⟨0, _⟩ => exact Subsingleton.elim (α := Fin 1) _ _
      | ⟨1, _⟩ => rfl
    rw [hx'] at hx
    have hi := m.view.emb.injective
      ((row_emb m ch inb4 hs4 k hs2 rr inb2 (x 1 : Fin 512) hch hrr).symm.trans hx)
    have h1 : ch = ch'.val := congrArg (fun i : S1x2x128x512.Idx => (i (⟨1, by decide⟩ : Fin 4)).val) hi
    have h2 : 8 * k.val + rr = r'.val := congrArg (fun i : S1x2x128x512.Idx => (i (⟨2, by decide⟩ : Fin 4)).val) hi
    rcases hne with h | h
    · exact h h1.symm
    · exact h h2.symm
  exact congrArg (_root_.cast (congrArg Val m.view.elt_eq))
    (View.write_of_not_mem (v := (rowMem m ch inb4 hs4 k hs2).access (Rect.unit (s := S8x512) ![rr, 0] S1x512.size inb2))
      f v Finset.univ hnot)

end Row

end Cert.Kernel.RowGeom

end
-- ==== Proof.K.TripValue.lean ====
/-
  What the row loop leaves in the result block, read at an index.

  One trip of the row loop stores sixteen vectors into the result's block: for each of the eight rows 8k … 8k + 7 of
  its band, one vector for channel 0 and one for channel 1. The eight rows are the same operations applied to
  different loads, so each stored vector is the row function (`rowCh0`, `rowCh1`) of the two vectors loaded for its
  row, and a load of row rr of the band is row 8k + rr of the coordinates' block. Reading the block after the sixteen
  stores at an entry of the band therefore gives the row function of that row of the coordinates' block
  (`band_read_hit`), and at an entry outside the band what the block held before (`band_read_miss`). By induction over
  the trips, after the last trip every entry (ch, r, w) of the block is the row function of row r (`final_read`).
  Nothing here depends on the float instance.
-/
import proofs.«159610_j32693291057269_2_alg».proof.Proof.K.Loop
import proofs.«159610_j32693291057269_2_alg».proof.Proof.K.RowFn
import proofs.«159610_j32693291057269_2_alg».proof.Proof.K.RowGeom
import Idealize.ShloMosaic.Lib.ValueIdx

set_option maxRecDepth 16384

noncomputable section

namespace Cert.Kernel.TripValue

open Cert.Kernel Cert.Kernel.Gen Cert.Kernel.LoopInst Cert.Kernel.Row Idealize.ShloMosaic Idealize.ShloMosaic.TcCoe Idealize.ShloMosaic.ValueIdx
open Idealize.SL Idealize.SL.Sem

variable {F : FTy → Type} [FloatOps F]

/-- Row r of channel ch of a [1,2,128,512] block, as the [1,512] vector a load of that row returns. -/
def rowOf (x : Vec F S1x2x128x512 .f32) (ch : Fin 2) (r : Fin 128) : Vec F S1x512 .f32 :=
  fun y => x (ix4 (0 : Fin 1) ch r (⟨(y 1).val, (y 1).isLt⟩ : Fin 512))

/-- What the body leaves in the result block, entry by entry: channel ch, row r, lane w is the row function of row r
    of the two coordinate channels. -/
def outBlock (v0 : Vec F S512x256 .bf16) (v2 : IVec S256x1 32) (x : Vec F S1x2x128x512 .f32) (ch : Fin 2) (r : Fin 128) (w : Fin 512) : F .f32 :=
  if ch.val = 0 then rowCh0 (k0_pay1 v0) v2 (rowOf x 0 r) (rowOf x 1 r) (ix2 (0 : Fin 1) w)
  else rowCh1 (k0_pay1 v0) v2 (rowOf x 0 r) (rowOf x 1 r) (ix2 (0 : Fin 1) w)

/-! ## Each row's stored vectors are the row function of the row's two loads

The eight rows of a trip are the same operations on different loads; read through their definitions, the value
stored for channel 0 (channel 1) of row rr is `rowCh0` (`rowCh1`) of the two vectors loaded for row rr. -/

theorem pay_r0_c0 (arg2 : Memref sig .tc .vmem S1x2x128x512 .f32) (v0 : Vec F S512x256 .bf16) (v2 : IVec S256x1 32)
    (X2 : BufTy.Contents (Elt F) arg2.view.ty) (k : Fin k0_t1_loop.trips) :
    k0_pay11 (trip.sl.r_4 arg2 v2 X2 k) (trip.sl.r_6 arg2 v0 v2 X2 k)
      = rowCh0 (k0_pay1 v0) v2 (trip.sl.v9 arg2 X2 k) (trip.sl.v14 arg2 X2 k) := by
  rfl

theorem pay_r0_c1 (arg2 : Memref sig .tc .vmem S1x2x128x512 .f32) (v0 : Vec F S512x256 .bf16) (v2 : IVec S256x1 32)
    (X2 : BufTy.Contents (Elt F) arg2.view.ty) (k : Fin k0_t1_loop.trips) :
    k0_pay12 (trip.sl.r_4 arg2 v2 X2 k) (trip.sl.r_5 arg2 v0 v2 X2 k)
      = rowCh1 (k0_pay1 v0) v2 (trip.sl.v9 arg2 X2 k) (trip.sl.v14 arg2 X2 k) := by
  rfl

theorem pay_r1_c0 (arg2 : Memref sig .tc .vmem S1x2x128x512 .f32) (v0 : Vec F S512x256 .bf16) (v2 : IVec S256x1 32)
    (X2 : BufTy.Contents (Elt F) arg2.view.ty) (k : Fin k0_t1_loop.trips) :
    k0_pay29 (k0_pay1 v0) v2 (trip.sl.r_9 arg2 X2 k) (trip.sl.r_10 arg2 X2 k) (trip.sl.r_11 arg2 X2 k) (trip.sl.r_12 arg2 X2 k) (trip.sl.r_13 arg2 v2 X2 k) (trip.sl.r_14 arg2 v2 X2 k) trip.sl.cst_74
      = rowCh0 (k0_pay1 v0) v2 (trip.sl.v111 arg2 X2 k) (trip.sl.v116 arg2 X2 k) := by
  rfl

theorem pay_r1_c1 (arg2 : Memref sig .tc .vmem S1x2x128x512 .f32) (v0 : Vec F S512x256 .bf16) (v2 : IVec S256x1 32)
    (X2 : BufTy.Contents (Elt F) arg2.view.ty) (k : Fin k0_t1_loop.trips) :
    k0_pay30 (trip.sl.r_15 arg2 v0 v2 X2 k)
      = rowCh1 (k0_pay1 v0) v2 (trip.sl.v111 arg2 X2 k) (trip.sl.v116 arg2 X2 k) := by
  rfl

theorem pay_r2_c0 (arg2 : Memref sig .tc .vmem S1x2x128x512 .f32) (v0 : Vec F S512x256 .bf16) (v2 : IVec S256x1 32)
    (X2 : BufTy.Contents (Elt F) arg2.view.ty) (k : Fin k0_t1_loop.trips) :
    k0_pay40 (trip.sl.r_22 arg2 v0 v2 X2 k)
      = rowCh0 (k0_pay1 v0) v2 (trip.sl.v213 arg2 X2 k) (trip.sl.v218 arg2 X2 k) := by
  rfl

theorem pay_r2_c1 (arg2 : Memref sig .tc .vmem S1x2x128x512 .f32) (v0 : Vec F S512x256 .bf16) (v2 : IVec S256x1 32)
    (X2 : BufTy.Contents (Elt F) arg2.view.ty) (k : Fin k0_t1_loop.trips) :
    k0_pay41 (trip.sl.r_20 arg2 v2 X2 k) (trip.sl.r_21 arg2 v0 v2 X2 k)
      = rowCh1 (k0_pay1 v0) v2 (trip.sl.v213 arg2 X2 k) (trip.sl.v218 arg2 X2 k) := by
  rfl

theorem pay_r3_c0 (arg2 : Memref sig .tc .vmem S1x2x128x512 .f32) (v0 : Vec F S512x256 .bf16) (v2 : IVec S256x1 32)
    (X2 : BufTy.Contents (Elt F) arg2.view.ty) (k : Fin k0_t1_loop.trips) :
    k0_pay57 (k0_pay1 v0) v2 (trip.sl.r_25 arg2 X2 k) (trip.sl.r_26 arg2 X2 k) (trip.sl.r_27 arg2 X2 k) (trip.sl.r_28 arg2 v2 X2 k) (trip.sl.r_29 arg2 v2 X2 k) trip.sl.cst_74 (trip.sl.r_30 arg2 X2 k)
      = rowCh0 (k0_pay1 v0) v2 (trip.sl.v315 arg2 X2 k) (trip.sl.v320 arg2 X2 k) := by
  rfl

theorem pay_r3_c1 (arg2 : Memref sig .tc .vmem S1x2x128x512 .f32) (v0 : Vec F S512x256 .bf16) (v2 : IVec S256x1 32)
    (X2 : BufTy.Contents (Elt F) arg2.view.ty) (k : Fin k0_t1_loop.trips) :
    k0_pay58 (k0_pay1 v0) v2 (trip.sl.r_25 arg2 X2 k) (trip.sl.r_26 arg2 X2 k) (trip.sl.r_27 arg2 X2 k) (trip.sl.r_28 arg2 v2 X2 k) (trip.sl.r_29 arg2 v2 X2 k) trip.sl.cst_74 (trip.sl.r_30 arg2 X2 k)
      = rowCh1 (k0_pay1 v0) v2 (trip.sl.v315 arg2 X2 k) (trip.sl.v320 arg2 X2 k) := by
  rfl

theorem pay_r4_c0 (arg2 : Memref sig .tc .vmem S1x2x128x512 .f32) (v0 : Vec F S512x256 .bf16) (v2 : IVec S256x1 32)
    (X2 : BufTy.Contents (Elt F) arg2.view.ty) (k : Fin k0_t1_loop.trips) :
    k0_pay69 (trip.sl.r_37 arg2 v0 v2 X2 k)
      = rowCh0 (k0_pay1 v0) v2 (trip.sl.v417 arg2 X2 k) (trip.sl.v422 arg2 X2 k) := by
  rfl

theorem pay_r4_c1 (arg2 : Memref sig .tc .vmem S1x2x128x512 .f32) (v0 : Vec F S512x256 .bf16) (v2 : IVec S256x1 32)
    (X2 : BufTy.Contents (Elt F) arg2.view.ty) (k : Fin k0_t1_loop.trips) :
    k0_pay70 (trip.sl.r_35 arg2 v2 X2 k) (trip.sl.r_36 arg2 v0 v2 X2 k)
      = rowCh1 (k0_pay1 v0) v2 (trip.sl.v417 arg2 X2 k) (trip.sl.v422 arg2 X2 k) := by
  rfl

theorem pay_r5_c0 (arg2 : Memref sig .tc .vmem S1x2x128x512 .f32) (v0 : Vec F S512x256 .bf16) (v2 : IVec S256x1 32)
    (X2 : BufTy.Contents (Elt F) arg2.view.ty) (k : Fin k0_t1_loop.trips) :
    k0_pay84 (k0_pay1 v0) v2 (trip.sl.r_40 arg2 X2 k) (trip.sl.r_41 arg2 X2 k) (trip.sl.r_42 arg2 X2 k) (trip.sl.r_43 arg2 v2 X2 k) (trip.sl.r_44 arg2 v2 X2 k)
      = rowCh0 (k0_pay1 v0) v2 (trip.sl.v519 arg2 X2 k) (trip.sl.v524 arg2 X2 k) := by
  rfl

theorem pay_r5_c1 (arg2 : Memref sig .tc .vmem S1x2x128x512 .f32) (v0 : Vec F S512x256 .bf16) (v2 : IVec S256x1 32)
    (X2 : BufTy.Contents (Elt F) arg2.view.ty) (k : Fin k0_t1_loop.trips) :
    k0_pay85 (k0_pay1 v0) v2 (trip.sl.r_40 arg2 X2 k) (trip.sl.r_41 arg2 X2 k) (trip.sl.r_42 arg2 X2 k) (trip.sl.r_43 arg2 v2 X2 k) (trip.sl.r_44 arg2 v2 X2 k)
      = rowCh1 (k0_pay1 v0) v2 (trip.sl.v519 arg2 X2 k) (trip.sl.v524 arg2 X2 k) := by
  rfl

theorem pay_r6_c0 (arg2 : Memref sig .tc .vmem S1x2x128x512 .f32) (v0 : Vec F S512x256 .bf16) (v2 : IVec S256x1 32)
    (X2 : BufTy.Contents (Elt F) arg2.view.ty) (k : Fin k0_t1_loop.trips) :
    k0_pay97 (trip.sl.r_49 arg2 v0 v2 X2 k)
      = rowCh0 (k0_pay1 v0) v2 (trip.sl.v621 arg2 X2 k) (trip.sl.v626 arg2 X2 k) := by
  rfl

theorem pay_r6_c1 (arg2 : Memref sig .tc .vmem S1x2x128x512 .f32) (v0 : Vec F S512x256 .bf16) (v2 : IVec S256x1 32)
    (X2 : BufTy.Contents (Elt F) arg2.view.ty) (k : Fin k0_t1_loop.trips) :
    k0_pay98 (trip.sl.r_50 arg2 v0 v2 X2 k)
      = rowCh1 (k0_pay1 v0) v2 (trip.sl.v621 arg2 X2 k) (trip.sl.v626 arg2 X2 k) := by
  rfl

theorem pay_r7_c0 (arg2 : Memref sig .tc .vmem S1x2x128x512 .f32) (v0 : Vec F S512x256 .bf16) (v2 : IVec S256x1 32)
    (X2 : BufTy.Contents (Elt F) arg2.view.ty) (k : Fin k0_t1_loop.trips) :
    k0_pay2 (trip.sl.r_57 arg2 v0 v2 X2 k)
      = rowCh0 (k0_pay1 v0) v2 (trip.sl.v723 arg2 X2 k) (trip.sl.v728 arg2 X2 k) := by
  rfl

theorem pay_r7_c1 (arg2 : Memref sig .tc .vmem S1x2x128x512 .f32) (v0 : Vec F S512x256 .bf16) (v2 : IVec S256x1 32)
    (X2 : BufTy.Contents (Elt F) arg2.view.ty) (k : Fin k0_t1_loop.trips) :
    k0_pay3 (trip.sl.r_58 arg2 v0 v2 X2 k)
      = rowCh1 (k0_pay1 v0) v2 (trip.sl.v723 arg2 X2 k) (trip.sl.v728 arg2 X2 k) := by
  rfl

/-! ## A load of row rr of a band is that row of the block -/

theorem load_r0_c0 (arg2 : Memref sig .tc .vmem S1x2x128x512 .f32) (X2 : BufTy.Contents (Elt F) arg2.view.ty) (k : Fin k0_t1_loop.trips) :
    (trip.sl.v9 arg2 X2 k : Vec F S1x512 .f32)
      = rowOf (arg2.view.read (Elt F) X2) (⟨0, by omega⟩ : Fin 2) (⟨8 * k.val + 0, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 0 _ _ k _ 0 _ b (by omega) (by omega) X2

theorem load_r0_c1 (arg2 : Memref sig .tc .vmem S1x2x128x512 .f32) (X2 : BufTy.Contents (Elt F) arg2.view.ty) (k : Fin k0_t1_loop.trips) :
    (trip.sl.v14 arg2 X2 k : Vec F S1x512 .f32)
      = rowOf (arg2.view.read (Elt F) X2) (⟨1, by omega⟩ : Fin 2) (⟨8 * k.val + 0, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 1 _ _ k _ 0 _ b (by omega) (by omega) X2

theorem load_r1_c0 (arg2 : Memref sig .tc .vmem S1x2x128x512 .f32) (X2 : BufTy.Contents (Elt F) arg2.view.ty) (k : Fin k0_t1_loop.trips) :
    (trip.sl.v111 arg2 X2 k : Vec F S1x512 .f32)
      = rowOf (arg2.view.read (Elt F) X2) (⟨0, by omega⟩ : Fin 2) (⟨8 * k.val + 1, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 0 _ _ k _ 1 _ b (by omega) (by omega) X2

theorem load_r1_c1 (arg2 : Memref sig .tc .vmem S1x2x128x512 .f32) (X2 : BufTy.Contents (Elt F) arg2.view.ty) (k : Fin k0_t1_loop.trips) :
    (trip.sl.v116 arg2 X2 k : Vec F S1x512 .f32)
      = rowOf (arg2.view.read (Elt F) X2) (⟨1, by omega⟩ : Fin 2) (⟨8 * k.val + 1, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 1 _ _ k _ 1 _ b (by omega) (by omega) X2

theorem load_r2_c0 (arg2 : Memref sig .tc .vmem S1x2x128x512 .f32) (X2 : BufTy.Contents (Elt F) arg2.view.ty) (k : Fin k0_t1_loop.trips) :
    (trip.sl.v213 arg2 X2 k : Vec F S1x512 .f32)
      = rowOf (arg2.view.read (Elt F) X2) (⟨0, by omega⟩ : Fin 2) (⟨8 * k.val + 2, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 0 _ _ k _ 2 _ b (by omega) (by omega) X2

theorem load_r2_c1 (arg2 : Memref sig .tc .vmem S1x2x128x512 .f32) (X2 : BufTy.Contents (Elt F) arg2.view.ty) (k : Fin k0_t1_loop.trips) :
    (trip.sl.v218 arg2 X2 k : Vec F S1x512 .f32)
      = rowOf (arg2.view.read (Elt F) X2) (⟨1, by omega⟩ : Fin 2) (⟨8 * k.val + 2, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 1 _ _ k _ 2 _ b (by omega) (by omega) X2

theorem load_r3_c0 (arg2 : Memref sig .tc .vmem S1x2x128x512 .f32) (X2 : BufTy.Contents (Elt F) arg2.view.ty) (k : Fin k0_t1_loop.trips) :
    (trip.sl.v315 arg2 X2 k : Vec F S1x512 .f32)
      = rowOf (arg2.view.read (Elt F) X2) (⟨0, by omega⟩ : Fin 2) (⟨8 * k.val + 3, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 0 _ _ k _ 3 _ b (by omega) (by omega) X2

theorem load_r3_c1 (arg2 : Memref sig .tc .vmem S1x2x128x512 .f32) (X2 : BufTy.Contents (Elt F) arg2.view.ty) (k : Fin k0_t1_loop.trips) :
    (trip.sl.v320 arg2 X2 k : Vec F S1x512 .f32)
      = rowOf (arg2.view.read (Elt F) X2) (⟨1, by omega⟩ : Fin 2) (⟨8 * k.val + 3, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 1 _ _ k _ 3 _ b (by omega) (by omega) X2

theorem load_r4_c0 (arg2 : Memref sig .tc .vmem S1x2x128x512 .f32) (X2 : BufTy.Contents (Elt F) arg2.view.ty) (k : Fin k0_t1_loop.trips) :
    (trip.sl.v417 arg2 X2 k : Vec F S1x512 .f32)
      = rowOf (arg2.view.read (Elt F) X2) (⟨0, by omega⟩ : Fin 2) (⟨8 * k.val + 4, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 0 _ _ k _ 4 _ b (by omega) (by omega) X2

theorem load_r4_c1 (arg2 : Memref sig .tc .vmem S1x2x128x512 .f32) (X2 : BufTy.Contents (Elt F) arg2.view.ty) (k : Fin k0_t1_loop.trips) :
    (trip.sl.v422 arg2 X2 k : Vec F S1x512 .f32)
      = rowOf (arg2.view.read (Elt F) X2) (⟨1, by omega⟩ : Fin 2) (⟨8 * k.val + 4, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 1 _ _ k _ 4 _ b (by omega) (by omega) X2

theorem load_r5_c0 (arg2 : Memref sig .tc .vmem S1x2x128x512 .f32) (X2 : BufTy.Contents (Elt F) arg2.view.ty) (k : Fin k0_t1_loop.trips) :
    (trip.sl.v519 arg2 X2 k : Vec F S1x512 .f32)
      = rowOf (arg2.view.read (Elt F) X2) (⟨0, by omega⟩ : Fin 2) (⟨8 * k.val + 5, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 0 _ _ k _ 5 _ b (by omega) (by omega) X2

theorem load_r5_c1 (arg2 : Memref sig .tc .vmem S1x2x128x512 .f32) (X2 : BufTy.Contents (Elt F) arg2.view.ty) (k : Fin k0_t1_loop.trips) :
    (trip.sl.v524 arg2 X2 k : Vec F S1x512 .f32)
      = rowOf (arg2.view.read (Elt F) X2) (⟨1, by omega⟩ : Fin 2) (⟨8 * k.val + 5, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 1 _ _ k _ 5 _ b (by omega) (by omega) X2

theorem load_r6_c0 (arg2 : Memref sig .tc .vmem S1x2x128x512 .f32) (X2 : BufTy.Contents (Elt F) arg2.view.ty) (k : Fin k0_t1_loop.trips) :
    (trip.sl.v621 arg2 X2 k : Vec F S1x512 .f32)
      = rowOf (arg2.view.read (Elt F) X2) (⟨0, by omega⟩ : Fin 2) (⟨8 * k.val + 6, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 0 _ _ k _ 6 _ b (by omega) (by omega) X2

theorem load_r6_c1 (arg2 : Memref sig .tc .vmem S1x2x128x512 .f32) (X2 : BufTy.Contents (Elt F) arg2.view.ty) (k : Fin k0_t1_loop.trips) :
    (trip.sl.v626 arg2 X2 k : Vec F S1x512 .f32)
      = rowOf (arg2.view.read (Elt F) X2) (⟨1, by omega⟩ : Fin 2) (⟨8 * k.val + 6, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 1 _ _ k _ 6 _ b (by omega) (by omega) X2

theorem load_r7_c0 (arg2 : Memref sig .tc .vmem S1x2x128x512 .f32) (X2 : BufTy.Contents (Elt F) arg2.view.ty) (k : Fin k0_t1_loop.trips) :
    (trip.sl.v723 arg2 X2 k : Vec F S1x512 .f32)
      = rowOf (arg2.view.read (Elt F) X2) (⟨0, by omega⟩ : Fin 2) (⟨8 * k.val + 7, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 0 _ _ k _ 7 _ b (by omega) (by omega) X2

theorem load_r7_c1 (arg2 : Memref sig .tc .vmem S1x2x128x512 .f32) (X2 : BufTy.Contents (Elt F) arg2.view.ty) (k : Fin k0_t1_loop.trips) :
    (trip.sl.v728 arg2 X2 k : Vec F S1x512 .f32)
      = rowOf (arg2.view.read (Elt F) X2) (⟨1, by omega⟩ : Fin 2) (⟨8 * k.val + 7, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 1 _ _ k _ 7 _ b (by omega) (by omega) X2

/-! ## The sixteen stores of a trip, one at a time

Store n writes row (n − 1) / 2 of channel (n − 1) % 2 of the band: an entry elsewhere is what the stores before it
left (`peel_n`), an entry of that row is the stored vector's (`hit_n`). -/

theorem peel_16 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 1 ∨ r'.val ≠ 8 * k.val + 7) :
    arg4.view.read (Elt F) (trip.sl.HW4_w16 arg2 arg4 v0 v2 X2 k f) (ix4 (0 : Fin 1) ch' r' w)
      = arg4.view.read (Elt F) (trip.sl.HW4_w15 arg2 arg4 v0 v2 X2 k f) (ix4 (0 : Fin 1) ch' r' w) :=
  RowGeom.row_write_miss arg4 1 _ _ k _ 7 _ w (by omega) (by omega) _ _ ch' r' hne

theorem hit_16 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨1, by omega⟩ : Fin 2) (⟨8 * k.val + 7, RowGeom.row_lt k (by omega)⟩ : Fin 128) w)
      = (k0_pay3 (trip.sl.r_58 arg2 v0 v2 X2 k)) (ix2 (0 : Fin 1) w) :=
  RowGeom.row_write_hit arg4 1 _ _ k _ 7 _ w (by omega) (by omega) _ _

theorem peel_15 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 0 ∨ r'.val ≠ 8 * k.val + 7) :
    arg4.view.read (Elt F) (trip.sl.HW4_w15 arg2 arg4 v0 v2 X2 k f) (ix4 (0 : Fin 1) ch' r' w)
      = arg4.view.read (Elt F) (trip.sl.HW4_w14 arg2 arg4 v0 v2 X2 k f) (ix4 (0 : Fin 1) ch' r' w) :=
  RowGeom.row_write_miss arg4 0 _ _ k _ 7 _ w (by omega) (by omega) _ _ ch' r' hne

theorem hit_15 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w15 arg2 arg4 v0 v2 X2 k f)
        (ix4 (0 : Fin 1) (⟨0, by omega⟩ : Fin 2) (⟨8 * k.val + 7, RowGeom.row_lt k (by omega)⟩ : Fin 128) w)
      = (k0_pay2 (trip.sl.r_57 arg2 v0 v2 X2 k)) (ix2 (0 : Fin 1) w) :=
  RowGeom.row_write_hit arg4 0 _ _ k _ 7 _ w (by omega) (by omega) _ _

theorem peel_14 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 1 ∨ r'.val ≠ 8 * k.val + 6) :
    arg4.view.read (Elt F) (trip.sl.HW4_w14 arg2 arg4 v0 v2 X2 k f) (ix4 (0 : Fin 1) ch' r' w)
      = arg4.view.read (Elt F) (trip.sl.HW4_w13 arg2 arg4 v0 v2 X2 k f) (ix4 (0 : Fin 1) ch' r' w) :=
  RowGeom.row_write_miss arg4 1 _ _ k _ 6 _ w (by omega) (by omega) _ _ ch' r' hne

theorem hit_14 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w14 arg2 arg4 v0 v2 X2 k f)
        (ix4 (0 : Fin 1) (⟨1, by omega⟩ : Fin 2) (⟨8 * k.val + 6, RowGeom.row_lt k (by omega)⟩ : Fin 128) w)
      = (k0_pay98 (trip.sl.r_50 arg2 v0 v2 X2 k)) (ix2 (0 : Fin 1) w) :=
  RowGeom.row_write_hit arg4 1 _ _ k _ 6 _ w (by omega) (by omega) _ _

theorem peel_13 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 0 ∨ r'.val ≠ 8 * k.val + 6) :
    arg4.view.read (Elt F) (trip.sl.HW4_w13 arg2 arg4 v0 v2 X2 k f) (ix4 (0 : Fin 1) ch' r' w)
      = arg4.view.read (Elt F) (trip.sl.HW4_w12 arg2 arg4 v0 v2 X2 k f) (ix4 (0 : Fin 1) ch' r' w) :=
  RowGeom.row_write_miss arg4 0 _ _ k _ 6 _ w (by omega) (by omega) _ _ ch' r' hne

theorem hit_13 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w13 arg2 arg4 v0 v2 X2 k f)
        (ix4 (0 : Fin 1) (⟨0, by omega⟩ : Fin 2) (⟨8 * k.val + 6, RowGeom.row_lt k (by omega)⟩ : Fin 128) w)
      = (k0_pay97 (trip.sl.r_49 arg2 v0 v2 X2 k)) (ix2 (0 : Fin 1) w) :=
  RowGeom.row_write_hit arg4 0 _ _ k _ 6 _ w (by omega) (by omega) _ _

theorem peel_12 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 1 ∨ r'.val ≠ 8 * k.val + 5) :
    arg4.view.read (Elt F) (trip.sl.HW4_w12 arg2 arg4 v0 v2 X2 k f) (ix4 (0 : Fin 1) ch' r' w)
      = arg4.view.read (Elt F) (trip.sl.HW4_w11 arg2 arg4 v0 v2 X2 k f) (ix4 (0 : Fin 1) ch' r' w) :=
  RowGeom.row_write_miss arg4 1 _ _ k _ 5 _ w (by omega) (by omega) _ _ ch' r' hne

theorem hit_12 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w12 arg2 arg4 v0 v2 X2 k f)
        (ix4 (0 : Fin 1) (⟨1, by omega⟩ : Fin 2) (⟨8 * k.val + 5, RowGeom.row_lt k (by omega)⟩ : Fin 128) w)
      = (k0_pay85 (k0_pay1 v0) v2 (trip.sl.r_40 arg2 X2 k) (trip.sl.r_41 arg2 X2 k) (trip.sl.r_42 arg2 X2 k) (trip.sl.r_43 arg2 v2 X2 k) (trip.sl.r_44 arg2 v2 X2 k)) (ix2 (0 : Fin 1) w) :=
  RowGeom.row_write_hit arg4 1 _ _ k _ 5 _ w (by omega) (by omega) _ _

theorem peel_11 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 0 ∨ r'.val ≠ 8 * k.val + 5) :
    arg4.view.read (Elt F) (trip.sl.HW4_w11 arg2 arg4 v0 v2 X2 k f) (ix4 (0 : Fin 1) ch' r' w)
      = arg4.view.read (Elt F) (trip.sl.HW4_w10 arg2 arg4 v0 v2 X2 k f) (ix4 (0 : Fin 1) ch' r' w) :=
  RowGeom.row_write_miss arg4 0 _ _ k _ 5 _ w (by omega) (by omega) _ _ ch' r' hne

theorem hit_11 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w11 arg2 arg4 v0 v2 X2 k f)
        (ix4 (0 : Fin 1) (⟨0, by omega⟩ : Fin 2) (⟨8 * k.val + 5, RowGeom.row_lt k (by omega)⟩ : Fin 128) w)
      = (k0_pay84 (k0_pay1 v0) v2 (trip.sl.r_40 arg2 X2 k) (trip.sl.r_41 arg2 X2 k) (trip.sl.r_42 arg2 X2 k) (trip.sl.r_43 arg2 v2 X2 k) (trip.sl.r_44 arg2 v2 X2 k)) (ix2 (0 : Fin 1) w) :=
  RowGeom.row_write_hit arg4 0 _ _ k _ 5 _ w (by omega) (by omega) _ _

theorem peel_10 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 1 ∨ r'.val ≠ 8 * k.val + 4) :
    arg4.view.read (Elt F) (trip.sl.HW4_w10 arg2 arg4 v0 v2 X2 k f) (ix4 (0 : Fin 1) ch' r' w)
      = arg4.view.read (Elt F) (trip.sl.HW4_w9 arg2 arg4 v0 v2 X2 k f) (ix4 (0 : Fin 1) ch' r' w) :=
  RowGeom.row_write_miss arg4 1 _ _ k _ 4 _ w (by omega) (by omega) _ _ ch' r' hne

theorem hit_10 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w10 arg2 arg4 v0 v2 X2 k f)
        (ix4 (0 : Fin 1) (⟨1, by omega⟩ : Fin 2) (⟨8 * k.val + 4, RowGeom.row_lt k (by omega)⟩ : Fin 128) w)
      = (k0_pay70 (trip.sl.r_35 arg2 v2 X2 k) (trip.sl.r_36 arg2 v0 v2 X2 k)) (ix2 (0 : Fin 1) w) :=
  RowGeom.row_write_hit arg4 1 _ _ k _ 4 _ w (by omega) (by omega) _ _

theorem peel_9 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 0 ∨ r'.val ≠ 8 * k.val + 4) :
    arg4.view.read (Elt F) (trip.sl.HW4_w9 arg2 arg4 v0 v2 X2 k f) (ix4 (0 : Fin 1) ch' r' w)
      = arg4.view.read (Elt F) (trip.sl.HW4_w8 arg2 arg4 v0 v2 X2 k f) (ix4 (0 : Fin 1) ch' r' w) :=
  RowGeom.row_write_miss arg4 0 _ _ k _ 4 _ w (by omega) (by omega) _ _ ch' r' hne

theorem hit_9 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w9 arg2 arg4 v0 v2 X2 k f)
        (ix4 (0 : Fin 1) (⟨0, by omega⟩ : Fin 2) (⟨8 * k.val + 4, RowGeom.row_lt k (by omega)⟩ : Fin 128) w)
      = (k0_pay69 (trip.sl.r_37 arg2 v0 v2 X2 k)) (ix2 (0 : Fin 1) w) :=
  RowGeom.row_write_hit arg4 0 _ _ k _ 4 _ w (by omega) (by omega) _ _

theorem peel_8 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 1 ∨ r'.val ≠ 8 * k.val + 3) :
    arg4.view.read (Elt F) (trip.sl.HW4_w8 arg2 arg4 v0 v2 X2 k f) (ix4 (0 : Fin 1) ch' r' w)
      = arg4.view.read (Elt F) (trip.sl.HW4_w7 arg2 arg4 v0 v2 X2 k f) (ix4 (0 : Fin 1) ch' r' w) :=
  RowGeom.row_write_miss arg4 1 _ _ k _ 3 _ w (by omega) (by omega) _ _ ch' r' hne

theorem hit_8 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w8 arg2 arg4 v0 v2 X2 k f)
        (ix4 (0 : Fin 1) (⟨1, by omega⟩ : Fin 2) (⟨8 * k.val + 3, RowGeom.row_lt k (by omega)⟩ : Fin 128) w)
      = (k0_pay58 (k0_pay1 v0) v2 (trip.sl.r_25 arg2 X2 k) (trip.sl.r_26 arg2 X2 k) (trip.sl.r_27 arg2 X2 k) (trip.sl.r_28 arg2 v2 X2 k) (trip.sl.r_29 arg2 v2 X2 k) trip.sl.cst_74 (trip.sl.r_30 arg2 X2 k)) (ix2 (0 : Fin 1) w) :=
  RowGeom.row_write_hit arg4 1 _ _ k _ 3 _ w (by omega) (by omega) _ _

theorem peel_7 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 0 ∨ r'.val ≠ 8 * k.val + 3) :
    arg4.view.read (Elt F) (trip.sl.HW4_w7 arg2 arg4 v0 v2 X2 k f) (ix4 (0 : Fin 1) ch' r' w)
      = arg4.view.read (Elt F) (trip.sl.HW4_w6 arg2 arg4 v0 v2 X2 k f) (ix4 (0 : Fin 1) ch' r' w) :=
  RowGeom.row_write_miss arg4 0 _ _ k _ 3 _ w (by omega) (by omega) _ _ ch' r' hne

theorem hit_7 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w7 arg2 arg4 v0 v2 X2 k f)
        (ix4 (0 : Fin 1) (⟨0, by omega⟩ : Fin 2) (⟨8 * k.val + 3, RowGeom.row_lt k (by omega)⟩ : Fin 128) w)
      = (k0_pay57 (k0_pay1 v0) v2 (trip.sl.r_25 arg2 X2 k) (trip.sl.r_26 arg2 X2 k) (trip.sl.r_27 arg2 X2 k) (trip.sl.r_28 arg2 v2 X2 k) (trip.sl.r_29 arg2 v2 X2 k) trip.sl.cst_74 (trip.sl.r_30 arg2 X2 k)) (ix2 (0 : Fin 1) w) :=
  RowGeom.row_write_hit arg4 0 _ _ k _ 3 _ w (by omega) (by omega) _ _

theorem peel_6 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 1 ∨ r'.val ≠ 8 * k.val + 2) :
    arg4.view.read (Elt F) (trip.sl.HW4_w6 arg2 arg4 v0 v2 X2 k f) (ix4 (0 : Fin 1) ch' r' w)
      = arg4.view.read (Elt F) (trip.sl.HW4_w5 arg2 arg4 v0 v2 X2 k f) (ix4 (0 : Fin 1) ch' r' w) :=
  RowGeom.row_write_miss arg4 1 _ _ k _ 2 _ w (by omega) (by omega) _ _ ch' r' hne

theorem hit_6 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w6 arg2 arg4 v0 v2 X2 k f)
        (ix4 (0 : Fin 1) (⟨1, by omega⟩ : Fin 2) (⟨8 * k.val + 2, RowGeom.row_lt k (by omega)⟩ : Fin 128) w)
      = (k0_pay41 (trip.sl.r_20 arg2 v2 X2 k) (trip.sl.r_21 arg2 v0 v2 X2 k)) (ix2 (0 : Fin 1) w) :=
  RowGeom.row_write_hit arg4 1 _ _ k _ 2 _ w (by omega) (by omega) _ _

theorem peel_5 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 0 ∨ r'.val ≠ 8 * k.val + 2) :
    arg4.view.read (Elt F) (trip.sl.HW4_w5 arg2 arg4 v0 v2 X2 k f) (ix4 (0 : Fin 1) ch' r' w)
      = arg4.view.read (Elt F) (trip.sl.HW4_w4 arg2 arg4 v0 v2 X2 k f) (ix4 (0 : Fin 1) ch' r' w) :=
  RowGeom.row_write_miss arg4 0 _ _ k _ 2 _ w (by omega) (by omega) _ _ ch' r' hne

theorem hit_5 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w5 arg2 arg4 v0 v2 X2 k f)
        (ix4 (0 : Fin 1) (⟨0, by omega⟩ : Fin 2) (⟨8 * k.val + 2, RowGeom.row_lt k (by omega)⟩ : Fin 128) w)
      = (k0_pay40 (trip.sl.r_22 arg2 v0 v2 X2 k)) (ix2 (0 : Fin 1) w) :=
  RowGeom.row_write_hit arg4 0 _ _ k _ 2 _ w (by omega) (by omega) _ _

theorem peel_4 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 1 ∨ r'.val ≠ 8 * k.val + 1) :
    arg4.view.read (Elt F) (trip.sl.HW4_w4 arg2 arg4 v0 v2 X2 k f) (ix4 (0 : Fin 1) ch' r' w)
      = arg4.view.read (Elt F) (trip.sl.HW4_w3 arg2 arg4 v0 v2 X2 k f) (ix4 (0 : Fin 1) ch' r' w) :=
  RowGeom.row_write_miss arg4 1 _ _ k _ 1 _ w (by omega) (by omega) _ _ ch' r' hne

theorem hit_4 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w4 arg2 arg4 v0 v2 X2 k f)
        (ix4 (0 : Fin 1) (⟨1, by omega⟩ : Fin 2) (⟨8 * k.val + 1, RowGeom.row_lt k (by omega)⟩ : Fin 128) w)
      = (k0_pay30 (trip.sl.r_15 arg2 v0 v2 X2 k)) (ix2 (0 : Fin 1) w) :=
  RowGeom.row_write_hit arg4 1 _ _ k _ 1 _ w (by omega) (by omega) _ _

theorem peel_3 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 0 ∨ r'.val ≠ 8 * k.val + 1) :
    arg4.view.read (Elt F) (trip.sl.HW4_w3 arg2 arg4 v0 v2 X2 k f) (ix4 (0 : Fin 1) ch' r' w)
      = arg4.view.read (Elt F) (trip.sl.HW4_w2 arg2 arg4 v0 v2 X2 k f) (ix4 (0 : Fin 1) ch' r' w) :=
  RowGeom.row_write_miss arg4 0 _ _ k _ 1 _ w (by omega) (by omega) _ _ ch' r' hne

theorem hit_3 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w3 arg2 arg4 v0 v2 X2 k f)
        (ix4 (0 : Fin 1) (⟨0, by omega⟩ : Fin 2) (⟨8 * k.val + 1, RowGeom.row_lt k (by omega)⟩ : Fin 128) w)
      = (k0_pay29 (k0_pay1 v0) v2 (trip.sl.r_9 arg2 X2 k) (trip.sl.r_10 arg2 X2 k) (trip.sl.r_11 arg2 X2 k) (trip.sl.r_12 arg2 X2 k) (trip.sl.r_13 arg2 v2 X2 k) (trip.sl.r_14 arg2 v2 X2 k) trip.sl.cst_74) (ix2 (0 : Fin 1) w) :=
  RowGeom.row_write_hit arg4 0 _ _ k _ 1 _ w (by omega) (by omega) _ _

theorem peel_2 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 1 ∨ r'.val ≠ 8 * k.val + 0) :
    arg4.view.read (Elt F) (trip.sl.HW4_w2 arg2 arg4 v0 v2 X2 k f) (ix4 (0 : Fin 1) ch' r' w)
      = arg4.view.read (Elt F) (trip.sl.HW4_w1 arg2 arg4 v0 v2 X2 k f) (ix4 (0 : Fin 1) ch' r' w) :=
  RowGeom.row_write_miss arg4 1 _ _ k _ 0 _ w (by omega) (by omega) _ _ ch' r' hne

theorem hit_2 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w2 arg2 arg4 v0 v2 X2 k f)
        (ix4 (0 : Fin 1) (⟨1, by omega⟩ : Fin 2) (⟨8 * k.val + 0, RowGeom.row_lt k (by omega)⟩ : Fin 128) w)
      = (k0_pay12 (trip.sl.r_4 arg2 v2 X2 k) (trip.sl.r_5 arg2 v0 v2 X2 k)) (ix2 (0 : Fin 1) w) :=
  RowGeom.row_write_hit arg4 1 _ _ k _ 0 _ w (by omega) (by omega) _ _

theorem peel_1 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 0 ∨ r'.val ≠ 8 * k.val + 0) :
    arg4.view.read (Elt F) (trip.sl.HW4_w1 arg2 arg4 v0 v2 X2 k f) (ix4 (0 : Fin 1) ch' r' w)
      = arg4.view.read (Elt F) f (ix4 (0 : Fin 1) ch' r' w) :=
  RowGeom.row_write_miss arg4 0 _ _ k _ 0 _ w (by omega) (by omega) _ _ ch' r' hne

theorem hit_1 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w1 arg2 arg4 v0 v2 X2 k f)
        (ix4 (0 : Fin 1) (⟨0, by omega⟩ : Fin 2) (⟨8 * k.val + 0, RowGeom.row_lt k (by omega)⟩ : Fin 128) w)
      = (k0_pay11 (trip.sl.r_4 arg2 v2 X2 k) (trip.sl.r_6 arg2 v0 v2 X2 k)) (ix2 (0 : Fin 1) w) :=
  RowGeom.row_write_hit arg4 0 _ _ k _ 0 _ w (by omega) (by omega) _ _

/-! ## The band after the sixteen stores, read at an entry -/

theorem read_r0_c0 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨0, by omega⟩ : Fin 2) (⟨8 * k.val + 0, RowGeom.row_lt k (by omega)⟩ : Fin 128) w)
      = outBlock v0 v2 (arg2.view.read (Elt F) X2) (⟨0, by omega⟩ : Fin 2) (⟨8 * k.val + 0, RowGeom.row_lt k (by omega)⟩ : Fin 128) w := by
  refine (peel_16 arg2 arg4 v0 v2 X2 k f _ _ w (Or.inr (by show 8 * k.val + 0 ≠ 8 * k.val + 7; omega))).trans ?_
  refine (peel_15 arg2 arg4 v0 v2 X2 k f _ _ w (Or.inr (by show 8 * k.val + 0 ≠ 8 * k.val + 7; omega))).trans ?_
  refine (peel_14 arg2 arg4 v0 v2 X2 k f _ _ w (Or.inr (by show 8 * k.val + 0 ≠ 8 * k.val + 6; omega))).trans ?_
  refine (peel_13 arg2 arg4 v0 v2 X2 k f _ _ w (Or.inr (by show 8 * k.val + 0 ≠ 8 * k.val + 6; omega))).trans ?_
  refine (peel_12 arg2 arg4 v0 v2 X2 k f _ _ w (Or.inr (by show 8 * k.val + 0 ≠ 8 * k.val + 5; omega))).trans ?_
  refine (peel_11 arg2 arg4 v0 v2 X2 k f _ _ w (Or.inr (by show 8 * k.val + 0 ≠ 8 * k.val + 5; omega))).trans ?_
  refine (peel_10 arg2 arg4 v0 v2 X2 k f _ _ w (Or.inr (by show 8 * k.val + 0 ≠ 8 * k.val + 4; omega))).trans ?_
  refine (peel_9 arg2 arg4 v0 v2 X2 k f _ _ w (Or.inr (by show 8 * k.val + 0 ≠ 8 * k.val + 4; omega))).trans ?_
  refine (peel_8 arg2 arg4 v0 v2 X2 k f _ _ w (Or.inr (by show 8 * k.val + 0 ≠ 8 * k.val + 3; omega))).trans ?_
  refine (peel_7 arg2 arg4 v0 v2 X2 k f _ _ w (Or.inr (by show 8 * k.val + 0 ≠ 8 * k.val + 3; omega))).trans ?_
  refine (peel_6 arg2 arg4 v0 v2 X2 k f _ _ w (Or.inr (by show 8 * k.val + 0 ≠ 8 * k.val + 2; omega))).trans ?_
  refine (peel_5 arg2 arg4 v0 v2 X2 k f _ _ w (Or.inr (by show 8 * k.val + 0 ≠ 8 * k.val + 2; omega))).trans ?_
  refine (peel_4 arg2 arg4 v0 v2 X2 k f _ _ w (Or.inr (by show 8 * k.val + 0 ≠ 8 * k.val + 1; omega))).trans ?_
  refine (peel_3 arg2 arg4 v0 v2 X2 k f _ _ w (Or.inr (by show 8 * k.val + 0 ≠ 8 * k.val + 1; omega))).trans ?_
  refine (peel_2 arg2 arg4 v0 v2 X2 k f _ _ w (Or.inl (by show 0 ≠ 1; omega))).trans ?_
  refine (hit_1 arg2 arg4 v0 v2 X2 k f w).trans ?_
  rw [pay_r0_c0, load_r0_c0, load_r0_c1]
  unfold outBlock
  exact (if_pos rfl).symm

theorem read_r0_c1 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨1, by omega⟩ : Fin 2) (⟨8 * k.val + 0, RowGeom.row_lt k (by omega)⟩ : Fin 128) w)
      = outBlock v0 v2 (arg2.view.read (Elt F) X2) (⟨1, by omega⟩ : Fin 2) (⟨8 * k.val + 0, RowGeom.row_lt k (by omega)⟩ : Fin 128) w := by
  refine (peel_16 arg2 arg4 v0 v2 X2 k f _ _ w (Or.inr (by show 8 * k.val + 0 ≠ 8 * k.val + 7; omega))).trans ?_
  refine (peel_15 arg2 arg4 v0 v2 X2 k f _ _ w (Or.inr (by show 8 * k.val + 0 ≠ 8 * k.val + 7; omega))).trans ?_
  refine (peel_14 arg2 arg4 v0 v2 X2 k f _ _ w (Or.inr (by show 8 * k.val + 0 ≠ 8 * k.val + 6; omega))).trans ?_
  refine (peel_13 arg2 arg4 v0 v2 X2 k f _ _ w (Or.inr (by show 8 * k.val + 0 ≠ 8 * k.val + 6; omega))).trans ?_
  refine (peel_12 arg2 arg4 v0 v2 X2 k f _ _ w (Or.inr (by show 8 * k.val + 0 ≠ 8 * k.val + 5; omega))).trans ?_
  refine (peel_11 arg2 arg4 v0 v2 X2 k f _ _ w (Or.inr (by show 8 * k.val + 0 ≠ 8 * k.val + 5; omega))).trans ?_
  refine (peel_10 arg2 arg4 v0 v2 X2 k f _ _ w (Or.inr (by show 8 * k.val + 0 ≠ 8 * k.val + 4; omega))).trans ?_
  refine (peel_9 arg2 arg4 v0 v2 X2 k f _ _ w (Or.inr (by show 8 * k.val + 0 ≠ 8 * k.val + 4; omega))).trans ?_
  refine (peel_8 arg2 arg4 v0 v2 X2 k f _ _ w (Or.inr (by show 8 * k.val + 0 ≠ 8 * k.val + 3; omega))).trans ?_
  refine (peel_7 arg2 arg4 v0 v2 X2 k f _ _ w (Or.inr (by show 8 * k.val + 0 ≠ 8 * k.val + 3; omega))).trans ?_
  refine (peel_6 arg2 arg4 v0 v2 X2 k f _ _ w (Or.inr (by show 8 * k.val + 0 ≠ 8 * k.val + 2; omega))).trans ?_
  refine (peel_5 arg2 arg4 v0 v2 X2 k f _ _ w (Or.inr (by show 8 * k.val + 0 ≠ 8 * k.val + 2; omega))).trans ?_
  refine (peel_4 arg2 arg4 v0 v2 X2 k f _ _ w (Or.inr (by show 8 * k.val + 0 ≠ 8 * k.val + 1; omega))).trans ?_
  refine (peel_3 arg2 arg4 v0 v2 X2 k f _ _ w (Or.inr (by show 8 * k.val + 0 ≠ 8 * k.val + 1; omega))).trans ?_
  refine (hit_2 arg2 arg4 v0 v2 X2 k f w).trans ?_
  rw [pay_r0_c1, load_r0_c0, load_r0_c1]
  unfold outBlock
  exact (if_neg (by decide)).symm

theorem read_r1_c0 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨0, by omega⟩ : Fin 2) (⟨8 * k.val + 1, RowGeom.row_lt k (by omega)⟩ : Fin 128) w)
      = outBlock v0 v2 (arg2.view.read (Elt F) X2) (⟨0, by omega⟩ : Fin 2) (⟨8 * k.val + 1, RowGeom.row_lt k (by omega)⟩ : Fin 128) w := by
  refine (peel_16 arg2 arg4 v0 v2 X2 k f _ _ w (Or.inr (by show 8 * k.val + 1 ≠ 8 * k.val + 7; omega))).trans ?_
  refine (peel_15 arg2 arg4 v0 v2 X2 k f _ _ w (Or.inr (by show 8 * k.val + 1 ≠ 8 * k.val + 7; omega))).trans ?_
  refine (peel_14 arg2 arg4 v0 v2 X2 k f _ _ w (Or.inr (by show 8 * k.val + 1 ≠ 8 * k.val + 6; omega))).trans ?_
  refine (peel_13 arg2 arg4 v0 v2 X2 k f _ _ w (Or.inr (by show 8 * k.val + 1 ≠ 8 * k.val + 6; omega))).trans ?_
  refine (peel_12 arg2 arg4 v0 v2 X2 k f _ _ w (Or.inr (by show 8 * k.val + 1 ≠ 8 * k.val + 5; omega))).trans ?_
  refine (peel_11 arg2 arg4 v0 v2 X2 k f _ _ w (Or.inr (by show 8 * k.val + 1 ≠ 8 * k.val + 5; omega))).trans ?_
  refine (peel_10 arg2 arg4 v0 v2 X2 k f _ _ w (Or.inr (by show 8 * k.val + 1 ≠ 8 * k.val + 4; omega))).trans ?_
  refine (peel_9 arg2 arg4 v0 v2 X2 k f _ _ w (Or.inr (by show 8 * k.val + 1 ≠ 8 * k.val + 4; omega))).trans ?_
  refine (peel_8 arg2 arg4 v0 v2 X2 k f _ _ w (Or.inr (by show 8 * k.val + 1 ≠ 8 * k.val + 3; omega))).trans ?_
  refine (peel_7 arg2 arg4 v0 v2 X2 k f _ _ w (Or.inr (by show 8 * k.val + 1 ≠ 8 * k.val + 3; omega))).trans ?_
  refine (peel_6 arg2 arg4 v0 v2 X2 k f _ _ w (Or.inr (by show 8 * k.val + 1 ≠ 8 * k.val + 2; omega))).trans ?_
  refine (peel_5 arg2 arg4 v0 v2 X2 k f _ _ w (Or.inr (by show 8 * k.val + 1 ≠ 8 * k.val + 2; omega))).trans ?_
  refine (peel_4 arg2 arg4 v0 v2 X2 k f _ _ w (Or.inl (by show 0 ≠ 1; omega))).trans ?_
  refine (hit_3 arg2 arg4 v0 v2 X2 k f w).trans ?_
  rw [pay_r1_c0, load_r1_c0, load_r1_c1]
  unfold outBlock
  exact (if_pos rfl).symm

theorem read_r1_c1 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨1, by omega⟩ : Fin 2) (⟨8 * k.val + 1, RowGeom.row_lt k (by omega)⟩ : Fin 128) w)
      = outBlock v0 v2 (arg2.view.read (Elt F) X2) (⟨1, by omega⟩ : Fin 2) (⟨8 * k.val + 1, RowGeom.row_lt k (by omega)⟩ : Fin 128) w := by
  refine (peel_16 arg2 arg4 v0 v2 X2 k f _ _ w (Or.inr (by show 8 * k.val + 1 ≠ 8 * k.val + 7; omega))).trans ?_
  refine (peel_15 arg2 arg4 v0 v2 X2 k f _ _ w (Or.inr (by show 8 * k.val + 1 ≠ 8 * k.val + 7; omega))).trans ?_
  refine (peel_14 arg2 arg4 v0 v2 X2 k f _ _ w (Or.inr (by show 8 * k.val + 1 ≠ 8 * k.val + 6; omega))).trans ?_
  refine (peel_13 arg2 arg4 v0 v2 X2 k f _ _ w (Or.inr (by show 8 * k.val + 1 ≠ 8 * k.val + 6; omega))).trans ?_
  refine (peel_12 arg2 arg4 v0 v2 X2 k f _ _ w (Or.inr (by show 8 * k.val + 1 ≠ 8 * k.val + 5; omega))).trans ?_
  refine (peel_11 arg2 arg4 v0 v2 X2 k f _ _ w (Or.inr (by show 8 * k.val + 1 ≠ 8 * k.val + 5; omega))).trans ?_
  refine (peel_10 arg2 arg4 v0 v2 X2 k f _ _ w (Or.inr (by show 8 * k.val + 1 ≠ 8 * k.val + 4; omega))).trans ?_
  refine (peel_9 arg2 arg4 v0 v2 X2 k f _ _ w (Or.inr (by show 8 * k.val + 1 ≠ 8 * k.val + 4; omega))).trans ?_
  refine (peel_8 arg2 arg4 v0 v2 X2 k f _ _ w (Or.inr (by show 8 * k.val + 1 ≠ 8 * k.val + 3; omega))).trans ?_
  refine (peel_7 arg2 arg4 v0 v2 X2 k f _ _ w (Or.inr (by show 8 * k.val + 1 ≠ 8 * k.val + 3; omega))).trans ?_
  refine (peel_6 arg2 arg4 v0 v2 X2 k f _ _ w (Or.inr (by show 8 * k.val + 1 ≠ 8 * k.val + 2; omega))).trans ?_
  refine (peel_5 arg2 arg4 v0 v2 X2 k f _ _ w (Or.inr (by show 8 * k.val + 1 ≠ 8 * k.val + 2; omega))).trans ?_
  refine (hit_4 arg2 arg4 v0 v2 X2 k f w).trans ?_
  rw [pay_r1_c1, load_r1_c0, load_r1_c1]
  unfold outBlock
  exact (if_neg (by decide)).symm

theorem read_r2_c0 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨0, by omega⟩ : Fin 2) (⟨8 * k.val + 2, RowGeom.row_lt k (by omega)⟩ : Fin 128) w)
      = outBlock v0 v2 (arg2.view.read (Elt F) X2) (⟨0, by omega⟩ : Fin 2) (⟨8 * k.val + 2, RowGeom.row_lt k (by omega)⟩ : Fin 128) w := by
  refine (peel_16 arg2 arg4 v0 v2 X2 k f _ _ w (Or.inr (by show 8 * k.val + 2 ≠ 8 * k.val + 7; omega))).trans ?_
  refine (peel_15 arg2 arg4 v0 v2 X2 k f _ _ w (Or.inr (by show 8 * k.val + 2 ≠ 8 * k.val + 7; omega))).trans ?_
  refine (peel_14 arg2 arg4 v0 v2 X2 k f _ _ w (Or.inr (by show 8 * k.val + 2 ≠ 8 * k.val + 6; omega))).trans ?_
  refine (peel_13 arg2 arg4 v0 v2 X2 k f _ _ w (Or.inr (by show 8 * k.val + 2 ≠ 8 * k.val + 6; omega))).trans ?_
  refine (peel_12 arg2 arg4 v0 v2 X2 k f _ _ w (Or.inr (by show 8 * k.val + 2 ≠ 8 * k.val + 5; omega))).trans ?_
  refine (peel_11 arg2 arg4 v0 v2 X2 k f _ _ w (Or.inr (by show 8 * k.val + 2 ≠ 8 * k.val + 5; omega))).trans ?_
  refine (peel_10 arg2 arg4 v0 v2 X2 k f _ _ w (Or.inr (by show 8 * k.val + 2 ≠ 8 * k.val + 4; omega))).trans ?_
  refine (peel_9 arg2 arg4 v0 v2 X2 k f _ _ w (Or.inr (by show 8 * k.val + 2 ≠ 8 * k.val + 4; omega))).trans ?_
  refine (peel_8 arg2 arg4 v0 v2 X2 k f _ _ w (Or.inr (by show 8 * k.val + 2 ≠ 8 * k.val + 3; omega))).trans ?_
  refine (peel_7 arg2 arg4 v0 v2 X2 k f _ _ w (Or.inr (by show 8 * k.val + 2 ≠ 8 * k.val + 3; omega))).trans ?_
  refine (peel_6 arg2 arg4 v0 v2 X2 k f _ _ w (Or.inl (by show 0 ≠ 1; omega))).trans ?_
  refine (hit_5 arg2 arg4 v0 v2 X2 k f w).trans ?_
  rw [pay_r2_c0, load_r2_c0, load_r2_c1]
  unfold outBlock
  exact (if_pos rfl).symm

theorem read_r2_c1 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨1, by omega⟩ : Fin 2) (⟨8 * k.val + 2, RowGeom.row_lt k (by omega)⟩ : Fin 128) w)
      = outBlock v0 v2 (arg2.view.read (Elt F) X2) (⟨1, by omega⟩ : Fin 2) (⟨8 * k.val + 2, RowGeom.row_lt k (by omega)⟩ : Fin 128) w := by
  refine (peel_16 arg2 arg4 v0 v2 X2 k f _ _ w (Or.inr (by show 8 * k.val + 2 ≠ 8 * k.val + 7; omega))).trans ?_
  refine (peel_15 arg2 arg4 v0 v2 X2 k f _ _ w (Or.inr (by show 8 * k.val + 2 ≠ 8 * k.val + 7; omega))).trans ?_
  refine (peel_14 arg2 arg4 v0 v2 X2 k f _ _ w (Or.inr (by show 8 * k.val + 2 ≠ 8 * k.val + 6; omega))).trans ?_
  refine (peel_13 arg2 arg4 v0 v2 X2 k f _ _ w (Or.inr (by show 8 * k.val + 2 ≠ 8 * k.val + 6; omega))).trans ?_
  refine (peel_12 arg2 arg4 v0 v2 X2 k f _ _ w (Or.inr (by show 8 * k.val + 2 ≠ 8 * k.val + 5; omega))).trans ?_
  refine (peel_11 arg2 arg4 v0 v2 X2 k f _ _ w (Or.inr (by show 8 * k.val + 2 ≠ 8 * k.val + 5; omega))).trans ?_
  refine (peel_10 arg2 arg4 v0 v2 X2 k f _ _ w (Or.inr (by show 8 * k.val + 2 ≠ 8 * k.val + 4; omega))).trans ?_
  refine (peel_9 arg2 arg4 v0 v2 X2 k f _ _ w (Or.inr (by show 8 * k.val + 2 ≠ 8 * k.val + 4; omega))).trans ?_
  refine (peel_8 arg2 arg4 v0 v2 X2 k f _ _ w (Or.inr (by show 8 * k.val + 2 ≠ 8 * k.val + 3; omega))).trans ?_
  refine (peel_7 arg2 arg4 v0 v2 X2 k f _ _ w (Or.inr (by show 8 * k.val + 2 ≠ 8 * k.val + 3; omega))).trans ?_
  refine (hit_6 arg2 arg4 v0 v2 X2 k f w).trans ?_
  rw [pay_r2_c1, load_r2_c0, load_r2_c1]
  unfold outBlock
  exact (if_neg (by decide)).symm

theorem read_r3_c0 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨0, by omega⟩ : Fin 2) (⟨8 * k.val + 3, RowGeom.row_lt k (by omega)⟩ : Fin 128) w)
      = outBlock v0 v2 (arg2.view.read (Elt F) X2) (⟨0, by omega⟩ : Fin 2) (⟨8 * k.val + 3, RowGeom.row_lt k (by omega)⟩ : Fin 128) w := by
  refine (peel_16 arg2 arg4 v0 v2 X2 k f _ _ w (Or.inr (by show 8 * k.val + 3 ≠ 8 * k.val + 7; omega))).trans ?_
  refine (peel_15 arg2 arg4 v0 v2 X2 k f _ _ w (Or.inr (by show 8 * k.val + 3 ≠ 8 * k.val + 7; omega))).trans ?_
  refine (peel_14 arg2 arg4 v0 v2 X2 k f _ _ w (Or.inr (by show 8 * k.val + 3 ≠ 8 * k.val + 6; omega))).trans ?_
  refine (peel_13 arg2 arg4 v0 v2 X2 k f _ _ w (Or.inr (by show 8 * k.val + 3 ≠ 8 * k.val + 6; omega))).trans ?_
  refine (peel_12 arg2 arg4 v0 v2 X2 k f _ _ w (Or.inr (by show 8 * k.val + 3 ≠ 8 * k.val + 5; omega))).trans ?_
  refine (peel_11 arg2 arg4 v0 v2 X2 k f _ _ w (Or.inr (by show 8 * k.val + 3 ≠ 8 * k.val + 5; omega))).trans ?_
  refine (peel_10 arg2 arg4 v0 v2 X2 k f _ _ w (Or.inr (by show 8 * k.val + 3 ≠ 8 * k.val + 4; omega))).trans ?_
  refine (peel_9 arg2 arg4 v0 v2 X2 k f _ _ w (Or.inr (by show 8 * k.val + 3 ≠ 8 * k.val + 4; omega))).trans ?_
  refine (peel_8 arg2 arg4 v0 v2 X2 k f _ _ w (Or.inl (by show 0 ≠ 1; omega))).trans ?_
  refine (hit_7 arg2 arg4 v0 v2 X2 k f w).trans ?_
  rw [pay_r3_c0, load_r3_c0, load_r3_c1]
  unfold outBlock
  exact (if_pos rfl).symm

theorem read_r3_c1 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨1, by omega⟩ : Fin 2) (⟨8 * k.val + 3, RowGeom.row_lt k (by omega)⟩ : Fin 128) w)
      = outBlock v0 v2 (arg2.view.read (Elt F) X2) (⟨1, by omega⟩ : Fin 2) (⟨8 * k.val + 3, RowGeom.row_lt k (by omega)⟩ : Fin 128) w := by
  refine (peel_16 arg2 arg4 v0 v2 X2 k f _ _ w (Or.inr (by show 8 * k.val + 3 ≠ 8 * k.val + 7; omega))).trans ?_
  refine (peel_15 arg2 arg4 v0 v2 X2 k f _ _ w (Or.inr (by show 8 * k.val + 3 ≠ 8 * k.val + 7; omega))).trans ?_
  refine (peel_14 arg2 arg4 v0 v2 X2 k f _ _ w (Or.inr (by show 8 * k.val + 3 ≠ 8 * k.val + 6; omega))).trans ?_
  refine (peel_13 arg2 arg4 v0 v2 X2 k f _ _ w (Or.inr (by show 8 * k.val + 3 ≠ 8 * k.val + 6; omega))).trans ?_
  refine (peel_12 arg2 arg4 v0 v2 X2 k f _ _ w (Or.inr (by show 8 * k.val + 3 ≠ 8 * k.val + 5; omega))).trans ?_
  refine (peel_11 arg2 arg4 v0 v2 X2 k f _ _ w (Or.inr (by show 8 * k.val + 3 ≠ 8 * k.val + 5; omega))).trans ?_
  refine (peel_10 arg2 arg4 v0 v2 X2 k f _ _ w (Or.inr (by show 8 * k.val + 3 ≠ 8 * k.val + 4; omega))).trans ?_
  refine (peel_9 arg2 arg4 v0 v2 X2 k f _ _ w (Or.inr (by show 8 * k.val + 3 ≠ 8 * k.val + 4; omega))).trans ?_
  refine (hit_8 arg2 arg4 v0 v2 X2 k f w).trans ?_
  rw [pay_r3_c1, load_r3_c0, load_r3_c1]
  unfold outBlock
  exact (if_neg (by decide)).symm

theorem read_r4_c0 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨0, by omega⟩ : Fin 2) (⟨8 * k.val + 4, RowGeom.row_lt k (by omega)⟩ : Fin 128) w)
      = outBlock v0 v2 (arg2.view.read (Elt F) X2) (⟨0, by omega⟩ : Fin 2) (⟨8 * k.val + 4, RowGeom.row_lt k (by omega)⟩ : Fin 128) w := by
  refine (peel_16 arg2 arg4 v0 v2 X2 k f _ _ w (Or.inr (by show 8 * k.val + 4 ≠ 8 * k.val + 7; omega))).trans ?_
  refine (peel_15 arg2 arg4 v0 v2 X2 k f _ _ w (Or.inr (by show 8 * k.val + 4 ≠ 8 * k.val + 7; omega))).trans ?_
  refine (peel_14 arg2 arg4 v0 v2 X2 k f _ _ w (Or.inr (by show 8 * k.val + 4 ≠ 8 * k.val + 6; omega))).trans ?_
  refine (peel_13 arg2 arg4 v0 v2 X2 k f _ _ w (Or.inr (by show 8 * k.val + 4 ≠ 8 * k.val + 6; omega))).trans ?_
  refine (peel_12 arg2 arg4 v0 v2 X2 k f _ _ w (Or.inr (by show 8 * k.val + 4 ≠ 8 * k.val + 5; omega))).trans ?_
  refine (peel_11 arg2 arg4 v0 v2 X2 k f _ _ w (Or.inr (by show 8 * k.val + 4 ≠ 8 * k.val + 5; omega))).trans ?_
  refine (peel_10 arg2 arg4 v0 v2 X2 k f _ _ w (Or.inl (by show 0 ≠ 1; omega))).trans ?_
  refine (hit_9 arg2 arg4 v0 v2 X2 k f w).trans ?_
  rw [pay_r4_c0, load_r4_c0, load_r4_c1]
  unfold outBlock
  exact (if_pos rfl).symm

theorem read_r4_c1 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨1, by omega⟩ : Fin 2) (⟨8 * k.val + 4, RowGeom.row_lt k (by omega)⟩ : Fin 128) w)
      = outBlock v0 v2 (arg2.view.read (Elt F) X2) (⟨1, by omega⟩ : Fin 2) (⟨8 * k.val + 4, RowGeom.row_lt k (by omega)⟩ : Fin 128) w := by
  refine (peel_16 arg2 arg4 v0 v2 X2 k f _ _ w (Or.inr (by show 8 * k.val + 4 ≠ 8 * k.val + 7; omega))).trans ?_
  refine (peel_15 arg2 arg4 v0 v2 X2 k f _ _ w (Or.inr (by show 8 * k.val + 4 ≠ 8 * k.val + 7; omega))).trans ?_
  refine (peel_14 arg2 arg4 v0 v2 X2 k f _ _ w (Or.inr (by show 8 * k.val + 4 ≠ 8 * k.val + 6; omega))).trans ?_
  refine (peel_13 arg2 arg4 v0 v2 X2 k f _ _ w (Or.inr (by show 8 * k.val + 4 ≠ 8 * k.val + 6; omega))).trans ?_
  refine (peel_12 arg2 arg4 v0 v2 X2 k f _ _ w (Or.inr (by show 8 * k.val + 4 ≠ 8 * k.val + 5; omega))).trans ?_
  refine (peel_11 arg2 arg4 v0 v2 X2 k f _ _ w (Or.inr (by show 8 * k.val + 4 ≠ 8 * k.val + 5; omega))).trans ?_
  refine (hit_10 arg2 arg4 v0 v2 X2 k f w).trans ?_
  rw [pay_r4_c1, load_r4_c0, load_r4_c1]
  unfold outBlock
  exact (if_neg (by decide)).symm

theorem read_r5_c0 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨0, by omega⟩ : Fin 2) (⟨8 * k.val + 5, RowGeom.row_lt k (by omega)⟩ : Fin 128) w)
      = outBlock v0 v2 (arg2.view.read (Elt F) X2) (⟨0, by omega⟩ : Fin 2) (⟨8 * k.val + 5, RowGeom.row_lt k (by omega)⟩ : Fin 128) w := by
  refine (peel_16 arg2 arg4 v0 v2 X2 k f _ _ w (Or.inr (by show 8 * k.val + 5 ≠ 8 * k.val + 7; omega))).trans ?_
  refine (peel_15 arg2 arg4 v0 v2 X2 k f _ _ w (Or.inr (by show 8 * k.val + 5 ≠ 8 * k.val + 7; omega))).trans ?_
  refine (peel_14 arg2 arg4 v0 v2 X2 k f _ _ w (Or.inr (by show 8 * k.val + 5 ≠ 8 * k.val + 6; omega))).trans ?_
  refine (peel_13 arg2 arg4 v0 v2 X2 k f _ _ w (Or.inr (by show 8 * k.val + 5 ≠ 8 * k.val + 6; omega))).trans ?_
  refine (peel_12 arg2 arg4 v0 v2 X2 k f _ _ w (Or.inl (by show 0 ≠ 1; omega))).trans ?_
  refine (hit_11 arg2 arg4 v0 v2 X2 k f w).trans ?_
  rw [pay_r5_c0, load_r5_c0, load_r5_c1]
  unfold outBlock
  exact (if_pos rfl).symm

theorem read_r5_c1 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨1, by omega⟩ : Fin 2) (⟨8 * k.val + 5, RowGeom.row_lt k (by omega)⟩ : Fin 128) w)
      = outBlock v0 v2 (arg2.view.read (Elt F) X2) (⟨1, by omega⟩ : Fin 2) (⟨8 * k.val + 5, RowGeom.row_lt k (by omega)⟩ : Fin 128) w := by
  refine (peel_16 arg2 arg4 v0 v2 X2 k f _ _ w (Or.inr (by show 8 * k.val + 5 ≠ 8 * k.val + 7; omega))).trans ?_
  refine (peel_15 arg2 arg4 v0 v2 X2 k f _ _ w (Or.inr (by show 8 * k.val + 5 ≠ 8 * k.val + 7; omega))).trans ?_
  refine (peel_14 arg2 arg4 v0 v2 X2 k f _ _ w (Or.inr (by show 8 * k.val + 5 ≠ 8 * k.val + 6; omega))).trans ?_
  refine (peel_13 arg2 arg4 v0 v2 X2 k f _ _ w (Or.inr (by show 8 * k.val + 5 ≠ 8 * k.val + 6; omega))).trans ?_
  refine (hit_12 arg2 arg4 v0 v2 X2 k f w).trans ?_
  rw [pay_r5_c1, load_r5_c0, load_r5_c1]
  unfold outBlock
  exact (if_neg (by decide)).symm

theorem read_r6_c0 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨0, by omega⟩ : Fin 2) (⟨8 * k.val + 6, RowGeom.row_lt k (by omega)⟩ : Fin 128) w)
      = outBlock v0 v2 (arg2.view.read (Elt F) X2) (⟨0, by omega⟩ : Fin 2) (⟨8 * k.val + 6, RowGeom.row_lt k (by omega)⟩ : Fin 128) w := by
  refine (peel_16 arg2 arg4 v0 v2 X2 k f _ _ w (Or.inr (by show 8 * k.val + 6 ≠ 8 * k.val + 7; omega))).trans ?_
  refine (peel_15 arg2 arg4 v0 v2 X2 k f _ _ w (Or.inr (by show 8 * k.val + 6 ≠ 8 * k.val + 7; omega))).trans ?_
  refine (peel_14 arg2 arg4 v0 v2 X2 k f _ _ w (Or.inl (by show 0 ≠ 1; omega))).trans ?_
  refine (hit_13 arg2 arg4 v0 v2 X2 k f w).trans ?_
  rw [pay_r6_c0, load_r6_c0, load_r6_c1]
  unfold outBlock
  exact (if_pos rfl).symm

theorem read_r6_c1 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨1, by omega⟩ : Fin 2) (⟨8 * k.val + 6, RowGeom.row_lt k (by omega)⟩ : Fin 128) w)
      = outBlock v0 v2 (arg2.view.read (Elt F) X2) (⟨1, by omega⟩ : Fin 2) (⟨8 * k.val + 6, RowGeom.row_lt k (by omega)⟩ : Fin 128) w := by
  refine (peel_16 arg2 arg4 v0 v2 X2 k f _ _ w (Or.inr (by show 8 * k.val + 6 ≠ 8 * k.val + 7; omega))).trans ?_
  refine (peel_15 arg2 arg4 v0 v2 X2 k f _ _ w (Or.inr (by show 8 * k.val + 6 ≠ 8 * k.val + 7; omega))).trans ?_
  refine (hit_14 arg2 arg4 v0 v2 X2 k f w).trans ?_
  rw [pay_r6_c1, load_r6_c0, load_r6_c1]
  unfold outBlock
  exact (if_neg (by decide)).symm

theorem read_r7_c0 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨0, by omega⟩ : Fin 2) (⟨8 * k.val + 7, RowGeom.row_lt k (by omega)⟩ : Fin 128) w)
      = outBlock v0 v2 (arg2.view.read (Elt F) X2) (⟨0, by omega⟩ : Fin 2) (⟨8 * k.val + 7, RowGeom.row_lt k (by omega)⟩ : Fin 128) w := by
  refine (peel_16 arg2 arg4 v0 v2 X2 k f _ _ w (Or.inl (by show 0 ≠ 1; omega))).trans ?_
  refine (hit_15 arg2 arg4 v0 v2 X2 k f w).trans ?_
  rw [pay_r7_c0, load_r7_c0, load_r7_c1]
  unfold outBlock
  exact (if_pos rfl).symm

theorem read_r7_c1 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨1, by omega⟩ : Fin 2) (⟨8 * k.val + 7, RowGeom.row_lt k (by omega)⟩ : Fin 128) w)
      = outBlock v0 v2 (arg2.view.read (Elt F) X2) (⟨1, by omega⟩ : Fin 2) (⟨8 * k.val + 7, RowGeom.row_lt k (by omega)⟩ : Fin 128) w := by
  refine (hit_16 arg2 arg4 v0 v2 X2 k f w).trans ?_
  rw [pay_r7_c1, load_r7_c0, load_r7_c1]
  unfold outBlock
  exact (if_neg (by decide)).symm

/-! ## A trip's band, and the block after all sixteen trips -/

/-- What a trip leaves is the last of its sixteen stores. -/
theorem band_eq (𝒱 : Variants) (c : Dev nD) (bd : Option 𝒱.V) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (k : Fin k0_t1_loop.trips) :
    band (F := F) 𝒱 c bd i arg2 harg2 arg3 harg3 arg4 harg4 v0 v2 X2 k = trip.sl.HW4_w16 arg2 arg4 v0 v2 X2 k := by
  unfold band trip
  rfl

/-- The row loop makes sixteen trips. -/
theorem trips_eq : k0_t1_loop.trips = 16 := by decide

/-- Inside the band of trip k — rows 8k … 8k + 7 — the result block holds the row function of the same row of the
    coordinates' block. -/
theorem band_read_hit (𝒱 : Variants) (c : Dev nD) (bd : Option 𝒱.V) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (k : Fin k0_t1_loop.trips) (f : BufTy.Contents (Elt F) arg4.view.ty)
    (rr : Fin 8) (ch : Fin 2) (w : Fin 512) :
    arg4.view.read (Elt F) (band (F := F) 𝒱 c bd i arg2 harg2 arg3 harg3 arg4 harg4 v0 v2 X2 k f)
        (ix4 (0 : Fin 1) ch (⟨8 * k.val + rr.val, RowGeom.row_lt k rr.isLt⟩ : Fin 128) w)
      = outBlock v0 v2 (arg2.view.read (Elt F) X2) ch (⟨8 * k.val + rr.val, RowGeom.row_lt k rr.isLt⟩ : Fin 128) w := by
  rw [band_eq]
  match rr, ch with
  | ⟨0, _⟩, ⟨0, _⟩ => exact read_r0_c0 arg2 arg4 v0 v2 X2 k f w
  | ⟨0, _⟩, ⟨1, _⟩ => exact read_r0_c1 arg2 arg4 v0 v2 X2 k f w
  | ⟨1, _⟩, ⟨0, _⟩ => exact read_r1_c0 arg2 arg4 v0 v2 X2 k f w
  | ⟨1, _⟩, ⟨1, _⟩ => exact read_r1_c1 arg2 arg4 v0 v2 X2 k f w
  | ⟨2, _⟩, ⟨0, _⟩ => exact read_r2_c0 arg2 arg4 v0 v2 X2 k f w
  | ⟨2, _⟩, ⟨1, _⟩ => exact read_r2_c1 arg2 arg4 v0 v2 X2 k f w
  | ⟨3, _⟩, ⟨0, _⟩ => exact read_r3_c0 arg2 arg4 v0 v2 X2 k f w
  | ⟨3, _⟩, ⟨1, _⟩ => exact read_r3_c1 arg2 arg4 v0 v2 X2 k f w
  | ⟨4, _⟩, ⟨0, _⟩ => exact read_r4_c0 arg2 arg4 v0 v2 X2 k f w
  | ⟨4, _⟩, ⟨1, _⟩ => exact read_r4_c1 arg2 arg4 v0 v2 X2 k f w
  | ⟨5, _⟩, ⟨0, _⟩ => exact read_r5_c0 arg2 arg4 v0 v2 X2 k f w
  | ⟨5, _⟩, ⟨1, _⟩ => exact read_r5_c1 arg2 arg4 v0 v2 X2 k f w
  | ⟨6, _⟩, ⟨0, _⟩ => exact read_r6_c0 arg2 arg4 v0 v2 X2 k f w
  | ⟨6, _⟩, ⟨1, _⟩ => exact read_r6_c1 arg2 arg4 v0 v2 X2 k f w
  | ⟨7, _⟩, ⟨0, _⟩ => exact read_r7_c0 arg2 arg4 v0 v2 X2 k f w
  | ⟨7, _⟩, ⟨1, _⟩ => exact read_r7_c1 arg2 arg4 v0 v2 X2 k f w

/-- Outside the band of trip k the trip leaves the result block as it was. -/
theorem band_read_miss (𝒱 : Variants) (c : Dev nD) (bd : Option 𝒱.V) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (k : Fin k0_t1_loop.trips) (f : BufTy.Contents (Elt F) arg4.view.ty)
    (ch : Fin 2) (r : Fin 128) (w : Fin 512) (h : r.val < 8 * k.val ∨ 8 * k.val + 8 ≤ r.val) :
    arg4.view.read (Elt F) (band (F := F) 𝒱 c bd i arg2 harg2 arg3 harg3 arg4 harg4 v0 v2 X2 k f) (ix4 (0 : Fin 1) ch r w)
      = arg4.view.read (Elt F) f (ix4 (0 : Fin 1) ch r w) := by
  rw [band_eq]
  refine (peel_16 arg2 arg4 v0 v2 X2 k f ch r w (Or.inr (by omega))).trans ?_
  refine (peel_15 arg2 arg4 v0 v2 X2 k f ch r w (Or.inr (by omega))).trans ?_
  refine (peel_14 arg2 arg4 v0 v2 X2 k f ch r w (Or.inr (by omega))).trans ?_
  refine (peel_13 arg2 arg4 v0 v2 X2 k f ch r w (Or.inr (by omega))).trans ?_
  refine (peel_12 arg2 arg4 v0 v2 X2 k f ch r w (Or.inr (by omega))).trans ?_
  refine (peel_11 arg2 arg4 v0 v2 X2 k f ch r w (Or.inr (by omega))).trans ?_
  refine (peel_10 arg2 arg4 v0 v2 X2 k f ch r w (Or.inr (by omega))).trans ?_
  refine (peel_9 arg2 arg4 v0 v2 X2 k f ch r w (Or.inr (by omega))).trans ?_
  refine (peel_8 arg2 arg4 v0 v2 X2 k f ch r w (Or.inr (by omega))).trans ?_
  refine (peel_7 arg2 arg4 v0 v2 X2 k f ch r w (Or.inr (by omega))).trans ?_
  refine (peel_6 arg2 arg4 v0 v2 X2 k f ch r w (Or.inr (by omega))).trans ?_
  refine (peel_5 arg2 arg4 v0 v2 X2 k f ch r w (Or.inr (by omega))).trans ?_
  refine (peel_4 arg2 arg4 v0 v2 X2 k f ch r w (Or.inr (by omega))).trans ?_
  refine (peel_3 arg2 arg4 v0 v2 X2 k f ch r w (Or.inr (by omega))).trans ?_
  refine (peel_2 arg2 arg4 v0 v2 X2 k f ch r w (Or.inr (by omega))).trans ?_
  refine (peel_1 arg2 arg4 v0 v2 X2 k f ch r w (Or.inr (by omega))).trans ?_
  rfl

/-- Before trip n the rows below 8n hold the row function of the coordinates' rows. -/
theorem before_read (𝒱 : Variants) (c : Dev nD) (bd : Option 𝒱.V) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (G4 : BufTy.Contents (Elt F) arg4.view.ty) (n : ℕ) (hn : n ≤ 16)
    (ch : Fin 2) (r : Fin 128) (w : Fin 512) (hr : r.val < 8 * n) :
    arg4.view.read (Elt F) (bandsBefore (F := F) 𝒱 c bd i arg2 harg2 arg3 harg3 arg4 harg4 v0 v2 X2 G4 n) (ix4 (0 : Fin 1) ch r w)
      = outBlock v0 v2 (arg2.view.read (Elt F) X2) ch r w := by
  induction n with
  | zero => omega
  | succ n ih =>
    have hn' : n < k0_t1_loop.trips := by rw [trips_eq]; omega
    have e := bandsBefore_succ (F := F) 𝒱 c bd i arg2 harg2 arg3 harg3 arg4 harg4 v0 v2 X2 G4 (⟨n, hn'⟩ : Fin k0_t1_loop.trips)
    rw [show (⟨n, hn'⟩ : Fin k0_t1_loop.trips).val + 1 = n + 1 from rfl] at e
    rw [e]
    by_cases hlt : r.val < 8 * n
    · rw [band_read_miss (F := F) 𝒱 c bd i arg2 harg2 arg3 harg3 arg4 harg4 v0 v2 X2 ⟨n, hn'⟩ _ ch r w (Or.inl hlt)]
      exact ih (by omega) hlt
    · have hr' : r = (⟨8 * (⟨n, hn'⟩ : Fin k0_t1_loop.trips).val + (⟨r.val - 8 * n, by omega⟩ : Fin 8).val,
          RowGeom.row_lt _ (Fin.isLt _)⟩ : Fin 128) := Fin.ext (by show r.val = 8 * n + (r.val - 8 * n); omega)
      rw [hr']
      exact band_read_hit (F := F) 𝒱 c bd i arg2 harg2 arg3 harg3 arg4 harg4 v0 v2 X2 ⟨n, hn'⟩ _ ⟨r.val - 8 * n, by omega⟩ ch w

/-- After the last trip every entry of the result block is the row function of its row of the coordinates' block. -/
theorem final_read (𝒱 : Variants) (c : Dev nD) (bd : Option 𝒱.V) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (G4 : BufTy.Contents (Elt F) arg4.view.ty) (ch : Fin 2) (r : Fin 128) (w : Fin 512) :
    arg4.view.read (Elt F) (bandsBefore (F := F) 𝒱 c bd i arg2 harg2 arg3 harg3 arg4 harg4 v0 v2 X2 G4 k0_t1_loop.trips) (ix4 (0 : Fin 1) ch r w)
      = outBlock v0 v2 (arg2.view.read (Elt F) X2) ch r w := by
  rw [trips_eq]
  exact before_read (F := F) 𝒱 c bd i arg2 harg2 arg3 harg3 arg4 harg4 v0 v2 X2 G4 16 (Nat.le_refl _) ch r w (by have := r.isLt; omega)

end Cert.Kernel.TripValue

end
-- ==== Proof.K.Body.lean ====
/-
  The frame of the lookup kernel: the body's run, the pipeline's proof data, the body obligation, the run.

  At a grid point the body holds three staging buffers: the coordinates' block [1, 2, 128, 512] (read), the staged
  table [512, 256] (read) and the result's block [1, 2, 128, 512] (written). It loads the whole table once, builds
  the candidate column, and walks the block's 128 rows in sixteen trips of eight by the row loop's invariant; what
  the result's buffer holds afterwards is, entry by entry, the row function of the coordinates' rows against the
  table — whatever the buffer held before, since the sixteen bands overwrite all of it. That makes the result's
  contents after each point a function of the point's input blocks alone (`outAt`), which is what the pipeline's
  proof data needs; the inputs' buffers are left as found. From the body obligation at every point the launch
  theorem gives the run, and the argument arrays end as launched.
-/
import proofs.«159610_j32693291057269_2_alg».proof.Proof.K.Loop
import proofs.«159610_j32693291057269_2_alg».proof.Proof.K.TripValue
import Idealize.ShloMosaic.Lib.WholeRead
import Idealize.ShloMosaic.Lib.ValueIdx
import proofs.«159610_j32693291057269_2_alg».proof.Proof.Gen.Kernel.Frame

set_option maxRecDepth 16384

noncomputable section

namespace Cert.Kernel.BodyRun

open Cert.Kernel Cert.Kernel.Gen Cert.Kernel.LoopInst
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.TripValue Idealize.ShloMosaic.ValueIdx

variable (m : (ℓ : Loc nD τ sig) → Buf (Elt F) ℓ) (ρ : Dev nD → PrngReg)

/-- The column of candidate indices 0 … 255 the body builds once. -/
abbrev cand : IVec S256x1 32 := iota .tc S256x1 32 [0] iota_S256x1_d0_w32

/-- What the body leaves in the result's block, as a block: entry (0, ch, r, w) is the row function of row r of the
    two coordinate channels of the coordinates' block `x0`, against the staged table `x1`. -/
def outVec (x1 : Vec F S512x256 .bf16) (x0 : Vec F S1x2x128x512 .f32) : Vec F S1x2x128x512 .f32 :=
  fun y => outBlock x1 cand x0 (⟨(y 1).val, (y 1).isLt⟩ : Fin 2) (⟨(y 2).val, (y 2).isLt⟩ : Fin 128) (⟨(y 3).val, (y 3).isLt⟩ : Fin 512)

/-- A load of the whole staged table, the table's buffer held at the contents that read `x1`, is `x1`. -/
theorem table_load (arg3 : Memref sig .tc .vmem S512x256 .bf16) (harg3 : arg3.IsWhole) (x1 : Vec F S512x256 .bf16) :
    View.readAt (Elt F) arg3.view (Rect.unit (s := S512x256) ![0, 0] S512x256.size inb_S512x256_S512x256_0_0).toLoadRect (harg3.unread x1) = x1 := by
  funext x
  rw [harg3.readAt_unread]
  exact congrFun (View.ld_unit_zero (Val := Elt F) (S := S512x256) (off := ![0, 0]) (funext fun a => by fin_cases a <;> rfl) inb_S512x256_S512x256_0_0 x1) x

set_option maxHeartbeats 1000000 in
/-- THE BODY on any whole staging memrefs: the coordinates' at its block, the table's at the staged table, the
    result's at anything — it loads the table, walks the sixteen trips by the row loop's invariant, and returns
    holding the inputs as they were and the result's buffer at `outVec`. -/
theorem kernel_run (c : Dev nD) (i : grid0.Coords) (arg2 : Memref sig .tc .vmem S1x2x128x512 .f32) (harg2 : arg2.IsWhole)
    (arg3 : Memref sig .tc .vmem S512x256 .bf16) (harg3 : arg3.IsWhole) (arg4 : Memref sig .tc .vmem S1x2x128x512 .f32) (harg4 : arg4.IsWhole)
    (x0 : Vec F S1x2x128x512 .f32) (x1 : Vec F S512x256 .bf16) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outVec x1 x0)) -∗ K ⟨⟩))
      ⊢ wp frame (wpE (defs₀ (F := F)) Variants.none c none) E (cc0__lut_kernel i arg2 harg2 arg3 harg3 arg4 harg4) K := by
  simp only [cc0__lut_kernel_eq_skeleton]; unfold cc0__lut_kernel_skel
  unfold owns
  rw [harg4.set_eq_univ]
  iintro ⟨⟨%f0, %hf0, H0⟩, ⟨%f1, %hf1, H1⟩, ⟨%d2, %f2, -, H2⟩, Hk⟩
  obtain rfl := harg2.eq_unread hf0
  obtain rfl := harg3.eq_unread hf1
  sl_exec
  sl_for (rowInv (F := F) Variants.none c none i arg2 harg2 arg3 harg3 arg4 harg4 _ _ (harg2.unread x0) f2) $$ [H0 H2]
  · intro k acc
    exact rowInv_step (F := F) Variants.none c none E i arg2 harg2 arg3 harg3 arg4 harg4 _ _ (harg2.unread x0) f2 k acc
  · isplitl [H0]; · iexact H0
    iexact H2
  · iintro %acc ⟨H0, H2⟩
    sl_step
    iapply Hk
    isplitl [H0]
    · iexists _; isplitr; · ipureintro; exact hf0
      iexact H0
    isplitl [H1]
    · iexists _; isplitr; · ipureintro; exact hf1
      iexact H1
    iexists _; isplitr
    swap; · iexact H2
    ipureintro
    funext y
    obtain ⟨a, b, r, w, rfl⟩ : ∃ (a : Fin 1) (b : Fin 2) (r : Fin 128) (w : Fin 512), y = ix4 a b r w := ⟨y 0, y 1, y 2, y 3, eq_ix4 y⟩
    obtain rfl : a = 0 := Subsingleton.elim _ _
    refine (final_read (F := F) Variants.none c none i arg2 harg2 arg3 harg3 arg4 harg4 _ _ (harg2.unread x0) f2 b r w).trans ?_
    rw [hf0, table_load]
    rfl

/-! ## The pipeline's proof data and the body obligation -/

/-- Each window's current staging memref at point `t`, as the pipeline passes it, and its wholeness. -/
abbrev ms0_0 (t : Fin cfg0.N) : Memref sig .tc .vmem S1x2x128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2x128x512 .f32 := win0_2.stage (cfg0.slots t 2)
abbrev hs0_2 (t : Fin cfg0.N) : (ms0_2 t).IsWhole := hstage0_2 ((cfg0.slots t 2).cast nbuf0_2)

/-- What the result's staging buffer holds after the body at point `t`: the block function of the point's
    coordinate block and the staged table. -/
def outAt (c : Dev nD) (t : Fin cfg0.N) : Vec F S1x2x128x512 .f32 :=
  outVec (iblk m c 1 t) (iblk m c 0 t)

/-- The proof data of the one pipeline on core `c`: the arrays as the region finds them; after the body each input's
    buffer at its block and the result's at `outAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the inputs' memrefs hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold outAt
  iintro ⟨HΦ, Ho, ⟨%d0, H0⟩, ⟨%d1, H1⟩, ⟨%d2, H2⟩⟩
  iapply (kernel_run (F := F) c (grid0.coords t) _ _ _ _ _ _ (iblk m c 0 t) (iblk m c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every array of the pipeline at what the library computes from the proof data and every other unscoped buffer
    as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.BodyRun

end
-- ==== Proof.KI.Loop.lean ====
/-
  The row loop of the lookup kernel, by its invariant.

  The kernel's body walks its block of 128 rows in 16 trips of 8 rows. A trip reads rows 8k … 8k+7 of both coordinate
  channels from the coordinates' staging buffer and stores the same rows of both result channels into the result's
  staging buffer — each store through the view of one row of one channel —; it touches nothing else. One trip is run
  symbolically at a generic k (`trip`): what it leaves in the result's buffer is a function of what the buffer held,
  sixteen row stores, found by that run. `bandsBefore k` is the result's buffer before trip k: its contents at loop
  entry with the bands of the trips before k stored into it. The invariant (`rowInv`) holds the coordinates' buffer
  at its entry contents and the result's buffer at `bandsBefore k`; a trip takes it from k to k + 1 (`rowInv_step`).
-/
import proofs.«159610_j32693291057269_2_alg».proof.Proof.Gen.KernelIdeal.Loops

set_option maxRecDepth 16384

noncomputable section

namespace Cert.KernelIdeal.LoopInst

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip of the row loop touches: the coordinates' staging buffer, read at its contents, and the result's
    staging buffer — a whole buffer — written. -/
abbrev TripRes (c : Dev nD) (arg2 : Memref sig .tc .vmem S1x2x128x512 .f32) (arg4 : Memref sig .tc .vmem S1x2x128x512 .f32)
    (X2 : BufTy.Contents (Elt F) arg2.view.ty) (f4 : BufTy.Contents (Elt F) arg4.view.ty) : sProp 𝕄G :=
  iprop((arg2.view.loc (c : Thread nD τ) ↦[arg2.view.set]{fullShare} X2) ∗ (arg4.view.loc (c : Thread nD τ) ↦{fullShare} f4))

set_option maxHeartbeats 0 in
/-- ONE TRIP at a symbolic k: from the trip's resources the region runs to the same resources, the result's buffer
    at a function of its contents before the trip — sixteen row stores, which the run finds. -/
@[irreducible] def trip (𝒱 : Variants) (c : Dev nD) (bd : Option 𝒱.V) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (k : Fin k0_t1_loop.trips) :
    { g : BufTy.Contents (Elt F) arg4.view.ty → BufTy.Contents (Elt F) arg4.view.ty // ∀ (E : Set ℕ) (f4 : BufTy.Contents (Elt F) arg4.view.ty),
      TripRes (F := F) c arg2 arg4 X2 f4
      ⊢ wp frame (wpE (defs₀ (F := F)) 𝒱 (c : Thread nD τ) bd) E (k0_t1_body (F := F) i arg2 harg2 arg3 harg3 arg4 harg4 v0 v2 k PUnit.unit)
          (fun _ => TripRes (F := F) c arg2 arg4 X2 (g f4)) } := by
  have hk : k.val < 16 := Nat.lt_of_lt_of_le k.isLt k0_t1_abs.2.1
  refine ⟨?_, fun E f4 => ?run⟩
  case run =>
    unfold k0_t1_body
    iintro ⟨HR2, HW4⟩
    sl_exec
    sl_step
    sl_close

/-- What trip k leaves in the result's buffer, as a function of what it held. -/
abbrev band (𝒱 : Variants) (c : Dev nD) (bd : Option 𝒱.V) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (k : Fin k0_t1_loop.trips) :
    BufTy.Contents (Elt F) arg4.view.ty → BufTy.Contents (Elt F) arg4.view.ty :=
  (trip (F := F) 𝒱 c bd i arg2 harg2 arg3 harg3 arg4 harg4 v0 v2 X2 k).1

/-- Trip k's band stored into `prev`; past the last trip, `prev` itself. -/
@[irreducible] def bandStep (𝒱 : Variants) (c : Dev nD) (bd : Option 𝒱.V) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (k : ℕ) (prev : BufTy.Contents (Elt F) arg4.view.ty) :
    BufTy.Contents (Elt F) arg4.view.ty :=
  if h : k < k0_t1_loop.trips then band (F := F) 𝒱 c bd i arg2 harg2 arg3 harg3 arg4 harg4 v0 v2 X2 ⟨k, h⟩ prev else prev

/-- The result's buffer before trip k: the entry contents G4 with the bands of the trips before k stored into it. -/
def bandsBefore (𝒱 : Variants) (c : Dev nD) (bd : Option 𝒱.V) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (G4 : BufTy.Contents (Elt F) arg4.view.ty) : ℕ → BufTy.Contents (Elt F) arg4.view.ty
  | 0 => G4
  | k + 1 => bandStep 𝒱 c bd i arg2 harg2 arg3 harg3 arg4 harg4 v0 v2 X2 k (bandsBefore 𝒱 c bd i arg2 harg2 arg3 harg3 arg4 harg4 v0 v2 X2 G4 k)

theorem bandsBefore_zero (𝒱 : Variants) (c : Dev nD) (bd : Option 𝒱.V) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (G4 : BufTy.Contents (Elt F) arg4.view.ty) :
    bandsBefore (F := F) 𝒱 c bd i arg2 harg2 arg3 harg3 arg4 harg4 v0 v2 X2 G4 0 = G4 := rfl

theorem bandsBefore_succ (𝒱 : Variants) (c : Dev nD) (bd : Option 𝒱.V) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (G4 : BufTy.Contents (Elt F) arg4.view.ty) (k : Fin k0_t1_loop.trips) :
    bandsBefore (F := F) 𝒱 c bd i arg2 harg2 arg3 harg3 arg4 harg4 v0 v2 X2 G4 (k.val + 1)
      = band (F := F) 𝒱 c bd i arg2 harg2 arg3 harg3 arg4 harg4 v0 v2 X2 k (bandsBefore (F := F) 𝒱 c bd i arg2 harg2 arg3 harg3 arg4 harg4 v0 v2 X2 G4 k.val) := by
  rw [bandsBefore.eq_2]; unfold bandStep; exact dif_pos k.isLt

/-- THE INVARIANT before trip k: the coordinates' buffer at its entry contents X2, the result's buffer at its entry
    contents G4 with the bands of the trips before k stored. -/
abbrev rowInv (𝒱 : Variants) (c : Dev nD) (bd : Option 𝒱.V) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (G4 : BufTy.Contents (Elt F) arg4.view.ty) (k : ℕ) (_u : Unit) : sProp 𝕄G :=
  iprop((arg2.view.loc (c : Thread nD τ) ↦[arg2.view.set]{fullShare} X2)
    ∗ (arg4.view.loc (c : Thread nD τ) ↦{fullShare} bandsBefore (F := F) 𝒱 c bd i arg2 harg2 arg3 harg3 arg4 harg4 v0 v2 X2 G4 k))

/-- A trip takes the invariant at k to the invariant at k + 1. -/
theorem rowInv_step (𝒱 : Variants) (c : Dev nD) (bd : Option 𝒱.V) (E : Set ℕ) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (G4 : BufTy.Contents (Elt F) arg4.view.ty) (k : Fin k0_t1_loop.trips) (acc : Unit) :
    rowInv (F := F) 𝒱 c bd i arg2 harg2 arg3 harg3 arg4 harg4 v0 v2 X2 G4 k.val acc
      ⊢ wp frame (wpE (defs₀ (F := F)) 𝒱 (c : Thread nD τ) bd) E (k0_t1_body (F := F) i arg2 harg2 arg3 harg3 arg4 harg4 v0 v2 k acc)
          (rowInv (F := F) 𝒱 c bd i arg2 harg2 arg3 harg3 arg4 harg4 v0 v2 X2 G4 (k.val + 1)) := by
  cases acc
  iintro ⟨HR2, HW4⟩
  iapply (wp_wand_r Idealize.ShloMosaic.frame (wpE (defs₀ (F := F)) 𝒱 (c : Thread nD τ) bd) E)
  isplitl [HR2 HW4]
  · iapply ((trip (F := F) 𝒱 c bd i arg2 harg2 arg3 harg3 arg4 harg4 v0 v2 X2 k).2 E _)
    isplitl [HR2]; · iexact HR2
    iexact HW4
  · iintro %_ ⟨HR2, HW4⟩
    isplitl [HR2]; · iexact HR2
    rw [bandsBefore_succ]
    iexact HW4

end Cert.KernelIdeal.LoopInst

end
-- ==== Proof.RowFn.lean ====
/-
  One row of the kernel's arithmetic as one pure function.

  The body of the kernel treats each of the eight rows of a chunk alike: from the row's two coordinate vectors
  (channel 0 and channel 1, 512 lanes each), the staged table (two channels of 256 × 256, stacked on the first axis,
  indexed [(channel, column), row]) and the column of candidate indices 0 … 255, it clips and scales the coordinates,
  takes their cells and weights, builds the two-hot weight matrices over the candidates, contracts the table with
  the row weights by a matrix product, and contracts each channel's half of the product with the column weights by a
  sum along the candidate axis. The first row's operations, as the skeleton names them, are taken as THE row
  function: `scaled` (a coordinate vector clipped and scaled), `cells` (its cells), `colWeights` (the two-hot
  column weights), `product` (the table against the two-hot row weights), and the two stored results `rowCh0`,
  `rowCh1`.
-/
import proofs.«159610_j32693291057269_2_alg».proof.Proof.Gen.KernelIdeal.Skeleton

noncomputable section

namespace Cert.KernelIdeal.Row

open Cert.KernelIdeal Cert.KernelIdeal.Gen Idealize.ShloMosaic

variable {F : FTy → Type} [FloatOps F] [Facts]

/-- The two-hot column weights [256, 512] of a row, from the candidate column and the row's channel-1 vector. -/
def colWeights (v2 : IVec S256x1 32) (v14 : Vec F S1x512 .f32) : FVec F S256x512 .f32 :=
  k0_pay8 v2 (k0_pay5 v14) (k0_pay7 v14)

/-- The table contracted with the two-hot row weights [512, 512], from the row's channel-0 vector. -/
def product (v1 : FVec F S512x256 .bf16) (v2 : IVec S256x1 32) (v9 : Vec F S1x512 .f32) : FVec F S512x512 .f32 :=
  k0_pay9 v1 v2 (k0_pay4 v9) (k0_pay6 v9)

/-- Channel 0 of the row, as stored: the upper half of the product against the column weights, summed over the
    candidates. -/
def rowCh0 (v1 : FVec F S512x256 .bf16) (v2 : IVec S256x1 32) (v9 v14 : Vec F S1x512 .f32) : FVec F S1x512 .f32 :=
  k0_pay11 (colWeights v2 v14) (k0_pay10 v1 v2 (k0_pay4 v9) (k0_pay6 v9))

/-- Channel 1 of the row, as stored: the lower half of the product against the column weights, summed over the
    candidates. -/
def rowCh1 (v1 : FVec F S512x256 .bf16) (v2 : IVec S256x1 32) (v9 v14 : Vec F S1x512 .f32) : FVec F S1x512 .f32 :=
  k0_pay12 (colWeights v2 v14) (product v1 v2 v9)

end Cert.KernelIdeal.Row

end
-- ==== Proof.RowGeom.lean ====
/-
  The geometry of one row's view.

  The staging buffers have shape [1, 2, 128, 512] (a batch of one, channel, row, lane). Row rr of the band of eight
  rows that trip k works on, in channel ch, is reached through a chain of views: the rectangle of channel ch (all of
  the other three axes), its two leading unit axes dropped so that it is indexed as [128, 512], the rectangle of rows
  8k … 8k + 7 of that, and the rectangle of the single row rr of that. Lane w of this row is the buffer's element
  (0, ch, 8k + rr, w): the two unit-stride rectangles add their offsets, and dropping the two leading unit axes is the
  row-major re-indexing of [1, 1, 128, 512] as [128, 512], which matches (r, w) with (0, 0, r, w). So a read through
  the row reads the buffer there, a store through the row lands there, and, placements being injective, a store
  through the row changes nothing at any other (channel, row).
-/
import proofs.«159610_j32693291057269_2_alg».proof.Proof.Gen.KernelIdeal
import Idealize.ShloMosaic.Lib.ValueIdx
import Idealize.ShloMosaic.Lib.Pipeline.Value

noncomputable section

namespace Cert.KernelIdeal.RowGeom

open Cert.KernelIdeal Cert.KernelIdeal.Gen Idealize.ShloMosaic Idealize.ShloMosaic.ValueIdx

variable [Facts] {Val : EltTy → Type}

/-- The rows of trip k's band lie inside the 128 rows: 8k + rr < 128 for rr < 8, there being at most 16 trips. -/
theorem row_lt (k : Fin k0_t1_loop.trips) {rr : ℕ} (hrr : rr < 8) : 8 * k.val + rr < 128 := by
  have h1 := k.isLt
  have h2 := Gen.k0_t1_abs.2.1
  omega

/-- The band of eight rows that trip k works on, in channel ch, as a memref of shape [8, 512]. -/
abbrev rowMem (m : Memref sig .tc .vmem S1x2x128x512 .f32) (ch : ℕ)
    (inb4 : ∀ a, (![0, ch, 0, 0] : Fin 4 → ℕ) a + S1x1x128x512.size a ≤ S1x2x128x512.size a)
    (hs4 : ∀ a, (Rect.unit (s := S1x2x128x512) ![0, ch, 0, 0] S1x1x128x512.size inb4).stride a = 1)
    (k : Fin k0_t1_loop.trips)
    (hs2 : ∀ a, (Rect.unit (s := S128x512) (k0_off1 k) S8x512.size (Facts₀.k0_off1_inb k)).stride a = 1) :
    Memref sig .tc .vmem S8x512 .f32 :=
  ((m.slice (Rect.unit (s := S1x2x128x512) ![0, ch, 0, 0] S1x1x128x512.size inb4) hs4).squeeze S128x512
      Facts₀.squeezes_S1x1x128x512_S128x512).slice
    (Rect.unit (s := S128x512) (k0_off1 k) S8x512.size (Facts₀.k0_off1_inb k)) hs2

/-! ## The three steps of the placement -/

/-- Lane w of row rr of trip k's band, as an index of the band's [128, 512] parent: (8k + rr, w). The two unit-stride
    rectangles add their offsets. -/
theorem band_idx (k : Fin k0_t1_loop.trips) (rr : ℕ)
    (inb2 : ∀ a, (![rr, 0] : Fin 2 → ℕ) a + S1x512.size a ≤ S8x512.size a) (w : Fin 512) (hrr : rr < 8) :
    (Rect.unit (s := S128x512) (k0_off1 k) S8x512.size (Facts₀.k0_off1_inb k)).emb
        ((Rect.unit (s := S8x512) ![rr, 0] S1x512.size inb2).emb (ix2 (0 : Fin 1) w))
      = ix2 (⟨8 * k.val + rr, row_lt k hrr⟩ : Fin 128) w := by
  funext a
  refine Fin.ext ?_
  rw [Rect.emb_apply]
  match a with
  | ⟨0, _⟩ =>
    rw [Rect.emb_apply]
    simp [Gen.k0_off1_eq, Rect.unit]
  | ⟨1, _⟩ =>
    rw [Rect.emb_apply]
    simp [Gen.k0_off1_eq, Rect.unit]

/-- Dropping the two leading unit axes of [1, 1, 128, 512] matches (r, w) with (0, 0, r, w): both have row-major
    position 512 r + w. -/
theorem squeeze_idx (h : S128x512.numel = S1x1x128x512.numel) (r : Fin 128) (w : Fin 512) :
    Shape.reshapeEquiv h (ix2 r w) = ix4 (0 : Fin 1) (0 : Fin 1) r w := by
  apply Shape.reshapeEquiv_eq_of_rowMajor
  rw [Shape.rowMajor_val_four, Shape.rowMajor_val_two]
  simp

/-- The rectangle of channel ch places (0, 0, r, w) at (0, ch, r, w). -/
theorem chan_idx (ch : ℕ)
    (inb4 : ∀ a, (![0, ch, 0, 0] : Fin 4 → ℕ) a + S1x1x128x512.size a ≤ S1x2x128x512.size a) (hch : ch < 2)
    (r : Fin 128) (w : Fin 512) :
    (Rect.unit (s := S1x2x128x512) ![0, ch, 0, 0] S1x1x128x512.size inb4).emb (ix4 (0 : Fin 1) (0 : Fin 1) r w)
      = ix4 (0 : Fin 1) (⟨ch, hch⟩ : Fin 2) r w := by
  funext a
  refine Fin.ext ?_
  rw [Rect.emb_apply]
  match a with
  | ⟨0, _⟩ => simp [Rect.unit]
  | ⟨1, _⟩ => simp [Rect.unit]
  | ⟨2, _⟩ => simp [Rect.unit]
  | ⟨3, _⟩ => simp [Rect.unit]

/-! ## The row's placement, and reads and stores through it -/

section Row
variable (m : Memref sig .tc .vmem S1x2x128x512 .f32) (ch : ℕ)
    (inb4 : ∀ a, (![0, ch, 0, 0] : Fin 4 → ℕ) a + S1x1x128x512.size a ≤ S1x2x128x512.size a)
    (hs4 : ∀ a, (Rect.unit (s := S1x2x128x512) ![0, ch, 0, 0] S1x1x128x512.size inb4).stride a = 1)
    (k : Fin k0_t1_loop.trips)
    (hs2 : ∀ a, (Rect.unit (s := S128x512) (k0_off1 k) S8x512.size (Facts₀.k0_off1_inb k)).stride a = 1)
    (rr : ℕ) (inb2 : ∀ a, (![rr, 0] : Fin 2 → ℕ) a + S1x512.size a ≤ S8x512.size a)
    (w : Fin 512) (hch : ch < 2) (hrr : rr < 8)

/-- Lane w of row rr of trip k's band of channel ch is the buffer's element (0, ch, 8k + rr, w). -/
theorem row_emb :
    ((rowMem m ch inb4 hs4 k hs2).access (Rect.unit (s := S8x512) ![rr, 0] S1x512.size inb2)).emb (ix2 (0 : Fin 1) w)
      = m.view.emb (ix4 (0 : Fin 1) (⟨ch, hch⟩ : Fin 2) (⟨8 * k.val + rr, row_lt k hrr⟩ : Fin 128) w) := by
  have e : (Rect.unit (s := S1x2x128x512) ![0, ch, 0, 0] S1x1x128x512.size inb4).emb
      (Shape.reshapeEquiv (Facts₀.squeezes_S1x1x128x512_S128x512).numel_eq
        ((Rect.unit (s := S128x512) (k0_off1 k) S8x512.size (Facts₀.k0_off1_inb k)).emb
          ((Rect.unit (s := S8x512) ![rr, 0] S1x512.size inb2).emb (ix2 (0 : Fin 1) w))))
      = ix4 (0 : Fin 1) (⟨ch, hch⟩ : Fin 2) (⟨8 * k.val + rr, row_lt k hrr⟩ : Fin 128) w := by
    rw [band_idx k rr inb2 w hrr]
    exact (congrArg _ (squeeze_idx _ _ _)).trans (chan_idx ch inb4 hch _ _)
  exact congrArg m.view.emb e

/-- A load of the row reads, at lane w, the buffer at (0, ch, 8k + rr, w). -/
theorem row_read (f : m.view.ty.Contents Val) :
    View.readAt Val (rowMem m ch inb4 hs4 k hs2).view (Rect.unit (s := S8x512) ![rr, 0] S1x512.size inb2).toLoadRect f (ix2 (0 : Fin 1) w)
      = m.view.read Val f (ix4 (0 : Fin 1) (⟨ch, hch⟩ : Fin 2) (⟨8 * k.val + rr, row_lt k hrr⟩ : Fin 128) w) :=
  congrArg (fun i => _root_.cast (congrArg Val m.view.elt_eq) (f i)) (row_emb m ch inb4 hs4 k hs2 rr inb2 w hch hrr)

/-- After a store of v through the row, the buffer at (0, ch, 8k + rr, w) holds v at lane w. -/
theorem row_write_hit (f : m.view.ty.Contents Val) (v : S1x512.Idx → Val .f32) :
    m.view.read Val (View.write Val ((rowMem m ch inb4 hs4 k hs2).access (Rect.unit (s := S8x512) ![rr, 0] S1x512.size inb2)) f v Finset.univ)
        (ix4 (0 : Fin 1) (⟨ch, hch⟩ : Fin 2) (⟨8 * k.val + rr, row_lt k hrr⟩ : Fin 128) w) = v (ix2 (0 : Fin 1) w) :=
  (row_read m ch inb4 hs4 k hs2 rr inb2 w hch hrr _).symm.trans
    (View.read_write_of_mem (v := (rowMem m ch inb4 hs4 k hs2).access (Rect.unit (s := S8x512) ![rr, 0] S1x512.size inb2))
      f v (Finset.mem_univ (ix2 (0 : Fin 1) w)))

include hch hrr in
/-- A store through the row changes nothing at any other (channel, row): placements are injective, and an index with
    another channel or another row is not one of the row's. -/
theorem row_write_miss (f : m.view.ty.Contents Val) (v : S1x512.Idx → Val .f32) (ch' : Fin 2) (r' : Fin 128)
    (hne : ch'.val ≠ ch ∨ r'.val ≠ 8 * k.val + rr) :
    m.view.read Val (View.write Val ((rowMem m ch inb4 hs4 k hs2).access (Rect.unit (s := S8x512) ![rr, 0] S1x512.size inb2)) f v Finset.univ)
        (ix4 (0 : Fin 1) ch' r' w) = m.view.read Val f (ix4 (0 : Fin 1) ch' r' w) := by
  have hnot : m.view.emb (ix4 (0 : Fin 1) ch' r' w)
      ∉ ((rowMem m ch inb4 hs4 k hs2).access (Rect.unit (s := S8x512) ![rr, 0] S1x512.size inb2)).setOn Finset.univ := by
    intro hmem
    unfold View.setOn at hmem
    rw [Finset.mem_map] at hmem
    obtain ⟨x, -, hx⟩ := hmem
    have hx' : x = ix2 (0 : Fin 1) (x 1 : Fin 512) := by
      funext a
      match a with
      | ⟨0, _⟩ => exact Subsingleton.elim (α := Fin 1) _ _
      | ⟨1, _⟩ => rfl
    rw [hx'] at hx
    have hi := m.view.emb.injective
      ((row_emb m ch inb4 hs4 k hs2 rr inb2 (x 1 : Fin 512) hch hrr).symm.trans hx)
    have h1 : ch = ch'.val := congrArg (fun i : S1x2x128x512.Idx => (i (⟨1, by decide⟩ : Fin 4)).val) hi
    have h2 : 8 * k.val + rr = r'.val := congrArg (fun i : S1x2x128x512.Idx => (i (⟨2, by decide⟩ : Fin 4)).val) hi
    rcases hne with h | h
    · exact h h1.symm
    · exact h h2.symm
  exact congrArg (_root_.cast (congrArg Val m.view.elt_eq))
    (View.write_of_not_mem (v := (rowMem m ch inb4 hs4 k hs2).access (Rect.unit (s := S8x512) ![rr, 0] S1x512.size inb2))
      f v Finset.univ hnot)

end Row

end Cert.KernelIdeal.RowGeom

end
-- ==== Proof.KI.TripValue.lean ====
/-
  What the row loop leaves in the result block, read at an index.

  One trip of the row loop stores sixteen vectors into the result's block: for each of the eight rows 8k … 8k + 7 of
  its band, one vector for channel 0 and one for channel 1. The eight rows are the same operations applied to
  different loads, so each stored vector is the row function (`rowCh0`, `rowCh1`) of the two vectors loaded for its
  row, and a load of row rr of the band is row 8k + rr of the coordinates' block. Reading the block after the sixteen
  stores at an entry of the band therefore gives the row function of that row of the coordinates' block
  (`band_read_hit`), and at an entry outside the band what the block held before (`band_read_miss`). By induction over
  the trips, after the last trip every entry (ch, r, w) of the block is the row function of row r (`final_read`).
  Nothing here depends on the float instance.
-/
import proofs.«159610_j32693291057269_2_alg».proof.Proof.KI.Loop
import proofs.«159610_j32693291057269_2_alg».proof.Proof.RowFn
import proofs.«159610_j32693291057269_2_alg».proof.Proof.RowGeom
import Idealize.ShloMosaic.Lib.ValueIdx

set_option maxRecDepth 16384

noncomputable section

namespace Cert.KernelIdeal.TripValue

open Cert.KernelIdeal Cert.KernelIdeal.Gen Cert.KernelIdeal.LoopInst Cert.KernelIdeal.Row Idealize.ShloMosaic Idealize.ShloMosaic.TcCoe Idealize.ShloMosaic.ValueIdx
open Idealize.SL Idealize.SL.Sem

variable {F : FTy → Type} [FloatOps F]

/-- Row r of channel ch of a [1,2,128,512] block, as the [1,512] vector a load of that row returns. -/
def rowOf (x : Vec F S1x2x128x512 .f32) (ch : Fin 2) (r : Fin 128) : Vec F S1x512 .f32 :=
  fun y => x (ix4 (0 : Fin 1) ch r (⟨(y 1).val, (y 1).isLt⟩ : Fin 512))

/-- What the body leaves in the result block, entry by entry: channel ch, row r, lane w is the row function of row r
    of the two coordinate channels. -/
def outBlock (v0 : Vec F S512x256 .bf16) (v2 : IVec S256x1 32) (x : Vec F S1x2x128x512 .f32) (ch : Fin 2) (r : Fin 128) (w : Fin 512) : F .f32 :=
  if ch.val = 0 then rowCh0 (k0_pay1 v0) v2 (rowOf x 0 r) (rowOf x 1 r) (ix2 (0 : Fin 1) w)
  else rowCh1 (k0_pay1 v0) v2 (rowOf x 0 r) (rowOf x 1 r) (ix2 (0 : Fin 1) w)

/-! ## Each row's stored vectors are the row function of the row's two loads

The eight rows of a trip are the same operations on different loads; read through their definitions, the value
stored for channel 0 (channel 1) of row rr is `rowCh0` (`rowCh1`) of the two vectors loaded for row rr. -/

theorem pay_r0_c0 (arg2 : Memref sig .tc .vmem S1x2x128x512 .f32) (v0 : Vec F S512x256 .bf16) (v2 : IVec S256x1 32)
    (X2 : BufTy.Contents (Elt F) arg2.view.ty) (k : Fin k0_t1_loop.trips) :
    k0_pay11 (trip.sl.r_4 arg2 v2 X2 k) (trip.sl.r_6 arg2 v0 v2 X2 k)
      = rowCh0 (k0_pay1 v0) v2 (trip.sl.v9 arg2 X2 k) (trip.sl.v14 arg2 X2 k) := by
  rfl

theorem pay_r0_c1 (arg2 : Memref sig .tc .vmem S1x2x128x512 .f32) (v0 : Vec F S512x256 .bf16) (v2 : IVec S256x1 32)
    (X2 : BufTy.Contents (Elt F) arg2.view.ty) (k : Fin k0_t1_loop.trips) :
    k0_pay12 (trip.sl.r_4 arg2 v2 X2 k) (trip.sl.r_5 arg2 v0 v2 X2 k)
      = rowCh1 (k0_pay1 v0) v2 (trip.sl.v9 arg2 X2 k) (trip.sl.v14 arg2 X2 k) := by
  rfl

theorem pay_r1_c0 (arg2 : Memref sig .tc .vmem S1x2x128x512 .f32) (v0 : Vec F S512x256 .bf16) (v2 : IVec S256x1 32)
    (X2 : BufTy.Contents (Elt F) arg2.view.ty) (k : Fin k0_t1_loop.trips) :
    k0_pay29 (k0_pay1 v0) v2 (trip.sl.r_9 arg2 X2 k) (trip.sl.r_10 arg2 X2 k) (trip.sl.r_11 arg2 X2 k) (trip.sl.r_12 arg2 X2 k) (trip.sl.r_13 arg2 v2 X2 k) (trip.sl.r_14 arg2 v2 X2 k) trip.sl.cst_74
      = rowCh0 (k0_pay1 v0) v2 (trip.sl.v111 arg2 X2 k) (trip.sl.v116 arg2 X2 k) := by
  rfl

theorem pay_r1_c1 (arg2 : Memref sig .tc .vmem S1x2x128x512 .f32) (v0 : Vec F S512x256 .bf16) (v2 : IVec S256x1 32)
    (X2 : BufTy.Contents (Elt F) arg2.view.ty) (k : Fin k0_t1_loop.trips) :
    k0_pay30 (trip.sl.r_15 arg2 v0 v2 X2 k)
      = rowCh1 (k0_pay1 v0) v2 (trip.sl.v111 arg2 X2 k) (trip.sl.v116 arg2 X2 k) := by
  rfl

theorem pay_r2_c0 (arg2 : Memref sig .tc .vmem S1x2x128x512 .f32) (v0 : Vec F S512x256 .bf16) (v2 : IVec S256x1 32)
    (X2 : BufTy.Contents (Elt F) arg2.view.ty) (k : Fin k0_t1_loop.trips) :
    k0_pay40 (trip.sl.r_22 arg2 v0 v2 X2 k)
      = rowCh0 (k0_pay1 v0) v2 (trip.sl.v213 arg2 X2 k) (trip.sl.v218 arg2 X2 k) := by
  rfl

theorem pay_r2_c1 (arg2 : Memref sig .tc .vmem S1x2x128x512 .f32) (v0 : Vec F S512x256 .bf16) (v2 : IVec S256x1 32)
    (X2 : BufTy.Contents (Elt F) arg2.view.ty) (k : Fin k0_t1_loop.trips) :
    k0_pay41 (trip.sl.r_20 arg2 v2 X2 k) (trip.sl.r_21 arg2 v0 v2 X2 k)
      = rowCh1 (k0_pay1 v0) v2 (trip.sl.v213 arg2 X2 k) (trip.sl.v218 arg2 X2 k) := by
  rfl

theorem pay_r3_c0 (arg2 : Memref sig .tc .vmem S1x2x128x512 .f32) (v0 : Vec F S512x256 .bf16) (v2 : IVec S256x1 32)
    (X2 : BufTy.Contents (Elt F) arg2.view.ty) (k : Fin k0_t1_loop.trips) :
    k0_pay57 (k0_pay1 v0) v2 (trip.sl.r_25 arg2 X2 k) (trip.sl.r_26 arg2 X2 k) (trip.sl.r_27 arg2 X2 k) (trip.sl.r_28 arg2 v2 X2 k) (trip.sl.r_29 arg2 v2 X2 k) trip.sl.cst_74 (trip.sl.r_30 arg2 X2 k)
      = rowCh0 (k0_pay1 v0) v2 (trip.sl.v315 arg2 X2 k) (trip.sl.v320 arg2 X2 k) := by
  rfl

theorem pay_r3_c1 (arg2 : Memref sig .tc .vmem S1x2x128x512 .f32) (v0 : Vec F S512x256 .bf16) (v2 : IVec S256x1 32)
    (X2 : BufTy.Contents (Elt F) arg2.view.ty) (k : Fin k0_t1_loop.trips) :
    k0_pay58 (k0_pay1 v0) v2 (trip.sl.r_25 arg2 X2 k) (trip.sl.r_26 arg2 X2 k) (trip.sl.r_27 arg2 X2 k) (trip.sl.r_28 arg2 v2 X2 k) (trip.sl.r_29 arg2 v2 X2 k) trip.sl.cst_74 (trip.sl.r_30 arg2 X2 k)
      = rowCh1 (k0_pay1 v0) v2 (trip.sl.v315 arg2 X2 k) (trip.sl.v320 arg2 X2 k) := by
  rfl

theorem pay_r4_c0 (arg2 : Memref sig .tc .vmem S1x2x128x512 .f32) (v0 : Vec F S512x256 .bf16) (v2 : IVec S256x1 32)
    (X2 : BufTy.Contents (Elt F) arg2.view.ty) (k : Fin k0_t1_loop.trips) :
    k0_pay69 (trip.sl.r_37 arg2 v0 v2 X2 k)
      = rowCh0 (k0_pay1 v0) v2 (trip.sl.v417 arg2 X2 k) (trip.sl.v422 arg2 X2 k) := by
  rfl

theorem pay_r4_c1 (arg2 : Memref sig .tc .vmem S1x2x128x512 .f32) (v0 : Vec F S512x256 .bf16) (v2 : IVec S256x1 32)
    (X2 : BufTy.Contents (Elt F) arg2.view.ty) (k : Fin k0_t1_loop.trips) :
    k0_pay70 (trip.sl.r_35 arg2 v2 X2 k) (trip.sl.r_36 arg2 v0 v2 X2 k)
      = rowCh1 (k0_pay1 v0) v2 (trip.sl.v417 arg2 X2 k) (trip.sl.v422 arg2 X2 k) := by
  rfl

theorem pay_r5_c0 (arg2 : Memref sig .tc .vmem S1x2x128x512 .f32) (v0 : Vec F S512x256 .bf16) (v2 : IVec S256x1 32)
    (X2 : BufTy.Contents (Elt F) arg2.view.ty) (k : Fin k0_t1_loop.trips) :
    k0_pay84 (k0_pay1 v0) v2 (trip.sl.r_40 arg2 X2 k) (trip.sl.r_41 arg2 X2 k) (trip.sl.r_42 arg2 X2 k) (trip.sl.r_43 arg2 v2 X2 k) (trip.sl.r_44 arg2 v2 X2 k)
      = rowCh0 (k0_pay1 v0) v2 (trip.sl.v519 arg2 X2 k) (trip.sl.v524 arg2 X2 k) := by
  rfl

theorem pay_r5_c1 (arg2 : Memref sig .tc .vmem S1x2x128x512 .f32) (v0 : Vec F S512x256 .bf16) (v2 : IVec S256x1 32)
    (X2 : BufTy.Contents (Elt F) arg2.view.ty) (k : Fin k0_t1_loop.trips) :
    k0_pay85 (k0_pay1 v0) v2 (trip.sl.r_40 arg2 X2 k) (trip.sl.r_41 arg2 X2 k) (trip.sl.r_42 arg2 X2 k) (trip.sl.r_43 arg2 v2 X2 k) (trip.sl.r_44 arg2 v2 X2 k)
      = rowCh1 (k0_pay1 v0) v2 (trip.sl.v519 arg2 X2 k) (trip.sl.v524 arg2 X2 k) := by
  rfl

theorem pay_r6_c0 (arg2 : Memref sig .tc .vmem S1x2x128x512 .f32) (v0 : Vec F S512x256 .bf16) (v2 : IVec S256x1 32)
    (X2 : BufTy.Contents (Elt F) arg2.view.ty) (k : Fin k0_t1_loop.trips) :
    k0_pay97 (trip.sl.r_49 arg2 v0 v2 X2 k)
      = rowCh0 (k0_pay1 v0) v2 (trip.sl.v621 arg2 X2 k) (trip.sl.v626 arg2 X2 k) := by
  rfl

theorem pay_r6_c1 (arg2 : Memref sig .tc .vmem S1x2x128x512 .f32) (v0 : Vec F S512x256 .bf16) (v2 : IVec S256x1 32)
    (X2 : BufTy.Contents (Elt F) arg2.view.ty) (k : Fin k0_t1_loop.trips) :
    k0_pay98 (trip.sl.r_50 arg2 v0 v2 X2 k)
      = rowCh1 (k0_pay1 v0) v2 (trip.sl.v621 arg2 X2 k) (trip.sl.v626 arg2 X2 k) := by
  rfl

theorem pay_r7_c0 (arg2 : Memref sig .tc .vmem S1x2x128x512 .f32) (v0 : Vec F S512x256 .bf16) (v2 : IVec S256x1 32)
    (X2 : BufTy.Contents (Elt F) arg2.view.ty) (k : Fin k0_t1_loop.trips) :
    k0_pay2 (trip.sl.r_57 arg2 v0 v2 X2 k)
      = rowCh0 (k0_pay1 v0) v2 (trip.sl.v723 arg2 X2 k) (trip.sl.v728 arg2 X2 k) := by
  rfl

theorem pay_r7_c1 (arg2 : Memref sig .tc .vmem S1x2x128x512 .f32) (v0 : Vec F S512x256 .bf16) (v2 : IVec S256x1 32)
    (X2 : BufTy.Contents (Elt F) arg2.view.ty) (k : Fin k0_t1_loop.trips) :
    k0_pay3 (trip.sl.r_58 arg2 v0 v2 X2 k)
      = rowCh1 (k0_pay1 v0) v2 (trip.sl.v723 arg2 X2 k) (trip.sl.v728 arg2 X2 k) := by
  rfl

/-! ## A load of row rr of a band is that row of the block -/

theorem load_r0_c0 (arg2 : Memref sig .tc .vmem S1x2x128x512 .f32) (X2 : BufTy.Contents (Elt F) arg2.view.ty) (k : Fin k0_t1_loop.trips) :
    (trip.sl.v9 arg2 X2 k : Vec F S1x512 .f32)
      = rowOf (arg2.view.read (Elt F) X2) (⟨0, by omega⟩ : Fin 2) (⟨8 * k.val + 0, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 0 _ _ k _ 0 _ b (by omega) (by omega) X2

theorem load_r0_c1 (arg2 : Memref sig .tc .vmem S1x2x128x512 .f32) (X2 : BufTy.Contents (Elt F) arg2.view.ty) (k : Fin k0_t1_loop.trips) :
    (trip.sl.v14 arg2 X2 k : Vec F S1x512 .f32)
      = rowOf (arg2.view.read (Elt F) X2) (⟨1, by omega⟩ : Fin 2) (⟨8 * k.val + 0, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 1 _ _ k _ 0 _ b (by omega) (by omega) X2

theorem load_r1_c0 (arg2 : Memref sig .tc .vmem S1x2x128x512 .f32) (X2 : BufTy.Contents (Elt F) arg2.view.ty) (k : Fin k0_t1_loop.trips) :
    (trip.sl.v111 arg2 X2 k : Vec F S1x512 .f32)
      = rowOf (arg2.view.read (Elt F) X2) (⟨0, by omega⟩ : Fin 2) (⟨8 * k.val + 1, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 0 _ _ k _ 1 _ b (by omega) (by omega) X2

theorem load_r1_c1 (arg2 : Memref sig .tc .vmem S1x2x128x512 .f32) (X2 : BufTy.Contents (Elt F) arg2.view.ty) (k : Fin k0_t1_loop.trips) :
    (trip.sl.v116 arg2 X2 k : Vec F S1x512 .f32)
      = rowOf (arg2.view.read (Elt F) X2) (⟨1, by omega⟩ : Fin 2) (⟨8 * k.val + 1, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 1 _ _ k _ 1 _ b (by omega) (by omega) X2

theorem load_r2_c0 (arg2 : Memref sig .tc .vmem S1x2x128x512 .f32) (X2 : BufTy.Contents (Elt F) arg2.view.ty) (k : Fin k0_t1_loop.trips) :
    (trip.sl.v213 arg2 X2 k : Vec F S1x512 .f32)
      = rowOf (arg2.view.read (Elt F) X2) (⟨0, by omega⟩ : Fin 2) (⟨8 * k.val + 2, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 0 _ _ k _ 2 _ b (by omega) (by omega) X2

theorem load_r2_c1 (arg2 : Memref sig .tc .vmem S1x2x128x512 .f32) (X2 : BufTy.Contents (Elt F) arg2.view.ty) (k : Fin k0_t1_loop.trips) :
    (trip.sl.v218 arg2 X2 k : Vec F S1x512 .f32)
      = rowOf (arg2.view.read (Elt F) X2) (⟨1, by omega⟩ : Fin 2) (⟨8 * k.val + 2, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 1 _ _ k _ 2 _ b (by omega) (by omega) X2

theorem load_r3_c0 (arg2 : Memref sig .tc .vmem S1x2x128x512 .f32) (X2 : BufTy.Contents (Elt F) arg2.view.ty) (k : Fin k0_t1_loop.trips) :
    (trip.sl.v315 arg2 X2 k : Vec F S1x512 .f32)
      = rowOf (arg2.view.read (Elt F) X2) (⟨0, by omega⟩ : Fin 2) (⟨8 * k.val + 3, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 0 _ _ k _ 3 _ b (by omega) (by omega) X2

theorem load_r3_c1 (arg2 : Memref sig .tc .vmem S1x2x128x512 .f32) (X2 : BufTy.Contents (Elt F) arg2.view.ty) (k : Fin k0_t1_loop.trips) :
    (trip.sl.v320 arg2 X2 k : Vec F S1x512 .f32)
      = rowOf (arg2.view.read (Elt F) X2) (⟨1, by omega⟩ : Fin 2) (⟨8 * k.val + 3, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 1 _ _ k _ 3 _ b (by omega) (by omega) X2

theorem load_r4_c0 (arg2 : Memref sig .tc .vmem S1x2x128x512 .f32) (X2 : BufTy.Contents (Elt F) arg2.view.ty) (k : Fin k0_t1_loop.trips) :
    (trip.sl.v417 arg2 X2 k : Vec F S1x512 .f32)
      = rowOf (arg2.view.read (Elt F) X2) (⟨0, by omega⟩ : Fin 2) (⟨8 * k.val + 4, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 0 _ _ k _ 4 _ b (by omega) (by omega) X2

theorem load_r4_c1 (arg2 : Memref sig .tc .vmem S1x2x128x512 .f32) (X2 : BufTy.Contents (Elt F) arg2.view.ty) (k : Fin k0_t1_loop.trips) :
    (trip.sl.v422 arg2 X2 k : Vec F S1x512 .f32)
      = rowOf (arg2.view.read (Elt F) X2) (⟨1, by omega⟩ : Fin 2) (⟨8 * k.val + 4, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 1 _ _ k _ 4 _ b (by omega) (by omega) X2

theorem load_r5_c0 (arg2 : Memref sig .tc .vmem S1x2x128x512 .f32) (X2 : BufTy.Contents (Elt F) arg2.view.ty) (k : Fin k0_t1_loop.trips) :
    (trip.sl.v519 arg2 X2 k : Vec F S1x512 .f32)
      = rowOf (arg2.view.read (Elt F) X2) (⟨0, by omega⟩ : Fin 2) (⟨8 * k.val + 5, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 0 _ _ k _ 5 _ b (by omega) (by omega) X2

theorem load_r5_c1 (arg2 : Memref sig .tc .vmem S1x2x128x512 .f32) (X2 : BufTy.Contents (Elt F) arg2.view.ty) (k : Fin k0_t1_loop.trips) :
    (trip.sl.v524 arg2 X2 k : Vec F S1x512 .f32)
      = rowOf (arg2.view.read (Elt F) X2) (⟨1, by omega⟩ : Fin 2) (⟨8 * k.val + 5, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 1 _ _ k _ 5 _ b (by omega) (by omega) X2

theorem load_r6_c0 (arg2 : Memref sig .tc .vmem S1x2x128x512 .f32) (X2 : BufTy.Contents (Elt F) arg2.view.ty) (k : Fin k0_t1_loop.trips) :
    (trip.sl.v621 arg2 X2 k : Vec F S1x512 .f32)
      = rowOf (arg2.view.read (Elt F) X2) (⟨0, by omega⟩ : Fin 2) (⟨8 * k.val + 6, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 0 _ _ k _ 6 _ b (by omega) (by omega) X2

theorem load_r6_c1 (arg2 : Memref sig .tc .vmem S1x2x128x512 .f32) (X2 : BufTy.Contents (Elt F) arg2.view.ty) (k : Fin k0_t1_loop.trips) :
    (trip.sl.v626 arg2 X2 k : Vec F S1x512 .f32)
      = rowOf (arg2.view.read (Elt F) X2) (⟨1, by omega⟩ : Fin 2) (⟨8 * k.val + 6, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 1 _ _ k _ 6 _ b (by omega) (by omega) X2

theorem load_r7_c0 (arg2 : Memref sig .tc .vmem S1x2x128x512 .f32) (X2 : BufTy.Contents (Elt F) arg2.view.ty) (k : Fin k0_t1_loop.trips) :
    (trip.sl.v723 arg2 X2 k : Vec F S1x512 .f32)
      = rowOf (arg2.view.read (Elt F) X2) (⟨0, by omega⟩ : Fin 2) (⟨8 * k.val + 7, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 0 _ _ k _ 7 _ b (by omega) (by omega) X2

theorem load_r7_c1 (arg2 : Memref sig .tc .vmem S1x2x128x512 .f32) (X2 : BufTy.Contents (Elt F) arg2.view.ty) (k : Fin k0_t1_loop.trips) :
    (trip.sl.v728 arg2 X2 k : Vec F S1x512 .f32)
      = rowOf (arg2.view.read (Elt F) X2) (⟨1, by omega⟩ : Fin 2) (⟨8 * k.val + 7, RowGeom.row_lt k (by omega)⟩ : Fin 128) := by
  funext y
  obtain ⟨a, b, rfl⟩ : ∃ (a : Fin 1) (b : Fin 512), y = ix2 a b := ⟨y 0, y 1, eq_ix2 y⟩
  obtain rfl : a = 0 := Subsingleton.elim _ _
  exact RowGeom.row_read arg2 1 _ _ k _ 7 _ b (by omega) (by omega) X2

/-! ## The sixteen stores of a trip, one at a time

Store n writes row (n − 1) / 2 of channel (n − 1) % 2 of the band: an entry elsewhere is what the stores before it
left (`peel_n`), an entry of that row is the stored vector's (`hit_n`). -/

theorem peel_16 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 1 ∨ r'.val ≠ 8 * k.val + 7) :
    arg4.view.read (Elt F) (trip.sl.HW4_w16 arg2 arg4 v0 v2 X2 k f) (ix4 (0 : Fin 1) ch' r' w)
      = arg4.view.read (Elt F) (trip.sl.HW4_w15 arg2 arg4 v0 v2 X2 k f) (ix4 (0 : Fin 1) ch' r' w) :=
  RowGeom.row_write_miss arg4 1 _ _ k _ 7 _ w (by omega) (by omega) _ _ ch' r' hne

theorem hit_16 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨1, by omega⟩ : Fin 2) (⟨8 * k.val + 7, RowGeom.row_lt k (by omega)⟩ : Fin 128) w)
      = (k0_pay3 (trip.sl.r_58 arg2 v0 v2 X2 k)) (ix2 (0 : Fin 1) w) :=
  RowGeom.row_write_hit arg4 1 _ _ k _ 7 _ w (by omega) (by omega) _ _

theorem peel_15 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 0 ∨ r'.val ≠ 8 * k.val + 7) :
    arg4.view.read (Elt F) (trip.sl.HW4_w15 arg2 arg4 v0 v2 X2 k f) (ix4 (0 : Fin 1) ch' r' w)
      = arg4.view.read (Elt F) (trip.sl.HW4_w14 arg2 arg4 v0 v2 X2 k f) (ix4 (0 : Fin 1) ch' r' w) :=
  RowGeom.row_write_miss arg4 0 _ _ k _ 7 _ w (by omega) (by omega) _ _ ch' r' hne

theorem hit_15 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w15 arg2 arg4 v0 v2 X2 k f)
        (ix4 (0 : Fin 1) (⟨0, by omega⟩ : Fin 2) (⟨8 * k.val + 7, RowGeom.row_lt k (by omega)⟩ : Fin 128) w)
      = (k0_pay2 (trip.sl.r_57 arg2 v0 v2 X2 k)) (ix2 (0 : Fin 1) w) :=
  RowGeom.row_write_hit arg4 0 _ _ k _ 7 _ w (by omega) (by omega) _ _

theorem peel_14 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 1 ∨ r'.val ≠ 8 * k.val + 6) :
    arg4.view.read (Elt F) (trip.sl.HW4_w14 arg2 arg4 v0 v2 X2 k f) (ix4 (0 : Fin 1) ch' r' w)
      = arg4.view.read (Elt F) (trip.sl.HW4_w13 arg2 arg4 v0 v2 X2 k f) (ix4 (0 : Fin 1) ch' r' w) :=
  RowGeom.row_write_miss arg4 1 _ _ k _ 6 _ w (by omega) (by omega) _ _ ch' r' hne

theorem hit_14 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w14 arg2 arg4 v0 v2 X2 k f)
        (ix4 (0 : Fin 1) (⟨1, by omega⟩ : Fin 2) (⟨8 * k.val + 6, RowGeom.row_lt k (by omega)⟩ : Fin 128) w)
      = (k0_pay98 (trip.sl.r_50 arg2 v0 v2 X2 k)) (ix2 (0 : Fin 1) w) :=
  RowGeom.row_write_hit arg4 1 _ _ k _ 6 _ w (by omega) (by omega) _ _

theorem peel_13 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 0 ∨ r'.val ≠ 8 * k.val + 6) :
    arg4.view.read (Elt F) (trip.sl.HW4_w13 arg2 arg4 v0 v2 X2 k f) (ix4 (0 : Fin 1) ch' r' w)
      = arg4.view.read (Elt F) (trip.sl.HW4_w12 arg2 arg4 v0 v2 X2 k f) (ix4 (0 : Fin 1) ch' r' w) :=
  RowGeom.row_write_miss arg4 0 _ _ k _ 6 _ w (by omega) (by omega) _ _ ch' r' hne

theorem hit_13 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w13 arg2 arg4 v0 v2 X2 k f)
        (ix4 (0 : Fin 1) (⟨0, by omega⟩ : Fin 2) (⟨8 * k.val + 6, RowGeom.row_lt k (by omega)⟩ : Fin 128) w)
      = (k0_pay97 (trip.sl.r_49 arg2 v0 v2 X2 k)) (ix2 (0 : Fin 1) w) :=
  RowGeom.row_write_hit arg4 0 _ _ k _ 6 _ w (by omega) (by omega) _ _

theorem peel_12 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 1 ∨ r'.val ≠ 8 * k.val + 5) :
    arg4.view.read (Elt F) (trip.sl.HW4_w12 arg2 arg4 v0 v2 X2 k f) (ix4 (0 : Fin 1) ch' r' w)
      = arg4.view.read (Elt F) (trip.sl.HW4_w11 arg2 arg4 v0 v2 X2 k f) (ix4 (0 : Fin 1) ch' r' w) :=
  RowGeom.row_write_miss arg4 1 _ _ k _ 5 _ w (by omega) (by omega) _ _ ch' r' hne

theorem hit_12 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w12 arg2 arg4 v0 v2 X2 k f)
        (ix4 (0 : Fin 1) (⟨1, by omega⟩ : Fin 2) (⟨8 * k.val + 5, RowGeom.row_lt k (by omega)⟩ : Fin 128) w)
      = (k0_pay85 (k0_pay1 v0) v2 (trip.sl.r_40 arg2 X2 k) (trip.sl.r_41 arg2 X2 k) (trip.sl.r_42 arg2 X2 k) (trip.sl.r_43 arg2 v2 X2 k) (trip.sl.r_44 arg2 v2 X2 k)) (ix2 (0 : Fin 1) w) :=
  RowGeom.row_write_hit arg4 1 _ _ k _ 5 _ w (by omega) (by omega) _ _

theorem peel_11 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 0 ∨ r'.val ≠ 8 * k.val + 5) :
    arg4.view.read (Elt F) (trip.sl.HW4_w11 arg2 arg4 v0 v2 X2 k f) (ix4 (0 : Fin 1) ch' r' w)
      = arg4.view.read (Elt F) (trip.sl.HW4_w10 arg2 arg4 v0 v2 X2 k f) (ix4 (0 : Fin 1) ch' r' w) :=
  RowGeom.row_write_miss arg4 0 _ _ k _ 5 _ w (by omega) (by omega) _ _ ch' r' hne

theorem hit_11 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w11 arg2 arg4 v0 v2 X2 k f)
        (ix4 (0 : Fin 1) (⟨0, by omega⟩ : Fin 2) (⟨8 * k.val + 5, RowGeom.row_lt k (by omega)⟩ : Fin 128) w)
      = (k0_pay84 (k0_pay1 v0) v2 (trip.sl.r_40 arg2 X2 k) (trip.sl.r_41 arg2 X2 k) (trip.sl.r_42 arg2 X2 k) (trip.sl.r_43 arg2 v2 X2 k) (trip.sl.r_44 arg2 v2 X2 k)) (ix2 (0 : Fin 1) w) :=
  RowGeom.row_write_hit arg4 0 _ _ k _ 5 _ w (by omega) (by omega) _ _

theorem peel_10 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 1 ∨ r'.val ≠ 8 * k.val + 4) :
    arg4.view.read (Elt F) (trip.sl.HW4_w10 arg2 arg4 v0 v2 X2 k f) (ix4 (0 : Fin 1) ch' r' w)
      = arg4.view.read (Elt F) (trip.sl.HW4_w9 arg2 arg4 v0 v2 X2 k f) (ix4 (0 : Fin 1) ch' r' w) :=
  RowGeom.row_write_miss arg4 1 _ _ k _ 4 _ w (by omega) (by omega) _ _ ch' r' hne

theorem hit_10 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w10 arg2 arg4 v0 v2 X2 k f)
        (ix4 (0 : Fin 1) (⟨1, by omega⟩ : Fin 2) (⟨8 * k.val + 4, RowGeom.row_lt k (by omega)⟩ : Fin 128) w)
      = (k0_pay70 (trip.sl.r_35 arg2 v2 X2 k) (trip.sl.r_36 arg2 v0 v2 X2 k)) (ix2 (0 : Fin 1) w) :=
  RowGeom.row_write_hit arg4 1 _ _ k _ 4 _ w (by omega) (by omega) _ _

theorem peel_9 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 0 ∨ r'.val ≠ 8 * k.val + 4) :
    arg4.view.read (Elt F) (trip.sl.HW4_w9 arg2 arg4 v0 v2 X2 k f) (ix4 (0 : Fin 1) ch' r' w)
      = arg4.view.read (Elt F) (trip.sl.HW4_w8 arg2 arg4 v0 v2 X2 k f) (ix4 (0 : Fin 1) ch' r' w) :=
  RowGeom.row_write_miss arg4 0 _ _ k _ 4 _ w (by omega) (by omega) _ _ ch' r' hne

theorem hit_9 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w9 arg2 arg4 v0 v2 X2 k f)
        (ix4 (0 : Fin 1) (⟨0, by omega⟩ : Fin 2) (⟨8 * k.val + 4, RowGeom.row_lt k (by omega)⟩ : Fin 128) w)
      = (k0_pay69 (trip.sl.r_37 arg2 v0 v2 X2 k)) (ix2 (0 : Fin 1) w) :=
  RowGeom.row_write_hit arg4 0 _ _ k _ 4 _ w (by omega) (by omega) _ _

theorem peel_8 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 1 ∨ r'.val ≠ 8 * k.val + 3) :
    arg4.view.read (Elt F) (trip.sl.HW4_w8 arg2 arg4 v0 v2 X2 k f) (ix4 (0 : Fin 1) ch' r' w)
      = arg4.view.read (Elt F) (trip.sl.HW4_w7 arg2 arg4 v0 v2 X2 k f) (ix4 (0 : Fin 1) ch' r' w) :=
  RowGeom.row_write_miss arg4 1 _ _ k _ 3 _ w (by omega) (by omega) _ _ ch' r' hne

theorem hit_8 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w8 arg2 arg4 v0 v2 X2 k f)
        (ix4 (0 : Fin 1) (⟨1, by omega⟩ : Fin 2) (⟨8 * k.val + 3, RowGeom.row_lt k (by omega)⟩ : Fin 128) w)
      = (k0_pay58 (k0_pay1 v0) v2 (trip.sl.r_25 arg2 X2 k) (trip.sl.r_26 arg2 X2 k) (trip.sl.r_27 arg2 X2 k) (trip.sl.r_28 arg2 v2 X2 k) (trip.sl.r_29 arg2 v2 X2 k) trip.sl.cst_74 (trip.sl.r_30 arg2 X2 k)) (ix2 (0 : Fin 1) w) :=
  RowGeom.row_write_hit arg4 1 _ _ k _ 3 _ w (by omega) (by omega) _ _

theorem peel_7 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 0 ∨ r'.val ≠ 8 * k.val + 3) :
    arg4.view.read (Elt F) (trip.sl.HW4_w7 arg2 arg4 v0 v2 X2 k f) (ix4 (0 : Fin 1) ch' r' w)
      = arg4.view.read (Elt F) (trip.sl.HW4_w6 arg2 arg4 v0 v2 X2 k f) (ix4 (0 : Fin 1) ch' r' w) :=
  RowGeom.row_write_miss arg4 0 _ _ k _ 3 _ w (by omega) (by omega) _ _ ch' r' hne

theorem hit_7 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w7 arg2 arg4 v0 v2 X2 k f)
        (ix4 (0 : Fin 1) (⟨0, by omega⟩ : Fin 2) (⟨8 * k.val + 3, RowGeom.row_lt k (by omega)⟩ : Fin 128) w)
      = (k0_pay57 (k0_pay1 v0) v2 (trip.sl.r_25 arg2 X2 k) (trip.sl.r_26 arg2 X2 k) (trip.sl.r_27 arg2 X2 k) (trip.sl.r_28 arg2 v2 X2 k) (trip.sl.r_29 arg2 v2 X2 k) trip.sl.cst_74 (trip.sl.r_30 arg2 X2 k)) (ix2 (0 : Fin 1) w) :=
  RowGeom.row_write_hit arg4 0 _ _ k _ 3 _ w (by omega) (by omega) _ _

theorem peel_6 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 1 ∨ r'.val ≠ 8 * k.val + 2) :
    arg4.view.read (Elt F) (trip.sl.HW4_w6 arg2 arg4 v0 v2 X2 k f) (ix4 (0 : Fin 1) ch' r' w)
      = arg4.view.read (Elt F) (trip.sl.HW4_w5 arg2 arg4 v0 v2 X2 k f) (ix4 (0 : Fin 1) ch' r' w) :=
  RowGeom.row_write_miss arg4 1 _ _ k _ 2 _ w (by omega) (by omega) _ _ ch' r' hne

theorem hit_6 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w6 arg2 arg4 v0 v2 X2 k f)
        (ix4 (0 : Fin 1) (⟨1, by omega⟩ : Fin 2) (⟨8 * k.val + 2, RowGeom.row_lt k (by omega)⟩ : Fin 128) w)
      = (k0_pay41 (trip.sl.r_20 arg2 v2 X2 k) (trip.sl.r_21 arg2 v0 v2 X2 k)) (ix2 (0 : Fin 1) w) :=
  RowGeom.row_write_hit arg4 1 _ _ k _ 2 _ w (by omega) (by omega) _ _

theorem peel_5 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 0 ∨ r'.val ≠ 8 * k.val + 2) :
    arg4.view.read (Elt F) (trip.sl.HW4_w5 arg2 arg4 v0 v2 X2 k f) (ix4 (0 : Fin 1) ch' r' w)
      = arg4.view.read (Elt F) (trip.sl.HW4_w4 arg2 arg4 v0 v2 X2 k f) (ix4 (0 : Fin 1) ch' r' w) :=
  RowGeom.row_write_miss arg4 0 _ _ k _ 2 _ w (by omega) (by omega) _ _ ch' r' hne

theorem hit_5 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w5 arg2 arg4 v0 v2 X2 k f)
        (ix4 (0 : Fin 1) (⟨0, by omega⟩ : Fin 2) (⟨8 * k.val + 2, RowGeom.row_lt k (by omega)⟩ : Fin 128) w)
      = (k0_pay40 (trip.sl.r_22 arg2 v0 v2 X2 k)) (ix2 (0 : Fin 1) w) :=
  RowGeom.row_write_hit arg4 0 _ _ k _ 2 _ w (by omega) (by omega) _ _

theorem peel_4 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 1 ∨ r'.val ≠ 8 * k.val + 1) :
    arg4.view.read (Elt F) (trip.sl.HW4_w4 arg2 arg4 v0 v2 X2 k f) (ix4 (0 : Fin 1) ch' r' w)
      = arg4.view.read (Elt F) (trip.sl.HW4_w3 arg2 arg4 v0 v2 X2 k f) (ix4 (0 : Fin 1) ch' r' w) :=
  RowGeom.row_write_miss arg4 1 _ _ k _ 1 _ w (by omega) (by omega) _ _ ch' r' hne

theorem hit_4 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w4 arg2 arg4 v0 v2 X2 k f)
        (ix4 (0 : Fin 1) (⟨1, by omega⟩ : Fin 2) (⟨8 * k.val + 1, RowGeom.row_lt k (by omega)⟩ : Fin 128) w)
      = (k0_pay30 (trip.sl.r_15 arg2 v0 v2 X2 k)) (ix2 (0 : Fin 1) w) :=
  RowGeom.row_write_hit arg4 1 _ _ k _ 1 _ w (by omega) (by omega) _ _

theorem peel_3 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 0 ∨ r'.val ≠ 8 * k.val + 1) :
    arg4.view.read (Elt F) (trip.sl.HW4_w3 arg2 arg4 v0 v2 X2 k f) (ix4 (0 : Fin 1) ch' r' w)
      = arg4.view.read (Elt F) (trip.sl.HW4_w2 arg2 arg4 v0 v2 X2 k f) (ix4 (0 : Fin 1) ch' r' w) :=
  RowGeom.row_write_miss arg4 0 _ _ k _ 1 _ w (by omega) (by omega) _ _ ch' r' hne

theorem hit_3 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w3 arg2 arg4 v0 v2 X2 k f)
        (ix4 (0 : Fin 1) (⟨0, by omega⟩ : Fin 2) (⟨8 * k.val + 1, RowGeom.row_lt k (by omega)⟩ : Fin 128) w)
      = (k0_pay29 (k0_pay1 v0) v2 (trip.sl.r_9 arg2 X2 k) (trip.sl.r_10 arg2 X2 k) (trip.sl.r_11 arg2 X2 k) (trip.sl.r_12 arg2 X2 k) (trip.sl.r_13 arg2 v2 X2 k) (trip.sl.r_14 arg2 v2 X2 k) trip.sl.cst_74) (ix2 (0 : Fin 1) w) :=
  RowGeom.row_write_hit arg4 0 _ _ k _ 1 _ w (by omega) (by omega) _ _

theorem peel_2 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 1 ∨ r'.val ≠ 8 * k.val + 0) :
    arg4.view.read (Elt F) (trip.sl.HW4_w2 arg2 arg4 v0 v2 X2 k f) (ix4 (0 : Fin 1) ch' r' w)
      = arg4.view.read (Elt F) (trip.sl.HW4_w1 arg2 arg4 v0 v2 X2 k f) (ix4 (0 : Fin 1) ch' r' w) :=
  RowGeom.row_write_miss arg4 1 _ _ k _ 0 _ w (by omega) (by omega) _ _ ch' r' hne

theorem hit_2 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w2 arg2 arg4 v0 v2 X2 k f)
        (ix4 (0 : Fin 1) (⟨1, by omega⟩ : Fin 2) (⟨8 * k.val + 0, RowGeom.row_lt k (by omega)⟩ : Fin 128) w)
      = (k0_pay12 (trip.sl.r_4 arg2 v2 X2 k) (trip.sl.r_5 arg2 v0 v2 X2 k)) (ix2 (0 : Fin 1) w) :=
  RowGeom.row_write_hit arg4 1 _ _ k _ 0 _ w (by omega) (by omega) _ _

theorem peel_1 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty)
    (ch' : Fin 2) (r' : Fin 128) (w : Fin 512) (hne : ch'.val ≠ 0 ∨ r'.val ≠ 8 * k.val + 0) :
    arg4.view.read (Elt F) (trip.sl.HW4_w1 arg2 arg4 v0 v2 X2 k f) (ix4 (0 : Fin 1) ch' r' w)
      = arg4.view.read (Elt F) f (ix4 (0 : Fin 1) ch' r' w) :=
  RowGeom.row_write_miss arg4 0 _ _ k _ 0 _ w (by omega) (by omega) _ _ ch' r' hne

theorem hit_1 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w1 arg2 arg4 v0 v2 X2 k f)
        (ix4 (0 : Fin 1) (⟨0, by omega⟩ : Fin 2) (⟨8 * k.val + 0, RowGeom.row_lt k (by omega)⟩ : Fin 128) w)
      = (k0_pay11 (trip.sl.r_4 arg2 v2 X2 k) (trip.sl.r_6 arg2 v0 v2 X2 k)) (ix2 (0 : Fin 1) w) :=
  RowGeom.row_write_hit arg4 0 _ _ k _ 0 _ w (by omega) (by omega) _ _

/-! ## The band after the sixteen stores, read at an entry -/

theorem read_r0_c0 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨0, by omega⟩ : Fin 2) (⟨8 * k.val + 0, RowGeom.row_lt k (by omega)⟩ : Fin 128) w)
      = outBlock v0 v2 (arg2.view.read (Elt F) X2) (⟨0, by omega⟩ : Fin 2) (⟨8 * k.val + 0, RowGeom.row_lt k (by omega)⟩ : Fin 128) w := by
  refine (peel_16 arg2 arg4 v0 v2 X2 k f _ _ w (Or.inr (by show 8 * k.val + 0 ≠ 8 * k.val + 7; omega))).trans ?_
  refine (peel_15 arg2 arg4 v0 v2 X2 k f _ _ w (Or.inr (by show 8 * k.val + 0 ≠ 8 * k.val + 7; omega))).trans ?_
  refine (peel_14 arg2 arg4 v0 v2 X2 k f _ _ w (Or.inr (by show 8 * k.val + 0 ≠ 8 * k.val + 6; omega))).trans ?_
  refine (peel_13 arg2 arg4 v0 v2 X2 k f _ _ w (Or.inr (by show 8 * k.val + 0 ≠ 8 * k.val + 6; omega))).trans ?_
  refine (peel_12 arg2 arg4 v0 v2 X2 k f _ _ w (Or.inr (by show 8 * k.val + 0 ≠ 8 * k.val + 5; omega))).trans ?_
  refine (peel_11 arg2 arg4 v0 v2 X2 k f _ _ w (Or.inr (by show 8 * k.val + 0 ≠ 8 * k.val + 5; omega))).trans ?_
  refine (peel_10 arg2 arg4 v0 v2 X2 k f _ _ w (Or.inr (by show 8 * k.val + 0 ≠ 8 * k.val + 4; omega))).trans ?_
  refine (peel_9 arg2 arg4 v0 v2 X2 k f _ _ w (Or.inr (by show 8 * k.val + 0 ≠ 8 * k.val + 4; omega))).trans ?_
  refine (peel_8 arg2 arg4 v0 v2 X2 k f _ _ w (Or.inr (by show 8 * k.val + 0 ≠ 8 * k.val + 3; omega))).trans ?_
  refine (peel_7 arg2 arg4 v0 v2 X2 k f _ _ w (Or.inr (by show 8 * k.val + 0 ≠ 8 * k.val + 3; omega))).trans ?_
  refine (peel_6 arg2 arg4 v0 v2 X2 k f _ _ w (Or.inr (by show 8 * k.val + 0 ≠ 8 * k.val + 2; omega))).trans ?_
  refine (peel_5 arg2 arg4 v0 v2 X2 k f _ _ w (Or.inr (by show 8 * k.val + 0 ≠ 8 * k.val + 2; omega))).trans ?_
  refine (peel_4 arg2 arg4 v0 v2 X2 k f _ _ w (Or.inr (by show 8 * k.val + 0 ≠ 8 * k.val + 1; omega))).trans ?_
  refine (peel_3 arg2 arg4 v0 v2 X2 k f _ _ w (Or.inr (by show 8 * k.val + 0 ≠ 8 * k.val + 1; omega))).trans ?_
  refine (peel_2 arg2 arg4 v0 v2 X2 k f _ _ w (Or.inl (by show 0 ≠ 1; omega))).trans ?_
  refine (hit_1 arg2 arg4 v0 v2 X2 k f w).trans ?_
  rw [pay_r0_c0, load_r0_c0, load_r0_c1]
  unfold outBlock
  exact (if_pos rfl).symm

theorem read_r0_c1 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨1, by omega⟩ : Fin 2) (⟨8 * k.val + 0, RowGeom.row_lt k (by omega)⟩ : Fin 128) w)
      = outBlock v0 v2 (arg2.view.read (Elt F) X2) (⟨1, by omega⟩ : Fin 2) (⟨8 * k.val + 0, RowGeom.row_lt k (by omega)⟩ : Fin 128) w := by
  refine (peel_16 arg2 arg4 v0 v2 X2 k f _ _ w (Or.inr (by show 8 * k.val + 0 ≠ 8 * k.val + 7; omega))).trans ?_
  refine (peel_15 arg2 arg4 v0 v2 X2 k f _ _ w (Or.inr (by show 8 * k.val + 0 ≠ 8 * k.val + 7; omega))).trans ?_
  refine (peel_14 arg2 arg4 v0 v2 X2 k f _ _ w (Or.inr (by show 8 * k.val + 0 ≠ 8 * k.val + 6; omega))).trans ?_
  refine (peel_13 arg2 arg4 v0 v2 X2 k f _ _ w (Or.inr (by show 8 * k.val + 0 ≠ 8 * k.val + 6; omega))).trans ?_
  refine (peel_12 arg2 arg4 v0 v2 X2 k f _ _ w (Or.inr (by show 8 * k.val + 0 ≠ 8 * k.val + 5; omega))).trans ?_
  refine (peel_11 arg2 arg4 v0 v2 X2 k f _ _ w (Or.inr (by show 8 * k.val + 0 ≠ 8 * k.val + 5; omega))).trans ?_
  refine (peel_10 arg2 arg4 v0 v2 X2 k f _ _ w (Or.inr (by show 8 * k.val + 0 ≠ 8 * k.val + 4; omega))).trans ?_
  refine (peel_9 arg2 arg4 v0 v2 X2 k f _ _ w (Or.inr (by show 8 * k.val + 0 ≠ 8 * k.val + 4; omega))).trans ?_
  refine (peel_8 arg2 arg4 v0 v2 X2 k f _ _ w (Or.inr (by show 8 * k.val + 0 ≠ 8 * k.val + 3; omega))).trans ?_
  refine (peel_7 arg2 arg4 v0 v2 X2 k f _ _ w (Or.inr (by show 8 * k.val + 0 ≠ 8 * k.val + 3; omega))).trans ?_
  refine (peel_6 arg2 arg4 v0 v2 X2 k f _ _ w (Or.inr (by show 8 * k.val + 0 ≠ 8 * k.val + 2; omega))).trans ?_
  refine (peel_5 arg2 arg4 v0 v2 X2 k f _ _ w (Or.inr (by show 8 * k.val + 0 ≠ 8 * k.val + 2; omega))).trans ?_
  refine (peel_4 arg2 arg4 v0 v2 X2 k f _ _ w (Or.inr (by show 8 * k.val + 0 ≠ 8 * k.val + 1; omega))).trans ?_
  refine (peel_3 arg2 arg4 v0 v2 X2 k f _ _ w (Or.inr (by show 8 * k.val + 0 ≠ 8 * k.val + 1; omega))).trans ?_
  refine (hit_2 arg2 arg4 v0 v2 X2 k f w).trans ?_
  rw [pay_r0_c1, load_r0_c0, load_r0_c1]
  unfold outBlock
  exact (if_neg (by decide)).symm

theorem read_r1_c0 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨0, by omega⟩ : Fin 2) (⟨8 * k.val + 1, RowGeom.row_lt k (by omega)⟩ : Fin 128) w)
      = outBlock v0 v2 (arg2.view.read (Elt F) X2) (⟨0, by omega⟩ : Fin 2) (⟨8 * k.val + 1, RowGeom.row_lt k (by omega)⟩ : Fin 128) w := by
  refine (peel_16 arg2 arg4 v0 v2 X2 k f _ _ w (Or.inr (by show 8 * k.val + 1 ≠ 8 * k.val + 7; omega))).trans ?_
  refine (peel_15 arg2 arg4 v0 v2 X2 k f _ _ w (Or.inr (by show 8 * k.val + 1 ≠ 8 * k.val + 7; omega))).trans ?_
  refine (peel_14 arg2 arg4 v0 v2 X2 k f _ _ w (Or.inr (by show 8 * k.val + 1 ≠ 8 * k.val + 6; omega))).trans ?_
  refine (peel_13 arg2 arg4 v0 v2 X2 k f _ _ w (Or.inr (by show 8 * k.val + 1 ≠ 8 * k.val + 6; omega))).trans ?_
  refine (peel_12 arg2 arg4 v0 v2 X2 k f _ _ w (Or.inr (by show 8 * k.val + 1 ≠ 8 * k.val + 5; omega))).trans ?_
  refine (peel_11 arg2 arg4 v0 v2 X2 k f _ _ w (Or.inr (by show 8 * k.val + 1 ≠ 8 * k.val + 5; omega))).trans ?_
  refine (peel_10 arg2 arg4 v0 v2 X2 k f _ _ w (Or.inr (by show 8 * k.val + 1 ≠ 8 * k.val + 4; omega))).trans ?_
  refine (peel_9 arg2 arg4 v0 v2 X2 k f _ _ w (Or.inr (by show 8 * k.val + 1 ≠ 8 * k.val + 4; omega))).trans ?_
  refine (peel_8 arg2 arg4 v0 v2 X2 k f _ _ w (Or.inr (by show 8 * k.val + 1 ≠ 8 * k.val + 3; omega))).trans ?_
  refine (peel_7 arg2 arg4 v0 v2 X2 k f _ _ w (Or.inr (by show 8 * k.val + 1 ≠ 8 * k.val + 3; omega))).trans ?_
  refine (peel_6 arg2 arg4 v0 v2 X2 k f _ _ w (Or.inr (by show 8 * k.val + 1 ≠ 8 * k.val + 2; omega))).trans ?_
  refine (peel_5 arg2 arg4 v0 v2 X2 k f _ _ w (Or.inr (by show 8 * k.val + 1 ≠ 8 * k.val + 2; omega))).trans ?_
  refine (peel_4 arg2 arg4 v0 v2 X2 k f _ _ w (Or.inl (by show 0 ≠ 1; omega))).trans ?_
  refine (hit_3 arg2 arg4 v0 v2 X2 k f w).trans ?_
  rw [pay_r1_c0, load_r1_c0, load_r1_c1]
  unfold outBlock
  exact (if_pos rfl).symm

theorem read_r1_c1 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨1, by omega⟩ : Fin 2) (⟨8 * k.val + 1, RowGeom.row_lt k (by omega)⟩ : Fin 128) w)
      = outBlock v0 v2 (arg2.view.read (Elt F) X2) (⟨1, by omega⟩ : Fin 2) (⟨8 * k.val + 1, RowGeom.row_lt k (by omega)⟩ : Fin 128) w := by
  refine (peel_16 arg2 arg4 v0 v2 X2 k f _ _ w (Or.inr (by show 8 * k.val + 1 ≠ 8 * k.val + 7; omega))).trans ?_
  refine (peel_15 arg2 arg4 v0 v2 X2 k f _ _ w (Or.inr (by show 8 * k.val + 1 ≠ 8 * k.val + 7; omega))).trans ?_
  refine (peel_14 arg2 arg4 v0 v2 X2 k f _ _ w (Or.inr (by show 8 * k.val + 1 ≠ 8 * k.val + 6; omega))).trans ?_
  refine (peel_13 arg2 arg4 v0 v2 X2 k f _ _ w (Or.inr (by show 8 * k.val + 1 ≠ 8 * k.val + 6; omega))).trans ?_
  refine (peel_12 arg2 arg4 v0 v2 X2 k f _ _ w (Or.inr (by show 8 * k.val + 1 ≠ 8 * k.val + 5; omega))).trans ?_
  refine (peel_11 arg2 arg4 v0 v2 X2 k f _ _ w (Or.inr (by show 8 * k.val + 1 ≠ 8 * k.val + 5; omega))).trans ?_
  refine (peel_10 arg2 arg4 v0 v2 X2 k f _ _ w (Or.inr (by show 8 * k.val + 1 ≠ 8 * k.val + 4; omega))).trans ?_
  refine (peel_9 arg2 arg4 v0 v2 X2 k f _ _ w (Or.inr (by show 8 * k.val + 1 ≠ 8 * k.val + 4; omega))).trans ?_
  refine (peel_8 arg2 arg4 v0 v2 X2 k f _ _ w (Or.inr (by show 8 * k.val + 1 ≠ 8 * k.val + 3; omega))).trans ?_
  refine (peel_7 arg2 arg4 v0 v2 X2 k f _ _ w (Or.inr (by show 8 * k.val + 1 ≠ 8 * k.val + 3; omega))).trans ?_
  refine (peel_6 arg2 arg4 v0 v2 X2 k f _ _ w (Or.inr (by show 8 * k.val + 1 ≠ 8 * k.val + 2; omega))).trans ?_
  refine (peel_5 arg2 arg4 v0 v2 X2 k f _ _ w (Or.inr (by show 8 * k.val + 1 ≠ 8 * k.val + 2; omega))).trans ?_
  refine (hit_4 arg2 arg4 v0 v2 X2 k f w).trans ?_
  rw [pay_r1_c1, load_r1_c0, load_r1_c1]
  unfold outBlock
  exact (if_neg (by decide)).symm

theorem read_r2_c0 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨0, by omega⟩ : Fin 2) (⟨8 * k.val + 2, RowGeom.row_lt k (by omega)⟩ : Fin 128) w)
      = outBlock v0 v2 (arg2.view.read (Elt F) X2) (⟨0, by omega⟩ : Fin 2) (⟨8 * k.val + 2, RowGeom.row_lt k (by omega)⟩ : Fin 128) w := by
  refine (peel_16 arg2 arg4 v0 v2 X2 k f _ _ w (Or.inr (by show 8 * k.val + 2 ≠ 8 * k.val + 7; omega))).trans ?_
  refine (peel_15 arg2 arg4 v0 v2 X2 k f _ _ w (Or.inr (by show 8 * k.val + 2 ≠ 8 * k.val + 7; omega))).trans ?_
  refine (peel_14 arg2 arg4 v0 v2 X2 k f _ _ w (Or.inr (by show 8 * k.val + 2 ≠ 8 * k.val + 6; omega))).trans ?_
  refine (peel_13 arg2 arg4 v0 v2 X2 k f _ _ w (Or.inr (by show 8 * k.val + 2 ≠ 8 * k.val + 6; omega))).trans ?_
  refine (peel_12 arg2 arg4 v0 v2 X2 k f _ _ w (Or.inr (by show 8 * k.val + 2 ≠ 8 * k.val + 5; omega))).trans ?_
  refine (peel_11 arg2 arg4 v0 v2 X2 k f _ _ w (Or.inr (by show 8 * k.val + 2 ≠ 8 * k.val + 5; omega))).trans ?_
  refine (peel_10 arg2 arg4 v0 v2 X2 k f _ _ w (Or.inr (by show 8 * k.val + 2 ≠ 8 * k.val + 4; omega))).trans ?_
  refine (peel_9 arg2 arg4 v0 v2 X2 k f _ _ w (Or.inr (by show 8 * k.val + 2 ≠ 8 * k.val + 4; omega))).trans ?_
  refine (peel_8 arg2 arg4 v0 v2 X2 k f _ _ w (Or.inr (by show 8 * k.val + 2 ≠ 8 * k.val + 3; omega))).trans ?_
  refine (peel_7 arg2 arg4 v0 v2 X2 k f _ _ w (Or.inr (by show 8 * k.val + 2 ≠ 8 * k.val + 3; omega))).trans ?_
  refine (peel_6 arg2 arg4 v0 v2 X2 k f _ _ w (Or.inl (by show 0 ≠ 1; omega))).trans ?_
  refine (hit_5 arg2 arg4 v0 v2 X2 k f w).trans ?_
  rw [pay_r2_c0, load_r2_c0, load_r2_c1]
  unfold outBlock
  exact (if_pos rfl).symm

theorem read_r2_c1 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨1, by omega⟩ : Fin 2) (⟨8 * k.val + 2, RowGeom.row_lt k (by omega)⟩ : Fin 128) w)
      = outBlock v0 v2 (arg2.view.read (Elt F) X2) (⟨1, by omega⟩ : Fin 2) (⟨8 * k.val + 2, RowGeom.row_lt k (by omega)⟩ : Fin 128) w := by
  refine (peel_16 arg2 arg4 v0 v2 X2 k f _ _ w (Or.inr (by show 8 * k.val + 2 ≠ 8 * k.val + 7; omega))).trans ?_
  refine (peel_15 arg2 arg4 v0 v2 X2 k f _ _ w (Or.inr (by show 8 * k.val + 2 ≠ 8 * k.val + 7; omega))).trans ?_
  refine (peel_14 arg2 arg4 v0 v2 X2 k f _ _ w (Or.inr (by show 8 * k.val + 2 ≠ 8 * k.val + 6; omega))).trans ?_
  refine (peel_13 arg2 arg4 v0 v2 X2 k f _ _ w (Or.inr (by show 8 * k.val + 2 ≠ 8 * k.val + 6; omega))).trans ?_
  refine (peel_12 arg2 arg4 v0 v2 X2 k f _ _ w (Or.inr (by show 8 * k.val + 2 ≠ 8 * k.val + 5; omega))).trans ?_
  refine (peel_11 arg2 arg4 v0 v2 X2 k f _ _ w (Or.inr (by show 8 * k.val + 2 ≠ 8 * k.val + 5; omega))).trans ?_
  refine (peel_10 arg2 arg4 v0 v2 X2 k f _ _ w (Or.inr (by show 8 * k.val + 2 ≠ 8 * k.val + 4; omega))).trans ?_
  refine (peel_9 arg2 arg4 v0 v2 X2 k f _ _ w (Or.inr (by show 8 * k.val + 2 ≠ 8 * k.val + 4; omega))).trans ?_
  refine (peel_8 arg2 arg4 v0 v2 X2 k f _ _ w (Or.inr (by show 8 * k.val + 2 ≠ 8 * k.val + 3; omega))).trans ?_
  refine (peel_7 arg2 arg4 v0 v2 X2 k f _ _ w (Or.inr (by show 8 * k.val + 2 ≠ 8 * k.val + 3; omega))).trans ?_
  refine (hit_6 arg2 arg4 v0 v2 X2 k f w).trans ?_
  rw [pay_r2_c1, load_r2_c0, load_r2_c1]
  unfold outBlock
  exact (if_neg (by decide)).symm

theorem read_r3_c0 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨0, by omega⟩ : Fin 2) (⟨8 * k.val + 3, RowGeom.row_lt k (by omega)⟩ : Fin 128) w)
      = outBlock v0 v2 (arg2.view.read (Elt F) X2) (⟨0, by omega⟩ : Fin 2) (⟨8 * k.val + 3, RowGeom.row_lt k (by omega)⟩ : Fin 128) w := by
  refine (peel_16 arg2 arg4 v0 v2 X2 k f _ _ w (Or.inr (by show 8 * k.val + 3 ≠ 8 * k.val + 7; omega))).trans ?_
  refine (peel_15 arg2 arg4 v0 v2 X2 k f _ _ w (Or.inr (by show 8 * k.val + 3 ≠ 8 * k.val + 7; omega))).trans ?_
  refine (peel_14 arg2 arg4 v0 v2 X2 k f _ _ w (Or.inr (by show 8 * k.val + 3 ≠ 8 * k.val + 6; omega))).trans ?_
  refine (peel_13 arg2 arg4 v0 v2 X2 k f _ _ w (Or.inr (by show 8 * k.val + 3 ≠ 8 * k.val + 6; omega))).trans ?_
  refine (peel_12 arg2 arg4 v0 v2 X2 k f _ _ w (Or.inr (by show 8 * k.val + 3 ≠ 8 * k.val + 5; omega))).trans ?_
  refine (peel_11 arg2 arg4 v0 v2 X2 k f _ _ w (Or.inr (by show 8 * k.val + 3 ≠ 8 * k.val + 5; omega))).trans ?_
  refine (peel_10 arg2 arg4 v0 v2 X2 k f _ _ w (Or.inr (by show 8 * k.val + 3 ≠ 8 * k.val + 4; omega))).trans ?_
  refine (peel_9 arg2 arg4 v0 v2 X2 k f _ _ w (Or.inr (by show 8 * k.val + 3 ≠ 8 * k.val + 4; omega))).trans ?_
  refine (peel_8 arg2 arg4 v0 v2 X2 k f _ _ w (Or.inl (by show 0 ≠ 1; omega))).trans ?_
  refine (hit_7 arg2 arg4 v0 v2 X2 k f w).trans ?_
  rw [pay_r3_c0, load_r3_c0, load_r3_c1]
  unfold outBlock
  exact (if_pos rfl).symm

theorem read_r3_c1 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨1, by omega⟩ : Fin 2) (⟨8 * k.val + 3, RowGeom.row_lt k (by omega)⟩ : Fin 128) w)
      = outBlock v0 v2 (arg2.view.read (Elt F) X2) (⟨1, by omega⟩ : Fin 2) (⟨8 * k.val + 3, RowGeom.row_lt k (by omega)⟩ : Fin 128) w := by
  refine (peel_16 arg2 arg4 v0 v2 X2 k f _ _ w (Or.inr (by show 8 * k.val + 3 ≠ 8 * k.val + 7; omega))).trans ?_
  refine (peel_15 arg2 arg4 v0 v2 X2 k f _ _ w (Or.inr (by show 8 * k.val + 3 ≠ 8 * k.val + 7; omega))).trans ?_
  refine (peel_14 arg2 arg4 v0 v2 X2 k f _ _ w (Or.inr (by show 8 * k.val + 3 ≠ 8 * k.val + 6; omega))).trans ?_
  refine (peel_13 arg2 arg4 v0 v2 X2 k f _ _ w (Or.inr (by show 8 * k.val + 3 ≠ 8 * k.val + 6; omega))).trans ?_
  refine (peel_12 arg2 arg4 v0 v2 X2 k f _ _ w (Or.inr (by show 8 * k.val + 3 ≠ 8 * k.val + 5; omega))).trans ?_
  refine (peel_11 arg2 arg4 v0 v2 X2 k f _ _ w (Or.inr (by show 8 * k.val + 3 ≠ 8 * k.val + 5; omega))).trans ?_
  refine (peel_10 arg2 arg4 v0 v2 X2 k f _ _ w (Or.inr (by show 8 * k.val + 3 ≠ 8 * k.val + 4; omega))).trans ?_
  refine (peel_9 arg2 arg4 v0 v2 X2 k f _ _ w (Or.inr (by show 8 * k.val + 3 ≠ 8 * k.val + 4; omega))).trans ?_
  refine (hit_8 arg2 arg4 v0 v2 X2 k f w).trans ?_
  rw [pay_r3_c1, load_r3_c0, load_r3_c1]
  unfold outBlock
  exact (if_neg (by decide)).symm

theorem read_r4_c0 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨0, by omega⟩ : Fin 2) (⟨8 * k.val + 4, RowGeom.row_lt k (by omega)⟩ : Fin 128) w)
      = outBlock v0 v2 (arg2.view.read (Elt F) X2) (⟨0, by omega⟩ : Fin 2) (⟨8 * k.val + 4, RowGeom.row_lt k (by omega)⟩ : Fin 128) w := by
  refine (peel_16 arg2 arg4 v0 v2 X2 k f _ _ w (Or.inr (by show 8 * k.val + 4 ≠ 8 * k.val + 7; omega))).trans ?_
  refine (peel_15 arg2 arg4 v0 v2 X2 k f _ _ w (Or.inr (by show 8 * k.val + 4 ≠ 8 * k.val + 7; omega))).trans ?_
  refine (peel_14 arg2 arg4 v0 v2 X2 k f _ _ w (Or.inr (by show 8 * k.val + 4 ≠ 8 * k.val + 6; omega))).trans ?_
  refine (peel_13 arg2 arg4 v0 v2 X2 k f _ _ w (Or.inr (by show 8 * k.val + 4 ≠ 8 * k.val + 6; omega))).trans ?_
  refine (peel_12 arg2 arg4 v0 v2 X2 k f _ _ w (Or.inr (by show 8 * k.val + 4 ≠ 8 * k.val + 5; omega))).trans ?_
  refine (peel_11 arg2 arg4 v0 v2 X2 k f _ _ w (Or.inr (by show 8 * k.val + 4 ≠ 8 * k.val + 5; omega))).trans ?_
  refine (peel_10 arg2 arg4 v0 v2 X2 k f _ _ w (Or.inl (by show 0 ≠ 1; omega))).trans ?_
  refine (hit_9 arg2 arg4 v0 v2 X2 k f w).trans ?_
  rw [pay_r4_c0, load_r4_c0, load_r4_c1]
  unfold outBlock
  exact (if_pos rfl).symm

theorem read_r4_c1 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨1, by omega⟩ : Fin 2) (⟨8 * k.val + 4, RowGeom.row_lt k (by omega)⟩ : Fin 128) w)
      = outBlock v0 v2 (arg2.view.read (Elt F) X2) (⟨1, by omega⟩ : Fin 2) (⟨8 * k.val + 4, RowGeom.row_lt k (by omega)⟩ : Fin 128) w := by
  refine (peel_16 arg2 arg4 v0 v2 X2 k f _ _ w (Or.inr (by show 8 * k.val + 4 ≠ 8 * k.val + 7; omega))).trans ?_
  refine (peel_15 arg2 arg4 v0 v2 X2 k f _ _ w (Or.inr (by show 8 * k.val + 4 ≠ 8 * k.val + 7; omega))).trans ?_
  refine (peel_14 arg2 arg4 v0 v2 X2 k f _ _ w (Or.inr (by show 8 * k.val + 4 ≠ 8 * k.val + 6; omega))).trans ?_
  refine (peel_13 arg2 arg4 v0 v2 X2 k f _ _ w (Or.inr (by show 8 * k.val + 4 ≠ 8 * k.val + 6; omega))).trans ?_
  refine (peel_12 arg2 arg4 v0 v2 X2 k f _ _ w (Or.inr (by show 8 * k.val + 4 ≠ 8 * k.val + 5; omega))).trans ?_
  refine (peel_11 arg2 arg4 v0 v2 X2 k f _ _ w (Or.inr (by show 8 * k.val + 4 ≠ 8 * k.val + 5; omega))).trans ?_
  refine (hit_10 arg2 arg4 v0 v2 X2 k f w).trans ?_
  rw [pay_r4_c1, load_r4_c0, load_r4_c1]
  unfold outBlock
  exact (if_neg (by decide)).symm

theorem read_r5_c0 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨0, by omega⟩ : Fin 2) (⟨8 * k.val + 5, RowGeom.row_lt k (by omega)⟩ : Fin 128) w)
      = outBlock v0 v2 (arg2.view.read (Elt F) X2) (⟨0, by omega⟩ : Fin 2) (⟨8 * k.val + 5, RowGeom.row_lt k (by omega)⟩ : Fin 128) w := by
  refine (peel_16 arg2 arg4 v0 v2 X2 k f _ _ w (Or.inr (by show 8 * k.val + 5 ≠ 8 * k.val + 7; omega))).trans ?_
  refine (peel_15 arg2 arg4 v0 v2 X2 k f _ _ w (Or.inr (by show 8 * k.val + 5 ≠ 8 * k.val + 7; omega))).trans ?_
  refine (peel_14 arg2 arg4 v0 v2 X2 k f _ _ w (Or.inr (by show 8 * k.val + 5 ≠ 8 * k.val + 6; omega))).trans ?_
  refine (peel_13 arg2 arg4 v0 v2 X2 k f _ _ w (Or.inr (by show 8 * k.val + 5 ≠ 8 * k.val + 6; omega))).trans ?_
  refine (peel_12 arg2 arg4 v0 v2 X2 k f _ _ w (Or.inl (by show 0 ≠ 1; omega))).trans ?_
  refine (hit_11 arg2 arg4 v0 v2 X2 k f w).trans ?_
  rw [pay_r5_c0, load_r5_c0, load_r5_c1]
  unfold outBlock
  exact (if_pos rfl).symm

theorem read_r5_c1 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨1, by omega⟩ : Fin 2) (⟨8 * k.val + 5, RowGeom.row_lt k (by omega)⟩ : Fin 128) w)
      = outBlock v0 v2 (arg2.view.read (Elt F) X2) (⟨1, by omega⟩ : Fin 2) (⟨8 * k.val + 5, RowGeom.row_lt k (by omega)⟩ : Fin 128) w := by
  refine (peel_16 arg2 arg4 v0 v2 X2 k f _ _ w (Or.inr (by show 8 * k.val + 5 ≠ 8 * k.val + 7; omega))).trans ?_
  refine (peel_15 arg2 arg4 v0 v2 X2 k f _ _ w (Or.inr (by show 8 * k.val + 5 ≠ 8 * k.val + 7; omega))).trans ?_
  refine (peel_14 arg2 arg4 v0 v2 X2 k f _ _ w (Or.inr (by show 8 * k.val + 5 ≠ 8 * k.val + 6; omega))).trans ?_
  refine (peel_13 arg2 arg4 v0 v2 X2 k f _ _ w (Or.inr (by show 8 * k.val + 5 ≠ 8 * k.val + 6; omega))).trans ?_
  refine (hit_12 arg2 arg4 v0 v2 X2 k f w).trans ?_
  rw [pay_r5_c1, load_r5_c0, load_r5_c1]
  unfold outBlock
  exact (if_neg (by decide)).symm

theorem read_r6_c0 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨0, by omega⟩ : Fin 2) (⟨8 * k.val + 6, RowGeom.row_lt k (by omega)⟩ : Fin 128) w)
      = outBlock v0 v2 (arg2.view.read (Elt F) X2) (⟨0, by omega⟩ : Fin 2) (⟨8 * k.val + 6, RowGeom.row_lt k (by omega)⟩ : Fin 128) w := by
  refine (peel_16 arg2 arg4 v0 v2 X2 k f _ _ w (Or.inr (by show 8 * k.val + 6 ≠ 8 * k.val + 7; omega))).trans ?_
  refine (peel_15 arg2 arg4 v0 v2 X2 k f _ _ w (Or.inr (by show 8 * k.val + 6 ≠ 8 * k.val + 7; omega))).trans ?_
  refine (peel_14 arg2 arg4 v0 v2 X2 k f _ _ w (Or.inl (by show 0 ≠ 1; omega))).trans ?_
  refine (hit_13 arg2 arg4 v0 v2 X2 k f w).trans ?_
  rw [pay_r6_c0, load_r6_c0, load_r6_c1]
  unfold outBlock
  exact (if_pos rfl).symm

theorem read_r6_c1 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨1, by omega⟩ : Fin 2) (⟨8 * k.val + 6, RowGeom.row_lt k (by omega)⟩ : Fin 128) w)
      = outBlock v0 v2 (arg2.view.read (Elt F) X2) (⟨1, by omega⟩ : Fin 2) (⟨8 * k.val + 6, RowGeom.row_lt k (by omega)⟩ : Fin 128) w := by
  refine (peel_16 arg2 arg4 v0 v2 X2 k f _ _ w (Or.inr (by show 8 * k.val + 6 ≠ 8 * k.val + 7; omega))).trans ?_
  refine (peel_15 arg2 arg4 v0 v2 X2 k f _ _ w (Or.inr (by show 8 * k.val + 6 ≠ 8 * k.val + 7; omega))).trans ?_
  refine (hit_14 arg2 arg4 v0 v2 X2 k f w).trans ?_
  rw [pay_r6_c1, load_r6_c0, load_r6_c1]
  unfold outBlock
  exact (if_neg (by decide)).symm

theorem read_r7_c0 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨0, by omega⟩ : Fin 2) (⟨8 * k.val + 7, RowGeom.row_lt k (by omega)⟩ : Fin 128) w)
      = outBlock v0 v2 (arg2.view.read (Elt F) X2) (⟨0, by omega⟩ : Fin 2) (⟨8 * k.val + 7, RowGeom.row_lt k (by omega)⟩ : Fin 128) w := by
  refine (peel_16 arg2 arg4 v0 v2 X2 k f _ _ w (Or.inl (by show 0 ≠ 1; omega))).trans ?_
  refine (hit_15 arg2 arg4 v0 v2 X2 k f w).trans ?_
  rw [pay_r7_c0, load_r7_c0, load_r7_c1]
  unfold outBlock
  exact (if_pos rfl).symm

theorem read_r7_c1 (arg2 arg4 : Memref sig .tc .vmem S1x2x128x512 .f32) (v0 : Vec F S512x256 .bf16) (v2 : IVec S256x1 32)
    (X2 : BufTy.Contents (Elt F) arg2.view.ty) (k : Fin k0_t1_loop.trips) (f : BufTy.Contents (Elt F) arg4.view.ty) (w : Fin 512) :
    arg4.view.read (Elt F) (trip.sl.HW4_w16 arg2 arg4 v0 v2 X2 k f)
        (ix4 (0 : Fin 1) (⟨1, by omega⟩ : Fin 2) (⟨8 * k.val + 7, RowGeom.row_lt k (by omega)⟩ : Fin 128) w)
      = outBlock v0 v2 (arg2.view.read (Elt F) X2) (⟨1, by omega⟩ : Fin 2) (⟨8 * k.val + 7, RowGeom.row_lt k (by omega)⟩ : Fin 128) w := by
  refine (hit_16 arg2 arg4 v0 v2 X2 k f w).trans ?_
  rw [pay_r7_c1, load_r7_c0, load_r7_c1]
  unfold outBlock
  exact (if_neg (by decide)).symm

/-! ## A trip's band, and the block after all sixteen trips -/

/-- What a trip leaves is the last of its sixteen stores. -/
theorem band_eq (𝒱 : Variants) (c : Dev nD) (bd : Option 𝒱.V) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (k : Fin k0_t1_loop.trips) :
    band (F := F) 𝒱 c bd i arg2 harg2 arg3 harg3 arg4 harg4 v0 v2 X2 k = trip.sl.HW4_w16 arg2 arg4 v0 v2 X2 k := by
  unfold band trip
  rfl

/-- The row loop makes sixteen trips. -/
theorem trips_eq : k0_t1_loop.trips = 16 := by decide

/-- Inside the band of trip k — rows 8k … 8k + 7 — the result block holds the row function of the same row of the
    coordinates' block. -/
theorem band_read_hit (𝒱 : Variants) (c : Dev nD) (bd : Option 𝒱.V) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (k : Fin k0_t1_loop.trips) (f : BufTy.Contents (Elt F) arg4.view.ty)
    (rr : Fin 8) (ch : Fin 2) (w : Fin 512) :
    arg4.view.read (Elt F) (band (F := F) 𝒱 c bd i arg2 harg2 arg3 harg3 arg4 harg4 v0 v2 X2 k f)
        (ix4 (0 : Fin 1) ch (⟨8 * k.val + rr.val, RowGeom.row_lt k rr.isLt⟩ : Fin 128) w)
      = outBlock v0 v2 (arg2.view.read (Elt F) X2) ch (⟨8 * k.val + rr.val, RowGeom.row_lt k rr.isLt⟩ : Fin 128) w := by
  rw [band_eq]
  match rr, ch with
  | ⟨0, _⟩, ⟨0, _⟩ => exact read_r0_c0 arg2 arg4 v0 v2 X2 k f w
  | ⟨0, _⟩, ⟨1, _⟩ => exact read_r0_c1 arg2 arg4 v0 v2 X2 k f w
  | ⟨1, _⟩, ⟨0, _⟩ => exact read_r1_c0 arg2 arg4 v0 v2 X2 k f w
  | ⟨1, _⟩, ⟨1, _⟩ => exact read_r1_c1 arg2 arg4 v0 v2 X2 k f w
  | ⟨2, _⟩, ⟨0, _⟩ => exact read_r2_c0 arg2 arg4 v0 v2 X2 k f w
  | ⟨2, _⟩, ⟨1, _⟩ => exact read_r2_c1 arg2 arg4 v0 v2 X2 k f w
  | ⟨3, _⟩, ⟨0, _⟩ => exact read_r3_c0 arg2 arg4 v0 v2 X2 k f w
  | ⟨3, _⟩, ⟨1, _⟩ => exact read_r3_c1 arg2 arg4 v0 v2 X2 k f w
  | ⟨4, _⟩, ⟨0, _⟩ => exact read_r4_c0 arg2 arg4 v0 v2 X2 k f w
  | ⟨4, _⟩, ⟨1, _⟩ => exact read_r4_c1 arg2 arg4 v0 v2 X2 k f w
  | ⟨5, _⟩, ⟨0, _⟩ => exact read_r5_c0 arg2 arg4 v0 v2 X2 k f w
  | ⟨5, _⟩, ⟨1, _⟩ => exact read_r5_c1 arg2 arg4 v0 v2 X2 k f w
  | ⟨6, _⟩, ⟨0, _⟩ => exact read_r6_c0 arg2 arg4 v0 v2 X2 k f w
  | ⟨6, _⟩, ⟨1, _⟩ => exact read_r6_c1 arg2 arg4 v0 v2 X2 k f w
  | ⟨7, _⟩, ⟨0, _⟩ => exact read_r7_c0 arg2 arg4 v0 v2 X2 k f w
  | ⟨7, _⟩, ⟨1, _⟩ => exact read_r7_c1 arg2 arg4 v0 v2 X2 k f w

/-- Outside the band of trip k the trip leaves the result block as it was. -/
theorem band_read_miss (𝒱 : Variants) (c : Dev nD) (bd : Option 𝒱.V) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (k : Fin k0_t1_loop.trips) (f : BufTy.Contents (Elt F) arg4.view.ty)
    (ch : Fin 2) (r : Fin 128) (w : Fin 512) (h : r.val < 8 * k.val ∨ 8 * k.val + 8 ≤ r.val) :
    arg4.view.read (Elt F) (band (F := F) 𝒱 c bd i arg2 harg2 arg3 harg3 arg4 harg4 v0 v2 X2 k f) (ix4 (0 : Fin 1) ch r w)
      = arg4.view.read (Elt F) f (ix4 (0 : Fin 1) ch r w) := by
  rw [band_eq]
  refine (peel_16 arg2 arg4 v0 v2 X2 k f ch r w (Or.inr (by omega))).trans ?_
  refine (peel_15 arg2 arg4 v0 v2 X2 k f ch r w (Or.inr (by omega))).trans ?_
  refine (peel_14 arg2 arg4 v0 v2 X2 k f ch r w (Or.inr (by omega))).trans ?_
  refine (peel_13 arg2 arg4 v0 v2 X2 k f ch r w (Or.inr (by omega))).trans ?_
  refine (peel_12 arg2 arg4 v0 v2 X2 k f ch r w (Or.inr (by omega))).trans ?_
  refine (peel_11 arg2 arg4 v0 v2 X2 k f ch r w (Or.inr (by omega))).trans ?_
  refine (peel_10 arg2 arg4 v0 v2 X2 k f ch r w (Or.inr (by omega))).trans ?_
  refine (peel_9 arg2 arg4 v0 v2 X2 k f ch r w (Or.inr (by omega))).trans ?_
  refine (peel_8 arg2 arg4 v0 v2 X2 k f ch r w (Or.inr (by omega))).trans ?_
  refine (peel_7 arg2 arg4 v0 v2 X2 k f ch r w (Or.inr (by omega))).trans ?_
  refine (peel_6 arg2 arg4 v0 v2 X2 k f ch r w (Or.inr (by omega))).trans ?_
  refine (peel_5 arg2 arg4 v0 v2 X2 k f ch r w (Or.inr (by omega))).trans ?_
  refine (peel_4 arg2 arg4 v0 v2 X2 k f ch r w (Or.inr (by omega))).trans ?_
  refine (peel_3 arg2 arg4 v0 v2 X2 k f ch r w (Or.inr (by omega))).trans ?_
  refine (peel_2 arg2 arg4 v0 v2 X2 k f ch r w (Or.inr (by omega))).trans ?_
  refine (peel_1 arg2 arg4 v0 v2 X2 k f ch r w (Or.inr (by omega))).trans ?_
  rfl

/-- Before trip n the rows below 8n hold the row function of the coordinates' rows. -/
theorem before_read (𝒱 : Variants) (c : Dev nD) (bd : Option 𝒱.V) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (G4 : BufTy.Contents (Elt F) arg4.view.ty) (n : ℕ) (hn : n ≤ 16)
    (ch : Fin 2) (r : Fin 128) (w : Fin 512) (hr : r.val < 8 * n) :
    arg4.view.read (Elt F) (bandsBefore (F := F) 𝒱 c bd i arg2 harg2 arg3 harg3 arg4 harg4 v0 v2 X2 G4 n) (ix4 (0 : Fin 1) ch r w)
      = outBlock v0 v2 (arg2.view.read (Elt F) X2) ch r w := by
  induction n with
  | zero => omega
  | succ n ih =>
    have hn' : n < k0_t1_loop.trips := by rw [trips_eq]; omega
    have e := bandsBefore_succ (F := F) 𝒱 c bd i arg2 harg2 arg3 harg3 arg4 harg4 v0 v2 X2 G4 (⟨n, hn'⟩ : Fin k0_t1_loop.trips)
    rw [show (⟨n, hn'⟩ : Fin k0_t1_loop.trips).val + 1 = n + 1 from rfl] at e
    rw [e]
    by_cases hlt : r.val < 8 * n
    · rw [band_read_miss (F := F) 𝒱 c bd i arg2 harg2 arg3 harg3 arg4 harg4 v0 v2 X2 ⟨n, hn'⟩ _ ch r w (Or.inl hlt)]
      exact ih (by omega) hlt
    · have hr' : r = (⟨8 * (⟨n, hn'⟩ : Fin k0_t1_loop.trips).val + (⟨r.val - 8 * n, by omega⟩ : Fin 8).val,
          RowGeom.row_lt _ (Fin.isLt _)⟩ : Fin 128) := Fin.ext (by show r.val = 8 * n + (r.val - 8 * n); omega)
      rw [hr']
      exact band_read_hit (F := F) 𝒱 c bd i arg2 harg2 arg3 harg3 arg4 harg4 v0 v2 X2 ⟨n, hn'⟩ _ ⟨r.val - 8 * n, by omega⟩ ch w

/-- After the last trip every entry of the result block is the row function of its row of the coordinates' block. -/
theorem final_read (𝒱 : Variants) (c : Dev nD) (bd : Option 𝒱.V) (i : grid0.Coords) (arg2 : Memref sig .tc .vmem S1x2x128x512 .f32) (harg2 : arg2.IsWhole) (arg3 : Memref sig .tc .vmem S512x256 .bf16) (harg3 : arg3.IsWhole) (arg4 : Memref sig .tc .vmem S1x2x128x512 .f32) (harg4 : arg4.IsWhole) (v0 : Vec F S512x256 .bf16) (v2 : IVec S256x1 32)
    (X2 : BufTy.Contents (Elt F) arg2.view.ty) (G4 : BufTy.Contents (Elt F) arg4.view.ty) (ch : Fin 2) (r : Fin 128) (w : Fin 512) :
    arg4.view.read (Elt F) (bandsBefore (F := F) 𝒱 c bd i arg2 harg2 arg3 harg3 arg4 harg4 v0 v2 X2 G4 k0_t1_loop.trips) (ix4 (0 : Fin 1) ch r w)
      = outBlock v0 v2 (arg2.view.read (Elt F) X2) ch r w := by
  rw [trips_eq]
  exact before_read (F := F) 𝒱 c bd i arg2 harg2 arg3 harg3 arg4 harg4 v0 v2 X2 G4 16 (Nat.le_refl _) ch r w (by have := r.isLt; omega)

end Cert.KernelIdeal.TripValue

end
-- ==== Proof.KI.Body.lean ====
/-
  The frame of the lookup kernel: the body's run, the pipeline's proof data, the body obligation, the run.

  At a grid point the body holds three staging buffers: the coordinates' block [1, 2, 128, 512] (read), the staged
  table [512, 256] (read) and the result's block [1, 2, 128, 512] (written). It loads the whole table once, builds
  the candidate column, and walks the block's 128 rows in sixteen trips of eight by the row loop's invariant; what
  the result's buffer holds afterwards is, entry by entry, the row function of the coordinates' rows against the
  table — whatever the buffer held before, since the sixteen bands overwrite all of it. That makes the result's
  contents after each point a function of the point's input blocks alone (`outAt`), which is what the pipeline's
  proof data needs; the inputs' buffers are left as found. From the body obligation at every point the launch
  theorem gives the run, and the argument arrays end as launched.
-/
import proofs.«159610_j32693291057269_2_alg».proof.Proof.KI.Loop
import proofs.«159610_j32693291057269_2_alg».proof.Proof.KI.TripValue
import Idealize.ShloMosaic.Lib.WholeRead
import Idealize.ShloMosaic.Lib.ValueIdx
import proofs.«159610_j32693291057269_2_alg».proof.Proof.Gen.KernelIdeal.Frame

set_option maxRecDepth 16384

noncomputable section

namespace Cert.KernelIdeal.BodyRun

open Cert.KernelIdeal Cert.KernelIdeal.Gen Cert.KernelIdeal.LoopInst
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.TripValue Idealize.ShloMosaic.ValueIdx

variable (m : (ℓ : Loc nD τ sig) → Buf (Elt F) ℓ) (ρ : Dev nD → PrngReg)

/-- The column of candidate indices 0 … 255 the body builds once. -/
abbrev cand : IVec S256x1 32 := iota .tc S256x1 32 [0] iota_S256x1_d0_w32

/-- What the body leaves in the result's block, as a block: entry (0, ch, r, w) is the row function of row r of the
    two coordinate channels of the coordinates' block `x0`, against the staged table `x1`. -/
def outVec (x1 : Vec F S512x256 .bf16) (x0 : Vec F S1x2x128x512 .f32) : Vec F S1x2x128x512 .f32 :=
  fun y => outBlock x1 cand x0 (⟨(y 1).val, (y 1).isLt⟩ : Fin 2) (⟨(y 2).val, (y 2).isLt⟩ : Fin 128) (⟨(y 3).val, (y 3).isLt⟩ : Fin 512)

/-- A load of the whole staged table, the table's buffer held at the contents that read `x1`, is `x1`. -/
theorem table_load (arg3 : Memref sig .tc .vmem S512x256 .bf16) (harg3 : arg3.IsWhole) (x1 : Vec F S512x256 .bf16) :
    View.readAt (Elt F) arg3.view (Rect.unit (s := S512x256) ![0, 0] S512x256.size inb_S512x256_S512x256_0_0).toLoadRect (harg3.unread x1) = x1 := by
  funext x
  rw [harg3.readAt_unread]
  exact congrFun (View.ld_unit_zero (Val := Elt F) (S := S512x256) (off := ![0, 0]) (funext fun a => by fin_cases a <;> rfl) inb_S512x256_S512x256_0_0 x1) x

set_option maxHeartbeats 1000000 in
/-- THE BODY on any whole staging memrefs: the coordinates' at its block, the table's at the staged table, the
    result's at anything — it loads the table, walks the sixteen trips by the row loop's invariant, and returns
    holding the inputs as they were and the result's buffer at `outVec`. -/
theorem kernel_run (c : Dev nD) (i : grid0.Coords) (arg2 : Memref sig .tc .vmem S1x2x128x512 .f32) (harg2 : arg2.IsWhole)
    (arg3 : Memref sig .tc .vmem S512x256 .bf16) (harg3 : arg3.IsWhole) (arg4 : Memref sig .tc .vmem S1x2x128x512 .f32) (harg4 : arg4.IsWhole)
    (x0 : Vec F S1x2x128x512 .f32) (x1 : Vec F S512x256 .bf16) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outVec x1 x0)) -∗ K ⟨⟩))
      ⊢ wp frame (wpE (defs₀ (F := F)) Variants.none c none) E (cc0__lut_kernel i arg2 harg2 arg3 harg3 arg4 harg4) K := by
  simp only [cc0__lut_kernel_eq_skeleton]; unfold cc0__lut_kernel_skel
  unfold owns
  rw [harg4.set_eq_univ]
  iintro ⟨⟨%f0, %hf0, H0⟩, ⟨%f1, %hf1, H1⟩, ⟨%d2, %f2, -, H2⟩, Hk⟩
  obtain rfl := harg2.eq_unread hf0
  obtain rfl := harg3.eq_unread hf1
  sl_exec
  sl_for (rowInv (F := F) Variants.none c none i arg2 harg2 arg3 harg3 arg4 harg4 _ _ (harg2.unread x0) f2) $$ [H0 H2]
  · intro k acc
    exact rowInv_step (F := F) Variants.none c none E i arg2 harg2 arg3 harg3 arg4 harg4 _ _ (harg2.unread x0) f2 k acc
  · isplitl [H0]; · iexact H0
    iexact H2
  · iintro %acc ⟨H0, H2⟩
    sl_step
    iapply Hk
    isplitl [H0]
    · iexists _; isplitr; · ipureintro; exact hf0
      iexact H0
    isplitl [H1]
    · iexists _; isplitr; · ipureintro; exact hf1
      iexact H1
    iexists _; isplitr
    swap; · iexact H2
    ipureintro
    funext y
    obtain ⟨a, b, r, w, rfl⟩ : ∃ (a : Fin 1) (b : Fin 2) (r : Fin 128) (w : Fin 512), y = ix4 a b r w := ⟨y 0, y 1, y 2, y 3, eq_ix4 y⟩
    obtain rfl : a = 0 := Subsingleton.elim _ _
    refine (final_read (F := F) Variants.none c none i arg2 harg2 arg3 harg3 arg4 harg4 _ _ (harg2.unread x0) f2 b r w).trans ?_
    rw [hf0, table_load]
    rfl

/-! ## The pipeline's proof data and the body obligation -/

/-- Each window's current staging memref at point `t`, as the pipeline passes it, and its wholeness. -/
abbrev ms0_0 (t : Fin cfg0.N) : Memref sig .tc .vmem S1x2x128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2x128x512 .f32 := win0_2.stage (cfg0.slots t 2)
abbrev hs0_2 (t : Fin cfg0.N) : (ms0_2 t).IsWhole := hstage0_2 ((cfg0.slots t 2).cast nbuf0_2)

/-- What the result's staging buffer holds after the body at point `t`: the block function of the point's
    coordinate block and the staged table. -/
def outAt (c : Dev nD) (t : Fin cfg0.N) : Vec F S1x2x128x512 .f32 :=
  outVec (iblk m c 1 t) (iblk m c 0 t)

/-- The proof data of the one pipeline on core `c`: the arrays as the region finds them; after the body each input's
    buffer at its block and the result's at `outAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the inputs' memrefs hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold outAt
  iintro ⟨HΦ, Ho, ⟨%d0, H0⟩, ⟨%d1, H1⟩, ⟨%d2, H2⟩⟩
  iapply (kernel_run (F := F) c (grid0.coords t) _ _ _ _ _ _ (iblk m c 0 t) (iblk m c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every array of the pipeline at what the library computes from the proof data and every other unscoped buffer
    as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.BodyRun

end
-- ==== Proof.Spec.lean ====
/-
  The specification: a per-pixel bilinear lookup into a 251 × 251 table, two channels.

  A pixel carries two coordinates xa, xb (the two input channels at one position). Each is clipped to [0, 1] and
  scaled by 250 (`coord`); its cell is the integer part clamped to 0 … 249 (`cell`), its weight the remainder
  (`frac`). The result for table channel c is the four corners of the cell weighted bilinearly (`pix`):
      T[p, q]·(1 − fa)(1 − fb) + T[p, q+1]·(1 − fa)·fb + T[p+1, q]·fa·(1 − fb) + T[p+1, q+1]·fa·fb .
  The same value grouped by column first, as a two-hot row contraction followed by a two-hot column contraction
  computes it, is `pixCols`. The table is read through a total accessor that is zero outside 251 × 251
  (`tableAt`): exactly the table padded with zeros.
-/
import Idealize.ShloMosaic.PureOps.Ideal
import Idealize.ShloMosaic.Lib.ValueIdx

noncomputable section

namespace Cert.Lut

open Idealize.ShloMosaic Idealize.ShloMosaic.ValueIdx

/-- The shapes of the two arguments and of the result. -/
abbrev SX : Shape := ⟨4, ![32, 2, 512, 512]⟩
abbrev ST : Shape := ⟨4, ![1, 2, 251, 251]⟩

/-- A coordinate clipped to [0, 1] and scaled to the table: min(1, max(0, x)) · 250. -/
def coord (x : EReal) : EReal :=
  (min (Ideal.ofBits .f32 0x3F800000#32) (max (Ideal.ofBits .f32 0x00000000#32) x)) * Ideal.ofBits .f32 0x437A0000#32

/-- The cell of a coordinate: its integer part, clamped to 0 … 249 (as 32-bit words, signed comparisons). -/
def cell (x : EReal) : BitVec 32 :=
  IntOp.minsi 249#32 (IntOp.maxsi 0#32 (Ideal.fptosi 32 (Ideal.liftRound Int.floor (coord x))))

/-- The weight of the cell's far corner: the scaled coordinate less its cell. -/
def frac (x : EReal) : EReal := coord x - (((cell x).toInt : ℝ) : EReal)

/-- The table read at channel c, row p, column q; zero outside 251 × 251. -/
def tableAt (T : ST.Idx → EReal) (c : Fin 2) (p q : ℕ) : EReal :=
  if h : p < 251 ∧ q < 251 then T (ix4 (0 : Fin 1) c (⟨p, h.1⟩ : Fin 251) (⟨q, h.2⟩ : Fin 251)) else 0

/-- One pixel, four corners weighted bilinearly. -/
def pix (T : ST.Idx → EReal) (c : Fin 2) (xa xb : EReal) : EReal :=
  ((tableAt T c (cell xa).toNat (cell xb).toNat * ((1 - frac xa) * (1 - frac xb))
      + tableAt T c (cell xa).toNat ((cell xb).toNat + 1) * ((1 - frac xa) * frac xb))
    + tableAt T c ((cell xa).toNat + 1) (cell xb).toNat * (frac xa * (1 - frac xb)))
  + tableAt T c ((cell xa).toNat + 1) ((cell xb).toNat + 1) * (frac xa * frac xb)

/-- The same pixel grouped by column: each of the two columns interpolated along the rows first, then the two
    results interpolated along the columns. -/
def pixCols (T : ST.Idx → EReal) (c : Fin 2) (xa xb : EReal) : EReal :=
  (tableAt T c (cell xa).toNat (cell xb).toNat * (1 - frac xa)
      + tableAt T c ((cell xa).toNat + 1) (cell xb).toNat * frac xa) * (1 - frac xb)
  + (tableAt T c (cell xa).toNat ((cell xb).toNat + 1) * (1 - frac xa)
      + tableAt T c ((cell xa).toNat + 1) ((cell xb).toNat + 1) * frac xa) * frac xb

/-- The result at batch b, channel c, position (h, w): the pixel whose coordinates are the two input channels there. -/
def G (x : SX.Idx → EReal) (T : ST.Idx → EReal) (b : Fin 32) (c : Fin 2) (h w : Fin 512) : EReal :=
  pix T c (x (ix4 b (0 : Fin 2) h w)) (x (ix4 b (1 : Fin 2) h w))

/-- The result array. -/
def Garr (x : SX.Idx → EReal) (T : ST.Idx → EReal) : SX.Idx → EReal :=
  fun j => G x T (j 0) (j 1) (j 2) (j 3)

/-- Every entry of the table is a real number. -/
def TableFinite (T : ST.Idx → EReal) : Prop := ∀ i, ∃ r : ℝ, T i = (r : EReal)

end Cert.Lut

end
-- ==== Proof.Algebra.lean ====
/-
  The pure mathematics of the bilinear lookup: the cell of a coordinate is a word between 0 and 249, so it and its
  successor are distinct non-negative table positions; the scaled coordinate and its weight are real numbers; the
  pixel grouped by column equals the pixel summed over its four corners (an identity of real numbers, which is why
  the table's entries must be real); and a sum against a two-hot weight vector picks out its two terms.
-/
import proofs.«159610_j32693291057269_2_alg».proof.Proof.Spec
import Idealize.ShloMosaic.PureOps.Ideal
import Mathlib

noncomputable section

namespace Cert.Lut

open Idealize.ShloMosaic

/-! ## The cell is a word between 0 and 249 -/

/-- Clamping any word to 0 … 249 by signed comparisons leaves a word whose signed value lies in that range. -/
theorem clamp_toInt (v : BitVec 32) :
    0 ≤ (IntOp.minsi 249#32 (IntOp.maxsi 0#32 v)).toInt ∧ (IntOp.minsi 249#32 (IntOp.maxsi 0#32 v)).toInt ≤ 249 := by
  unfold IntOp.minsi IntOp.maxsi
  by_cases h1 : v.slt 0#32 = true
  · rw [if_pos h1]
    have h2 : (249#32).slt 0#32 = false := by decide
    rw [h2]
    simp
  · rw [if_neg h1]
    have h1' : ¬ v.toInt < 0 := by
      intro h; apply h1; rw [BitVec.slt_iff_toInt_lt]; simpa using h
    by_cases h3 : (249#32).slt v = true
    · rw [if_pos h3]; simp
    · rw [if_neg h3]
      have h3' : ¬ (249 : ℤ) < v.toInt := by
        intro h; apply h3; rw [BitVec.slt_iff_toInt_lt]; simpa using h
      omega

theorem cell_toInt_bounds (x : EReal) : 0 ≤ (cell x).toInt ∧ (cell x).toInt ≤ 249 := by
  unfold cell; exact clamp_toInt _

/-- A word whose signed value is non-negative has that value as its unsigned value. -/
theorem toInt_eq_toNat_of_nonneg (c : BitVec 32) (h : 0 ≤ c.toInt) : c.toInt = (c.toNat : ℤ) := by
  rw [BitVec.toInt_eq_toNat_cond] at h ⊢
  split at h <;> rename_i h' <;> simp only [h', if_true, if_false] <;> omega

theorem cell_toInt (x : EReal) : (cell x).toInt = ((cell x).toNat : ℤ) :=
  toInt_eq_toNat_of_nonneg _ (cell_toInt_bounds x).1

theorem cell_toNat_le (x : EReal) : (cell x).toNat ≤ 249 := by
  have h := (cell_toInt_bounds x).2
  rw [cell_toInt] at h
  omega

theorem cell_nonneg (x : EReal) : (cell x).slt 0#32 = false := by
  have h := (cell_toInt_bounds x).1
  rw [Bool.eq_false_iff]
  intro hs
  rw [BitVec.slt_iff_toInt_lt] at hs
  simp at hs
  omega

theorem cell_succ_toNat (x : EReal) : (IntOp.addi (cell x) 1#32).toNat = (cell x).toNat + 1 := by
  have h := cell_toNat_le x
  unfold IntOp.addi
  rw [BitVec.toNat_add]
  simp
  omega

theorem cell_succ_nonneg (x : EReal) : (IntOp.addi (cell x) 1#32).slt 0#32 = false := by
  have h := cell_toNat_le x
  have h1 := cell_succ_toNat x
  rw [Bool.eq_false_iff]
  intro hs
  rw [BitVec.slt_iff_toInt_lt, BitVec.toInt_eq_toNat_cond] at hs
  simp at hs
  omega

theorem cell_ne_succ (x : EReal) : cell x ≠ IntOp.addi (cell x) 1#32 := by
  intro h
  have h1 := cell_succ_toNat x
  rw [← h] at h1
  omega

/-! ## The scaled coordinate and its weight are real numbers -/

/-- The word 0x3F800000 is the number 1. -/
theorem lit_one : Ideal.ofBits .f32 0x3F800000#32 = (1 : EReal) := by
  rw [show (1 : EReal) = ((1 : ℝ) : EReal) by norm_cast]
  simp [Ideal.ofBits, Ideal.ieee, -EReal.coe_mul]; norm_num

/-- The word 0x00000000 is the number 0. -/
theorem lit_zero : Ideal.ofBits .f32 0x00000000#32 = (0 : EReal) := by simp [Ideal.ofBits, Ideal.ieee]

/-- The word 0x437A0000 is the number 250. -/
theorem lit_250 : Ideal.ofBits .f32 0x437A0000#32 = ((250 : ℝ) : EReal) := by
  simp [Ideal.ofBits, Ideal.ieee, -EReal.coe_mul]; norm_num

/-- Clipping to [0, 1] leaves a real number, whatever is clipped (an infinity included). -/
theorem clip_real (x : EReal) : ∃ r : ℝ, min (1 : EReal) (max 0 x) = (r : EReal) := by
  induction x using EReal.rec with
  | bot => exact ⟨0, by simp⟩
  | top => exact ⟨1, by simp⟩
  | coe r => exact ⟨min 1 (max 0 r), by push_cast; rfl⟩

theorem coord_real (x : EReal) : ∃ r : ℝ, coord x = (r : EReal) := by
  obtain ⟨r, hr⟩ := clip_real x
  refine ⟨r * 250, ?_⟩
  unfold coord
  rw [lit_one, lit_zero, lit_250, hr, EReal.coe_mul]

theorem frac_real (x : EReal) : ∃ r : ℝ, frac x = (r : EReal) := by
  obtain ⟨r, hr⟩ := coord_real x
  refine ⟨r - (((cell x).toInt : ℤ) : ℝ), ?_⟩
  unfold frac
  rw [hr, EReal.coe_sub]

/-! ## The pixel grouped by column is the pixel summed over its corners -/

/-- Every read of the table, inside or outside 251 × 251, is a real number. -/
theorem tableAt_real (T : ST.Idx → EReal) (hT : TableFinite T) (c : Fin 2) (p q : ℕ) :
    ∃ r : ℝ, tableAt T c p q = (r : EReal) := by
  unfold tableAt
  split
  · exact hT _
  · exact ⟨0, by simp⟩

theorem pixCols_eq_pix (T : ST.Idx → EReal) (hT : TableFinite T) (c : Fin 2) (xa xb : EReal) :
    pixCols T c xa xb = pix T c xa xb := by
  obtain ⟨fa, hfa⟩ := frac_real xa
  obtain ⟨fb, hfb⟩ := frac_real xb
  obtain ⟨t00, h00⟩ := tableAt_real T hT c (cell xa).toNat (cell xb).toNat
  obtain ⟨t01, h01⟩ := tableAt_real T hT c (cell xa).toNat ((cell xb).toNat + 1)
  obtain ⟨t10, h10⟩ := tableAt_real T hT c ((cell xa).toNat + 1) (cell xb).toNat
  obtain ⟨t11, h11⟩ := tableAt_real T hT c ((cell xa).toNat + 1) ((cell xb).toNat + 1)
  unfold pixCols pix
  rw [hfa, hfb, h00, h01, h10, h11]
  rw [← EReal.coe_one]
  simp only [← EReal.coe_sub, ← EReal.coe_mul, ← EReal.coe_add]
  congr 1
  ring

/-! ## A sum against a two-hot weight vector -/

theorem twohot_sum {n : ℕ} (f : Fin n → EReal) (p q : Fin n) (hpq : p ≠ q) (a b : EReal) :
    ∑ k : Fin n, f k * ((if k = p then a else 0) + (if k = q then b else 0)) = f p * a + f q * b := by
  rw [Finset.sum_eq_add p q hpq]
  · simp [hpq, hpq.symm]
  · intro c _ hc
    simp [hc.1, hc.2]
  · intro h; exact absurd (Finset.mem_univ p) h
  · intro h; exact absurd (Finset.mem_univ q) h

theorem twohot_sum' {n : ℕ} (f : Fin n → EReal) (p q : Fin n) (hpq : p ≠ q) (a b : EReal) :
    ∑ k : Fin n, ((if k = p then a else 0) + (if k = q then b else 0)) * f k = a * f p + b * f q := by
  rw [Finset.sum_eq_add p q hpq]
  · simp [hpq, hpq.symm]
  · intro c _ hc
    simp [hc.1, hc.2]
  · intro h; exact absurd (Finset.mem_univ p) h
  · intro h; exact absurd (Finset.mem_univ q) h

end Cert.Lut

end
-- ==== Proof.LibLayout.lean ====
/-
  Column and row forms of the layout operations, read at an index.

  A length-`a` array viewed as a column `[a, 1]` (by a reshape or by a broadcast along axis 0) holds,
  at `(i, 0)`, the array's entry `i`; viewed as a row `[1, a]` it holds entry `i` at `(0, i)`.  A
  column broadcast over `b` columns holds at `(p, c)` the column's entry `p`; a row broadcast over
  `a` rows holds at `(p, c)` the row's entry `c`.  A scalar broadcast holds the scalar everywhere.
  So the reshape and the broadcast that make a column (or a row) of an array are the same function.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array broadcast along axis 0 into the column `[a, 1]` reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2))
    (i : Fin a) (u : Fin 1) : broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The column of an array by a reshape is its column by a broadcast along axis 0. -/
theorem shapeCast_eq_broadcastInDim_col {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) h' x := by
  funext j
  obtain ⟨p, q, rfl⟩ : ∃ (p : Fin a) (q : Fin 1), j = ix2 p q := ⟨j 0, j 1, eq_ix2 j⟩
  rw [shapeCast_a_a1_apply, broadcastInDim_a_a1_apply]

/-- An `[a]` array broadcast along axis 1 into the row `[1, a]` reads, at `(u, i)`, the operand at `i`. -/
theorem broadcastInDim_a_1a_apply {a : ℕ} (x : (⟨1, ![a]⟩ : Shape).Idx → α)
    (h : (⟨1, ![a]⟩ : Shape).BroadcastsInDim ⟨2, ![1, a]⟩ (![1] : Fin 1 → Fin 2))
    (u : Fin 1) (i : Fin a) : broadcastInDim ⟨2, ![1, a]⟩ (![1] : Fin 1 → Fin 2) h x (ix2 u i) = x (ix1 i) := by
  refine broadcastInDim_apply _ h x (ix2 u i) (ix1 i) fun ax => ?_
  match ax with
  | ⟨0, _⟩ =>
    show i.val = if a = 1 then 0 else i.val
    split
    · have := i.isLt; omega
    · rfl

/-- The row of an array by a reshape is its row by a broadcast along axis 1. -/
theorem shapeCast_eq_broadcastInDim_row {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ (![1] : Fin 1 → Fin 2) h' x := by
  funext j
  obtain ⟨p, q, rfl⟩ : ∃ (p : Fin 1) (q : Fin a), j = ix2 p q := ⟨j 0, j 1, eq_ix2 j⟩
  rw [shapeCast_a_1a_apply, broadcastInDim_a_1a_apply]

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (in dimensions 0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (in dimensions 0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Cert.LibLayout

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.RowValue.lean ====
/-
  One row of the kernel's arithmetic, read at a lane.

  A row carries two coordinate vectors of 512 lanes. At lane w, with xa and xb the two coordinates there, the row
  function computes, for each table channel c,

      ∑ j, ( ∑ k, table[(c, j), k] · rowWeight(k) ) · colWeight(j)        (k, j candidates 0 … 255)

  where rowWeight is two-hot at the cell of xa: 1 − frac xa at the cell, frac xa at the next candidate, zero
  elsewhere; colWeight is the same for xb; and the staged table holds, at row c·256 + j and column k, the table's
  entry (k, j) of channel c (zero outside 251 × 251). Each inner sum therefore keeps two terms, the cell's row and the
  next one interpolated at column j, and the outer sum keeps two of those, at the cell's column and the next: the
  bilinear value grouped by columns, `Cert.Lut.pixCols`.

  The steps, each one operation of the row read at an index:
  * the clipped and scaled coordinate is `coord`, its clamped integer part `cell`;
  * the candidate column holds at k the 32-bit word of k, and comparing that word with the cell's word (a word below
    250) is comparing k with the cell's number; so the weight matrix at (k, w) is the two-hot expression `twoHot`;
  * the matrix product into a zero accumulator at (r, w) is the sum over the candidates k of table (r, k) times the
    row weight (k, w); narrowing the weights to a shorter float format changes nothing at the extended reals;
  * the upper and lower halves of the product are its rows j and 256 + j;
  * the sum along the candidate axis with zero initial value at lane w is the sum over j of the entries (j, w).
-/
import proofs.«159610_j32693291057269_2_alg».proof.Proof.RowFn
import proofs.«159610_j32693291057269_2_alg».proof.Proof.Spec
import proofs.«159610_j32693291057269_2_alg».proof.Proof.Algebra
import proofs.«159610_j32693291057269_2_alg».proof.Proof.LibLayout
import proofs.«159610_j32693291057269_2_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Row

open Cert.KernelIdeal Cert.KernelIdeal.Gen Idealize.ShloMosaic Idealize.ShloMosaic.ValueIdx

variable [Facts]

/-! ## The candidate column -/

/-- The candidate column 0 … 255 the body builds once. -/
abbrev cand : IVec S256x1 32 := iota .tc S256x1 32 [0] Facts₀.iota_S256x1_d0_w32

/-- The candidate column holds, at row k, the 32-bit word of k. -/
theorem cand_apply (k : Fin 256) (u : Fin 1) : cand (ix2 k u) = BitVec.ofNat 32 k.val :=
  iota_single_apply .tc S256x1 32 0 Facts₀.iota_S256x1_d0_w32 (ix2 k u)

/-! ## Integer operations at an index, and a select on an equality of words -/

/-- A select on the answer bit of an equality comparison of two words is the `if` on their equality. -/
theorem cmpi_eq_select {α : Type} (a b : BitVec 32) (x y : α) :
    Scalar.select (IntOp.cmpi .eq a b) x y = if a = b then x else y := by
  unfold IntOp.cmpi Scalar.select
  by_cases h : a = b
  · simp [h]
  · have hb : (a == b) = false := by simp [h]
    simp [h, hb]

/-- An integer comparison at an index compares the elements. -/
theorem cmpi_apply {s : Shape} {w : ℕ} (p : CmpIPredicate) (x y : IVec s w) (i : s.Idx) :
    cmpi p x y i = IntOp.cmpi p (x i) (y i) := rfl

/-- An integer sum at an index adds the elements. -/
theorem addi_apply {s : Shape} {w : ℕ} (x y : IVec s w) (i : s.Idx) : addi x y i = IntOp.addi (x i) (y i) := rfl

/-! ## The scaled coordinates and their cells -/

/-- The first coordinate vector, clipped to [0, 1] and scaled by 250, at lane w. -/
theorem pay4_apply (v9 : Vec Ideal S1x512 .f32) (w : Fin 512) :
    k0_pay4 (F := Ideal) v9 (ix1 w) = Cert.Lut.coord (v9 (ix2 (0 : Fin 1) w)) := by
  unfold k0_pay4
  simp only [mulf_apply, minimumf_apply, maximumf_apply, broadcast_apply]
  rw [shapeCast_1a_a_apply]
  rfl

/-- The second coordinate vector, clipped and scaled, at lane w. -/
theorem pay5_apply (v14 : Vec Ideal S1x512 .f32) (w : Fin 512) :
    k0_pay5 (F := Ideal) v14 (ix1 w) = Cert.Lut.coord (v14 (ix2 (0 : Fin 1) w)) := by
  unfold k0_pay5
  simp only [mulf_apply, minimumf_apply, maximumf_apply, broadcast_apply]
  rw [shapeCast_1a_a_apply]
  rfl

/-- The integer part of the first scaled coordinate, clamped to 0 … 249, at lane w. -/
theorem pay6_apply (v9 : Vec Ideal S1x512 .f32) (w : Fin 512) :
    k0_pay6 (F := Ideal) v9 (ix1 w) = Cert.Lut.cell (v9 (ix2 (0 : Fin 1) w)) := by
  unfold k0_pay6
  show IntOp.minsi 249#32 (IntOp.maxsi 0#32 (Ideal.fptosi 32 (Ideal.liftRound Int.floor (k0_pay4 (F := Ideal) v9 (ix1 w))))) = _
  rw [pay4_apply]
  rfl

/-- The integer part of the second scaled coordinate, clamped to 0 … 249, at lane w. -/
theorem pay7_apply (v14 : Vec Ideal S1x512 .f32) (w : Fin 512) :
    k0_pay7 (F := Ideal) v14 (ix1 w) = Cert.Lut.cell (v14 (ix2 (0 : Fin 1) w)) := by
  unfold k0_pay7
  show IntOp.minsi 249#32 (IntOp.maxsi 0#32 (Ideal.fptosi 32 (Ideal.liftRound Int.floor (k0_pay5 (F := Ideal) v14 (ix1 w))))) = _
  rw [pay5_apply]
  rfl

/-! ## The two-hot weight matrix at an entry -/

/-- The two-hot weight of candidate k for a scaled coordinate f with cell word c: one minus the remainder f − c where
    k's word is c, the remainder where k's word is c + 1, and the two zeros added elsewhere. -/
def twoHot (f : EReal) (c : BitVec 32) (k : Fin 256) : EReal :=
  (if BitVec.ofNat 32 k.val = c then Ideal.ofBits .f32 0x3F800000#32 - (f - (((c.toInt : ℤ) : ℝ) : EReal)) else Ideal.ofBits .f32 0x00000000#32)
  + (if BitVec.ofNat 32 k.val = IntOp.addi c 1#32 then (f - (((c.toInt : ℤ) : ℝ) : EReal)) else Ideal.ofBits .f32 0x00000000#32)

/-- The weight matrix built from the candidate column, a scaled coordinate vector and its cells, at (k, w). -/
theorem pay8_apply (v27 : FVec Ideal S512 .f32) (v39 : IVec S512 32) (k : Fin 256) (w : Fin 512) :
    k0_pay8 (F := Ideal) cand v27 v39 (ix2 k w) = twoHot (v27 (ix1 w)) (v39 (ix1 w)) k := by
  unfold k0_pay8
  simp only [addf_apply, select_apply, cmpi_apply, broadcast_apply, subf_apply,
    Cert.LibLayout.broadcastTo_a1_ab_apply, broadcastTo_1b_ab_apply, shapeCast_a_1a_apply, shapeCast_self, addi_apply,
    sitofp_apply, cand_apply, cmpi_eq_select]
  rfl

/-! ## The matrix product -/

/-- The product contracts one axis … -/
theorem dot_rank : dot_S512x256_S256x512_S512x512_1_0_0_1_n_n.contr.rank = 1 := rfl
/-- … of extent 256 … -/
theorem dot_size : dot_S512x256_S256x512_S512x512_1_0_0_1_n_n.contr.size ⟨0, by rw [dot_rank]; exact Nat.one_pos⟩ = 256 := rfl
/-- … reading the left operand at (row of the result, contraction coordinate) … -/
theorem dot_l0 (i : S512x512.Idx) (q : dot_S512x256_S256x512_S512x512_1_0_0_1_n_n.contr.Idx) :
    (dot_S512x256_S256x512_S512x512_1_0_0_1_n_n.lhsIdx i q 0).val = (i 0).val := rfl
theorem dot_l1 (i : S512x512.Idx) (q : dot_S512x256_S256x512_S512x512_1_0_0_1_n_n.contr.Idx) :
    (dot_S512x256_S256x512_S512x512_1_0_0_1_n_n.lhsIdx i q 1).val = (q ⟨0, by rw [dot_rank]; exact Nat.one_pos⟩).val :=
  DotDims.lhsIdx_val_of_single _ (cl := 1) rfl i q
/-- … and the right operand at (contraction coordinate, column of the result). -/
theorem dot_r0 (i : S512x512.Idx) (q : dot_S512x256_S256x512_S512x512_1_0_0_1_n_n.contr.Idx) :
    (dot_S512x256_S256x512_S512x512_1_0_0_1_n_n.rhsIdx i q 0).val = (q ⟨0, by rw [dot_rank]; exact Nat.one_pos⟩).val :=
  DotDims.rhsIdx_val_of_single _ (cr := 0) rfl i q
theorem dot_r1 (i : S512x512.Idx) (q : dot_S512x256_S256x512_S512x512_1_0_0_1_n_n.contr.Idx) :
    (dot_S512x256_S256x512_S512x512_1_0_0_1_n_n.rhsIdx i q 1).val = (i 1).val := rfl

/-- The table against the row weights, at (r, w): the sum over the candidates of table (r, k) times weight (k, w). The
    weights it multiplies are the weight matrix above, narrowed to a shorter format — the identity here. -/
theorem pay9_apply (v1 : FVec Ideal S512x256 .bf16) (v21 : FVec Ideal S512 .f32) (v33 : IVec S512 32) (r w : Fin 512) :
    k0_pay9 (F := Ideal) v1 cand v21 v33 (ix2 r w)
      = ∑ k : Fin 256, v1 (ix2 r k) * twoHot (v21 (ix1 w)) (v33 (ix1 w)) k := by
  have e : k0_pay9 (F := Ideal) v1 cand v21 v33
      = matmul dot_S512x256_S256x512_S512x512_1_0_0_1_n_n none v1
          (truncf .bf16 (k0_pay8 (F := Ideal) cand v21 v33) Facts₀.bitsLt_bf16_f32)
          (constant (F := Ideal) S512x512 .f32 0x00000000#32) := rfl
  rw [e]
  refine (Cert.LibDense.matmul_zero_apply dot_S512x256_S256x512_S512x512_1_0_0_1_n_n dot_rank dot_size dot_l0 dot_l1 dot_r0 dot_r1
    none v1 _ r w).trans ?_
  refine Finset.sum_congr rfl fun k _ => ?_
  rw [truncf_apply, pay8_apply]

/-! ## The halves, and the sums over the candidates -/

/-- The upper half of the product at (j, w) is the product at (j, w). -/
theorem pay10_apply (v1 : FVec Ideal S512x256 .bf16) (v21 : FVec Ideal S512 .f32) (v33 : IVec S512 32) (j : Fin 256) (w : Fin 512) :
    k0_pay10 (F := Ideal) v1 cand v21 v33 (ix2 j w)
      = k0_pay9 (F := Ideal) v1 cand v21 v33 (ix2 (⟨j.val, by have := j.isLt; omega⟩ : Fin 512) w) := by
  unfold k0_pay10
  exact slice2_axis0_apply 0 _ _ j w ⟨j.val, by have := j.isLt; omega⟩ (Nat.zero_add _).symm

/-- The index a sum along the first axis reads at lane w and summand k is (k, w). -/
theorem lift_eq (k : Fin 256) (w : Fin 512) :
    Facts₀.reduces_S256x512_S512.lift (ix1 w) k = ix2 k w :=
  funext fun a => Fin.ext (by match a with | ⟨0, _⟩ => rfl | ⟨1, _⟩ => rfl)

/-- Channel 0's stored row at lane w: the sum over the candidates j of the half (j, w) times the column weight (j, w). -/
theorem pay11_apply (v87 v90 : FVec Ideal S256x512 .f32) (w : Fin 512) :
    k0_pay11 (F := Ideal) v87 v90 (ix2 (0 : Fin 1) w) = ∑ k : Fin 256, v90 (ix2 k w) * v87 (ix2 k w) := by
  unfold k0_pay11
  refine (shapeCast_a_1a_apply _ _ 0 w).trans ?_
  refine (Ideal.multiReduction_add_single (mulf v90 v87) 0x00000000#32 Facts₀.reduces_S256x512_S512 (.inl rfl) rfl (ix1 w)).trans ?_
  show ∑ k : Fin 256, mulf v90 v87 (Facts₀.reduces_S256x512_S512.lift (ix1 w) k) = _
  refine Finset.sum_congr rfl fun k _ => ?_
  rw [lift_eq, mulf_apply]

/-- Channel 1's stored row at lane w: the same with the lower half, the product's rows 256 + j. -/
theorem pay12_apply (v87 : FVec Ideal S256x512 .f32) (v89 : FVec Ideal S512x512 .f32) (w : Fin 512) :
    k0_pay12 (F := Ideal) v87 v89 (ix2 (0 : Fin 1) w)
      = ∑ k : Fin 256, v89 (ix2 (⟨256 + k.val, by have := k.isLt; omega⟩ : Fin 512) w) * v87 (ix2 k w) := by
  unfold k0_pay12
  refine (shapeCast_a_1a_apply _ _ 0 w).trans ?_
  refine (Ideal.multiReduction_add_single (mulf (extractStridedSlice S256x512 ![256, 0] v89 Facts₀.slices_S512x512_o256_0_S256x512) v87)
    0x00000000#32 Facts₀.reduces_S256x512_S512 (.inl rfl) rfl (ix1 w)).trans ?_
  show ∑ k : Fin 256, mulf (extractStridedSlice S256x512 ![256, 0] v89 Facts₀.slices_S512x512_o256_0_S256x512) v87
    (Facts₀.reduces_S256x512_S512.lift (ix1 w) k) = _
  refine Finset.sum_congr rfl fun k _ => ?_
  rw [lift_eq, mulf_apply]
  refine congrArg (· * v87 (ix2 k w)) ?_
  exact slice2_axis0_apply 256 _ _ k w ⟨256 + k.val, by have := k.isLt; omega⟩ rfl

/-! ## The two-hot weights select the cell and its neighbour -/

/-- A candidate's word equals a word below 256 exactly when the candidate is that word's number. -/
theorem ofNat_eq_iff (k : Fin 256) (c : BitVec 32) (hc : c.toNat < 256) :
    BitVec.ofNat 32 k.val = c ↔ k = ⟨c.toNat, hc⟩ := by
  constructor
  · intro h
    apply Fin.ext
    have h' := congrArg BitVec.toNat h
    rw [BitVec.toNat_ofNat] at h'
    have := k.isLt
    show k.val = c.toNat
    omega
  · intro h
    subst h
    show BitVec.ofNat 32 c.toNat = c
    rw [BitVec.ofNat_toNat, BitVec.setWidth_eq]

/-- The cell as a candidate … -/
def cellFin (x : EReal) : Fin 256 := ⟨(Cert.Lut.cell x).toNat, by have := Cert.Lut.cell_toNat_le x; omega⟩
/-- … and its neighbour, at most 250. -/
def succFin (x : EReal) : Fin 256 := ⟨(Cert.Lut.cell x).toNat + 1, by have := Cert.Lut.cell_toNat_le x; omega⟩

theorem cellFin_ne_succFin (x : EReal) : cellFin x ≠ succFin x := by
  intro h
  have := congrArg Fin.val h
  simp only [cellFin, succFin] at this
  omega

/-- At a coordinate's own scaled value and cell the two-hot weight is 1 − frac at the cell, frac at its neighbour and
    zero at every other candidate. -/
theorem twoHot_cell (x : EReal) (k : Fin 256) :
    twoHot (Cert.Lut.coord x) (Cert.Lut.cell x) k
      = (if k = cellFin x then 1 - Cert.Lut.frac x else 0) + (if k = succFin x then Cert.Lut.frac x else 0) := by
  unfold twoHot
  have h1 : (BitVec.ofNat 32 k.val = Cert.Lut.cell x) = (k = cellFin x) :=
    propext (ofNat_eq_iff k _ _)
  have h2 : (BitVec.ofNat 32 k.val = IntOp.addi (Cert.Lut.cell x) 1#32) = (k = succFin x) := by
    have hs := Cert.Lut.cell_succ_toNat x
    have hle := Cert.Lut.cell_toNat_le x
    refine propext ((ofNat_eq_iff k _ (by rw [hs]; omega)).trans ?_)
    constructor
    · intro h; rw [h]; exact Fin.ext hs
    · intro h; rw [h]; exact Fin.ext hs.symm
  simp only [h1, h2, Cert.Lut.lit_one, Cert.Lut.lit_zero]
  rfl

/-- The table's row r = c·256 + j against the row weights: the table's column j of channel c at the cell's row and at
    the next, interpolated. -/
theorem row_sum (v1 : FVec Ideal S512x256 .bf16) (T : Cert.Lut.ST.Idx → EReal)
    (hv1 : ∀ (c : Fin 2) (j i : Fin 256), v1 (ix2 (⟨c.val * 256 + j.val, by have := c.isLt; have := j.isLt; omega⟩ : Fin 512) i) = Cert.Lut.tableAt T c i.val j.val)
    (c : Fin 2) (j : Fin 256) (r : Fin 512) (hr : r.val = c.val * 256 + j.val) (xa : EReal) :
    ∑ k : Fin 256, v1 (ix2 r k) * twoHot (Cert.Lut.coord xa) (Cert.Lut.cell xa) k
      = Cert.Lut.tableAt T c (Cert.Lut.cell xa).toNat j.val * (1 - Cert.Lut.frac xa)
        + Cert.Lut.tableAt T c ((Cert.Lut.cell xa).toNat + 1) j.val * Cert.Lut.frac xa := by
  have e : r = ⟨c.val * 256 + j.val, by have := c.isLt; have := j.isLt; omega⟩ := Fin.ext hr
  rw [e]
  simp only [hv1, twoHot_cell]
  exact Cert.Lut.twohot_sum (fun k : Fin 256 => Cert.Lut.tableAt T c k.val j.val) (cellFin xa) (succFin xa) (cellFin_ne_succFin xa) _ _

/-- A channel of the row: the interpolated columns against the column weights are the pixel grouped by columns. -/
theorem channel_sum (T : Cert.Lut.ST.Idx → EReal) (c : Fin 2) (xa xb : EReal) :
    ∑ j : Fin 256, (Cert.Lut.tableAt T c (Cert.Lut.cell xa).toNat j.val * (1 - Cert.Lut.frac xa)
        + Cert.Lut.tableAt T c ((Cert.Lut.cell xa).toNat + 1) j.val * Cert.Lut.frac xa) * twoHot (Cert.Lut.coord xb) (Cert.Lut.cell xb) j
      = Cert.Lut.pixCols T c xa xb := by
  simp only [twoHot_cell]
  exact Cert.Lut.twohot_sum (fun j : Fin 256 => Cert.Lut.tableAt T c (Cert.Lut.cell xa).toNat j.val * (1 - Cert.Lut.frac xa)
        + Cert.Lut.tableAt T c ((Cert.Lut.cell xa).toNat + 1) j.val * Cert.Lut.frac xa) (cellFin xb) (succFin xb) (cellFin_ne_succFin xb) _ _

/-! ## The two stored rows -/

/-- Channel 0 of the row at lane w is the pixel of table channel 0 at the lane's two coordinates. -/
theorem rowCh0_apply (v1 : FVec Ideal S512x256 .bf16) (T : Cert.Lut.ST.Idx → EReal)
    (hv1 : ∀ (c : Fin 2) (j i : Fin 256), v1 (ix2 (⟨c.val * 256 + j.val, by have := c.isLt; have := j.isLt; omega⟩ : Fin 512) i) = Cert.Lut.tableAt T c i.val j.val)
    (v9 v14 : Vec Ideal S1x512 .f32) (w : Fin 512) :
    rowCh0 (F := Ideal) v1 cand v9 v14 (ix2 (0 : Fin 1) w) = Cert.Lut.pixCols T 0 (v9 (ix2 (0 : Fin 1) w)) (v14 (ix2 (0 : Fin 1) w)) := by
  unfold rowCh0 colWeights
  rw [pay11_apply]
  refine Eq.trans (Finset.sum_congr rfl fun j _ => ?_) (channel_sum T 0 (v9 (ix2 (0 : Fin 1) w)) (v14 (ix2 (0 : Fin 1) w)))
  rw [pay10_apply, pay9_apply, pay8_apply, pay4_apply, pay6_apply, pay5_apply, pay7_apply]
  rw [row_sum v1 T hv1 0 j ⟨j.val, by have := j.isLt; omega⟩ (by show j.val = 0 * 256 + j.val; omega) (v9 (ix2 (0 : Fin 1) w))]

/-- Channel 1 of the row at lane w is the pixel of table channel 1 at the lane's two coordinates. -/
theorem rowCh1_apply (v1 : FVec Ideal S512x256 .bf16) (T : Cert.Lut.ST.Idx → EReal)
    (hv1 : ∀ (c : Fin 2) (j i : Fin 256), v1 (ix2 (⟨c.val * 256 + j.val, by have := c.isLt; have := j.isLt; omega⟩ : Fin 512) i) = Cert.Lut.tableAt T c i.val j.val)
    (v9 v14 : Vec Ideal S1x512 .f32) (w : Fin 512) :
    rowCh1 (F := Ideal) v1 cand v9 v14 (ix2 (0 : Fin 1) w) = Cert.Lut.pixCols T 1 (v9 (ix2 (0 : Fin 1) w)) (v14 (ix2 (0 : Fin 1) w)) := by
  unfold rowCh1 colWeights product
  rw [pay12_apply]
  refine Eq.trans (Finset.sum_congr rfl fun j _ => ?_) (channel_sum T 1 (v9 (ix2 (0 : Fin 1) w)) (v14 (ix2 (0 : Fin 1) w)))
  rw [pay9_apply, pay8_apply, pay4_apply, pay6_apply, pay5_apply, pay7_apply]
  rw [row_sum v1 T hv1 1 j ⟨256 + j.val, by have := j.isLt; omega⟩ (by show 256 + j.val = 1 * 256 + j.val; omega) (v9 (ix2 (0 : Fin 1) w))]

end Cert.KernelIdeal.Row

end
-- ==== Proof.Staged.lean ====
/-
  What the kernel's region finds in its arrays, read at an index.

  The second window stages one array the host builds from the table argument before the region: the table's leading
  unit axis dropped ([1,2,251,251] → [2,251,251]), zeros appended on the two table axes up to 256 × 256, each channel
  transposed, the two channels stacked into [512,256], and the storage format narrowed (the identity on exact values).
  So entry (ch·256 + j, i) of the staged array is the transposed padded table at [ch, j, i], that is the padded table
  at [ch, i, j]: T[0, ch, i, j] when i, j < 251 and the pad value 0 otherwise (`staged_table`).

  The first window's block at grid point t = (b, h), of shape [1,2,128,512], sits at block index (b, 0, h, 0) of the
  first argument, so its entry (0, ch, r, w) is the argument at (b, ch, h·128 + r, w), with b = t / 4 and h = t % 4
  in the row-major numbering of the 32 × 4 grid (`block0_apply`). The second window's block is the whole staged
  array at every point (`block1_eq`).
-/
import proofs.«159610_j32693291057269_2_alg».proof.Proof.Gen.KernelIdeal.Frame
import proofs.«159610_j32693291057269_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

noncomputable section

namespace Cert.KernelIdeal.Staged

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-- The staged table as the host operations build it from the table argument: the leading unit axis dropped, zeros
    appended to 256 × 256, each channel transposed, the two channels stacked, the storage format narrowed. -/
def stagedTerm (T : S1x2x251x251.Idx → EReal) : S512x256.Idx → EReal :=
  truncf (F := Ideal) .bf16
    (shapeCast S512x256
      (transpose S2x256x256 [0, 2, 1]
        (pad S2x256x256 ![0, 0, 0] ![0, 5, 5] ![0, 0, 0]
          (shapeCast S2x251x251 T shapeCasts_S1x2x251x251_S2x251x251)
          (sitofp (F := Ideal) .f32 (constantI S_ 32 0#32))
          pads_S2x251x251_S2x256x256_000_050_050 h_S_)
        transposes_S2x256x256_S2x256x256_0_2_1)
      shapeCasts_S2x256x256_S512x256)
    bitsLt_bf16_f32

/-- The array the second window stages is that term of the table argument as launched. -/
theorem V_main_v4_eq : (V m c main_v4 : S512x256.Idx → EReal)
    = stagedTerm (m ((c : Thread nD τ).loc main_arg1) : S1x2x251x251.Idx → EReal) := by
  dsimp only [Gen.V]
  simp only [Gen.hostOps0, Gen.hostOps0_1, Gen.hostOps0_2, List.flatten_cons, List.flatten_nil, List.append_nil, List.cons_append, List.nil_append]
  after_results
  rfl

/-- The pad value: the integer word 0 converted is the real number 0. -/
theorem padValue_eq : (sitofp (F := Ideal) .f32 (constantI S_ 32 0#32) : S_.Idx → EReal) (Shape.Idx.first h_S_) = 0 := by
  show (((0#32 : BitVec 32).toInt : ℝ) : EReal) = 0
  rw [show (0#32 : BitVec 32).toInt = 0 from by decide, Int.cast_zero, EReal.coe_zero]

/-- Entry (ch·256 + j, i) of the staged term is the zero-extended table at channel ch, row i, column j. -/
theorem stagedTerm_apply (T : S1x2x251x251.Idx → EReal) (ch : Fin 2) (j i : Fin 256) :
    stagedTerm T (ix2 (⟨ch.val * 256 + j.val, by have := ch.isLt; have := j.isLt; omega⟩ : Fin 512) i)
      = Cert.Lut.tableAt T ch i.val j.val := by
  unfold stagedTerm
  rw [truncf_apply]
  refine (shapeCast_apply _ shapeCasts_S2x256x256_S512x256 _ (ix3 ch j i) ?_).trans ?_
  · rw [Shape.rowMajor_val_three, Shape.rowMajor_val_two]
    show (ch.val * 256 + j.val) * 256 + i.val = (ch.val * 256 + j.val) * 256 + i.val
    rfl
  refine (transpose_ix3_021_apply _ transposes_S2x256x256_S2x256x256_0_2_1 ch j i).trans ?_
  unfold Cert.Lut.tableAt
  by_cases h : i.val < 251 ∧ j.val < 251
  · rw [dif_pos h]
    refine (pad_apply_of_inside _ _ _ _ _ _ _ (ix3 ch i j) (ix3 ch (⟨i.val, h.1⟩ : Fin 251) (⟨j.val, h.2⟩ : Fin 251)) ?_).trans ?_
    · intro a
      match a with
      | ⟨0, _⟩ => show ch.val = 0 + ch.val * (0 + 1); omega
      | ⟨1, _⟩ => show i.val = 0 + i.val * (0 + 1); omega
      | ⟨2, _⟩ => show j.val = 0 + j.val * (0 + 1); omega
    · exact shapeCast_1abc_abc_apply T shapeCasts_S1x2x251x251_S2x251x251 ch _ _
  · rw [dif_neg h]
    have h' : ¬ i.val < 251 ∨ ¬ j.val < 251 := by omega
    rcases h' with h1 | h2
    · refine (pad_apply_of_not_inside _ _ _ _ _ _ _ (ix3 ch i j) (1 : Fin 3) ?_).trans padValue_eq
      show ¬ (0 ≤ i.val ∧ (i.val - 0) % (0 + 1) = 0 ∧ (i.val - 0) / (0 + 1) < 251)
      omega
    · refine (pad_apply_of_not_inside _ _ _ _ _ _ _ (ix3 ch i j) (2 : Fin 3) ?_).trans padValue_eq
      show ¬ (0 ≤ j.val ∧ (j.val - 0) % (0 + 1) = 0 ∧ (j.val - 0) / (0 + 1) < 251)
      omega

/-- Entry (ch·256 + j, i) of the array the second window stages is the zero-extended table at channel ch, row i,
    column j: the stack of the two channels, each padded to 256 × 256 and transposed. -/
theorem staged_table (ch : Fin 2) (j i : Fin 256) :
    (V m c main_v4 : S512x256.Idx → EReal) (ix2 (⟨ch.val * 256 + j.val, by have := ch.isLt; have := j.isLt; omega⟩ : Fin 512) i)
      = Cert.Lut.tableAt (m ((c : Thread nD τ).loc main_arg1) : Cert.Lut.ST.Idx → EReal) ch i.val j.val := by
  rw [V_main_v4_eq]
  exact stagedTerm_apply _ ch j i

/-- The first window's block index at grid point t, decided over the 128 points: (t / 4, 0, t % 4, 0). -/
theorem index0 : ∀ t : Fin cfg0.N, win0_0.index t (0 : Fin 4) = t.val / 4 ∧ win0_0.index t (1 : Fin 4) = 0
    ∧ win0_0.index t (2 : Fin 4) = t.val % 4 ∧ win0_0.index t (3 : Fin 4) = 0 :=
  (by decide +kernel : ∀ t : Fin grid0.N, _)

/-- The second window's block index is (0, 0) at every grid point. -/
theorem index1 : ∀ t : Fin cfg0.N, win0_1.index t (0 : Fin 2) = 0 ∧ win0_1.index t (1 : Fin 2) = 0 :=
  (by decide +kernel : ∀ t : Fin grid0.N, _)

/-- Entry (0, ch, r, w) of the first window's block at grid point t is the first argument at
    (t / 4, ch, (t % 4)·128 + r, w): a block's coordinate is its index times its size plus the coordinate inside. -/
theorem block0_apply (t : Fin cfg0.N) (ch : Fin 2) (r : Fin 128) (w : Fin 512) :
    iblk m c 0 t (ix4 (0 : Fin 1) ch r w)
      = (m ((c : Thread nD τ).loc main_arg0) : Cert.Lut.SX.Idx → EReal)
          (ix4 (⟨t.val / 4, by have := t.isLt; have hN : cfg0.N = 128 := Gen.N_0; omega⟩ : Fin 32) ch
            (⟨(t.val % 4) * 128 + r.val, by have := r.isLt; omega⟩ : Fin 512) w) := by
  show V m c main_arg0 (((cfg0.win 0).blk t).view.emb (ix4 (0 : Fin 1) ch r w)) = _
  rw [Gen.V_main_arg0]
  obtain ⟨e0, e1, e2, e3⟩ := index0 t
  refine congrArg _ (funext fun a => Fin.ext ?_)
  match a with
  | ⟨0, _⟩ => show win0_0.index t (0 : Fin 4) * 1 + 1 * (0 : Fin 1).val = t.val / 4; rw [e0]; show t.val / 4 * 1 + 1 * 0 = _; omega
  | ⟨1, _⟩ => show win0_0.index t (1 : Fin 4) * 2 + 1 * ch.val = ch.val; omega
  | ⟨2, _⟩ => show win0_0.index t (2 : Fin 4) * 128 + 1 * r.val = (t.val % 4) * 128 + r.val; omega
  | ⟨3, _⟩ => show win0_0.index t (3 : Fin 4) * 512 + 1 * w.val = w.val; omega

/-- The second window's block is the whole staged array at every grid point. -/
theorem block1_eq (t : Fin cfg0.N) (r : Fin 512) (k : Fin 256) :
    iblk m c 1 t (ix2 r k) = (V m c main_v4 : S512x256.Idx → EReal) (ix2 r k) := by
  show V m c main_v4 (((cfg0.win 1).blk t).view.emb (ix2 r k)) = _
  obtain ⟨e0, e1⟩ := index1 t
  refine congrArg _ (funext fun a => Fin.ext ?_)
  match a with
  | ⟨0, _⟩ => show win0_1.index t (0 : Fin 2) * 512 + 1 * r.val = r.val; omega
  | ⟨1, _⟩ => show win0_1.index t (1 : Fin 2) * 256 + 1 * k.val = k.val; omega

end Cert.KernelIdeal.Staged
end
-- ==== Proof.OutValue.lean ====
/-
  The result block's entries are the specification's.

  At grid point t = (b, h) of the 32 × 4 grid the body reads the coordinate block [1,2,128,512] of the first argument
  — entry (0, ch, r, w) is the argument at (b, ch, h·128 + r, w) — and the whole staged table, whose entry
  (ch·256 + j, i) is the zero-extended table at channel ch, row i, column j. Row r of the result block is the row
  function applied to rows r of the block's two channels; at lane w that is the pixel grouped by columns at the two
  coordinates (b, 0, h·128 + r, w) and (b, 1, h·128 + r, w), and for a table of real numbers the grouping by columns
  is the bilinear value itself: the specification's G at (b, ch, h·128 + r, w).
-/
import proofs.«159610_j32693291057269_2_alg».proof.Proof.RowValue
import proofs.«159610_j32693291057269_2_alg».proof.Proof.Staged
import proofs.«159610_j32693291057269_2_alg».proof.Proof.Algebra
import proofs.«159610_j32693291057269_2_alg».proof.Proof.Spec
import proofs.«159610_j32693291057269_2_alg».proof.Proof.KI.TripValue

noncomputable section

namespace Cert.KernelIdeal.OutValue

open Cert.KernelIdeal Cert.KernelIdeal.Gen Cert.KernelIdeal.Row Cert.KernelIdeal.TripValue Cert.KernelIdeal.Staged
  Idealize.ShloMosaic Idealize.ShloMosaic.ValueIdx Idealize.ShloMosaic.TcCoe Idealize.SL.Sem

variable (m : (ℓ : Loc nD τ sig) → Buf (Elt Ideal) ℓ) (c : Dev nD)

/-- The staged table as the row function reads it — through a reshape to its own shape, the identity — holds at
    (ch·256 + j, i) the zero-extended table's entry (i, j) of channel ch. -/
theorem table_apply (t : Fin cfg0.N) (ch : Fin 2) (j i : Fin 256) :
    k0_pay1 (F := Ideal) (iblk m c 1 t) (ix2 (⟨ch.val * 256 + j.val, by have := ch.isLt; have := j.isLt; omega⟩ : Fin 512) i)
      = Cert.Lut.tableAt (m ((c : Thread nD τ).loc main_arg1) : Cert.Lut.ST.Idx → EReal) ch i.val j.val := by
  unfold k0_pay1
  rw [shapeCast_self]
  exact (block1_eq m c t _ i).trans (staged_table m c ch j i)

/-- Row r of channel ch of the coordinate block at grid point t, at lane w, is the coordinate argument at
    (t / 4, ch, (t % 4)·128 + r, w). -/
theorem rowOf_apply (t : Fin cfg0.N) (ch : Fin 2) (r : Fin 128) (w : Fin 512) :
    rowOf (F := Ideal) (iblk m c 0 t) ch r (ix2 (0 : Fin 1) w)
      = (m ((c : Thread nD τ).loc main_arg0) : Cert.Lut.SX.Idx → EReal)
          (ix4 (⟨t.val / 4, by have := t.isLt; have hN : cfg0.N = 128 := Gen.N_0; omega⟩ : Fin 32) ch
            (⟨(t.val % 4) * 128 + r.val, by have := r.isLt; omega⟩ : Fin 512) w) :=
  block0_apply m c t ch r w

/-- The result block's entry (ch, r, w) at grid point t is the specification's value at batch t / 4, channel ch,
    row (t % 4)·128 + r, column w. -/
theorem outBlock_eq_G (hT : Cert.Lut.TableFinite (m ((c : Thread nD τ).loc main_arg1) : Cert.Lut.ST.Idx → EReal))
    (t : Fin cfg0.N) (ch : Fin 2) (r : Fin 128) (w : Fin 512) :
    outBlock (F := Ideal) (iblk m c 1 t) cand (iblk m c 0 t) ch r w
      = Cert.Lut.G (m ((c : Thread nD τ).loc main_arg0) : Cert.Lut.SX.Idx → EReal)
          (m ((c : Thread nD τ).loc main_arg1) : Cert.Lut.ST.Idx → EReal)
          (⟨t.val / 4, by have := t.isLt; have hN : cfg0.N = 128 := Gen.N_0; omega⟩ : Fin 32) ch
          (⟨(t.val % 4) * 128 + r.val, by have := r.isLt; omega⟩ : Fin 512) w := by
  unfold outBlock Cert.Lut.G
  obtain rfl | rfl : ch = 0 ∨ ch = 1 := by omega
  · rw [if_pos (show (0 : Fin 2).val = 0 from rfl), rowCh0_apply _ _ (table_apply m c t), Cert.Lut.pixCols_eq_pix _ hT, rowOf_apply, rowOf_apply]
  · rw [if_neg (show ¬ (1 : Fin 2).val = 0 from by decide), rowCh1_apply _ _ (table_apply m c t), Cert.Lut.pixCols_eq_pix _ hT, rowOf_apply, rowOf_apply]

end Cert.KernelIdeal.OutValue

end
-- ==== Proof.ArrayValue.lean ====
/-
  The kernel's result array, index by index, is the specification's.

  Point t of the 32 × 4 grid is batch t / 4 and row block t % 4; the result's window writes back the block
  [1, 2, 128, 512] at (t / 4, 0, t % 4, 0). What a point writes back is, entry (ch, r, w), the bilinear pixel of the
  launch coordinates at (t / 4, ·, 128 (t % 4) + r, w) against the launch table — block t of the specification's array
  (`flushed_eq`). The 128 blocks fill the array (`cover`), so after the run the array IS the specification's
  (`final`), and the frame run is re-posted with the result named (`run`).
-/
import proofs.«159610_j32693291057269_2_alg».proof.Proof.KI.Body
import proofs.«159610_j32693291057269_2_alg».proof.Proof.OutValue
import proofs.«159610_j32693291057269_2_alg».proof.Proof.Spec
import Idealize.ShloMosaic.Lib.ValueIdx
import Idealize.ShloMosaic.Lib.Pipeline.Value

set_option maxRecDepth 16384

noncomputable section

namespace Cert.KernelIdeal.ArrayValue

open Cert.KernelIdeal Cert.KernelIdeal.Gen Cert.KernelIdeal.BodyRun Cert.KernelIdeal.TripValue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The two argument arrays as launched on core `c`. -/
abbrev coords (c : Dev nD) : Cert.Lut.SX.Idx → EReal := m ((c : Thread nD τ).loc main_arg0)
abbrev table (c : Dev nD) : Cert.Lut.ST.Idx → EReal := m ((c : Thread nD τ).loc main_arg1)

/-- The result window's index map over the grid: point t is batch t / 4, row block t % 4. -/
theorem result_index : ∀ t : Fin cfg0.N, win0_2.index t (0 : Fin 4) = t.val / 4 ∧ win0_2.index t (1 : Fin 4) = 0
    ∧ win0_2.index t (2 : Fin 4) = t.val % 4 ∧ win0_2.index t (3 : Fin 4) = 0 :=
  (by decide +kernel : ∀ t : Fin grid0.N, _)

/-- Every (batch, row block) is some point's. -/
theorem result_index_onto : ∀ (q0 : Fin 32) (q2 : Fin 4), ∃ t : Fin cfg0.N, win0_2.index t = ![q0.val, 0, q2.val, 0] :=
  (by decide +kernel : ∀ (q0 : Fin 32) (q2 : Fin 4), ∃ t : Fin grid0.N, win0_2.index t = ![q0.val, 0, q2.val, 0])

/-- WHAT POINT t WRITES BACK is block t of the specification's result array. -/
theorem flushed_eq (c : Dev nD) (hT : Cert.Lut.TableFinite (table m c)) (t : Fin cfg0.N) :
    (dats m 0 c).flushed 2 t = ((cfg0.win 2).blk t).view.read (Elt Ideal) (Cert.Lut.Garr (coords m c) (table m c)) := by
  show (cfg0.win 2).cut (grid0.coords t) ((dats m 0 c).after 2 t) = _
  rw [after0_2]
  unfold outAt outVec
  obtain ⟨e0, e1, e2, e3⟩ := result_index t
  funext y
  obtain ⟨a, ch, r, w, rfl⟩ : ∃ (a : Fin 1) (ch : Fin 2) (r : Fin 128) (w : Fin 512), y = ix4 a ch r w := ⟨y 0, y 1, y 2, y 3, eq_ix4 y⟩
  obtain rfl : a = 0 := Subsingleton.elim _ _
  show outBlock (iblk m c 1 t) cand (iblk m c 0 t) ch r w = Cert.Lut.Garr (coords m c) (table m c) (((cfg0.win 2).blk t).view.emb (ix4 0 ch r w))
  rw [OutValue.outBlock_eq_G m c hT t ch r w]
  have hemb : ((cfg0.win 2).blk t).view.emb (ix4 (0 : Fin 1) ch r w)
      = ix4 (⟨t.val / 4, by have := t.isLt; have : cfg0.N = 128 := rfl; omega⟩ : Fin 32) ch (⟨(t.val % 4) * 128 + r.val, by have := r.isLt; omega⟩ : Fin 512) w := by
    funext a; apply Fin.ext
    match a with
    | ⟨0, _⟩ => show win0_2.index t (0 : Fin 4) * 1 + 1 * 0 = t.val / 4; omega
    | ⟨1, _⟩ => show win0_2.index t (1 : Fin 4) * 2 + 1 * ch.val = ch.val; omega
    | ⟨2, _⟩ => show win0_2.index t (2 : Fin 4) * 128 + 1 * r.val = (t.val % 4) * 128 + r.val; omega
    | ⟨3, _⟩ => show win0_2.index t (3 : Fin 4) * 512 + 1 * w.val = w.val; omega
  rw [hemb]
  rfl

/-- An index of the result array is in point t's block iff each coordinate is in the block's range on its axis. -/
theorem mem_blk (t : Fin cfg0.N) (i : S32x2x512x512.Idx) :
    i ∈ ((cfg0.win 2).blk t).view.set ↔ ∀ a : Fin 4, win0_2.index t a * S1x2x128x512.size a ≤ (i a).val ∧ (i a).val < win0_2.index t a * S1x2x128x512.size a + S1x2x128x512.size a := by
  show i ∈ ((View.whole main_v5).slice (win0_2.rect t)).set ↔ _
  rw [View.set_slice_whole, Rect.mem_set_unit]
  exact Iff.rfl

/-- The blocks fill the result array: index (b, ch, h, w) is in the block of point 4 b + h / 128. -/
theorem cover (i : S32x2x512x512.Idx) : ∃ t : Fin cfg0.N, (cfg0.win 2).flush t = true ∧ i ∈ ((cfg0.win 2).blk t).view.set := by
  have h0 : (i 0).val < 32 := (i 0).isLt
  have h1 : (i 1).val < 2 := (i 1).isLt
  have h2 : (i 2).val < 512 := (i 2).isLt
  have h3 : (i 3).val < 512 := (i 3).isLt
  obtain ⟨t, ht⟩ := result_index_onto ⟨(i 0).val, h0⟩ ⟨(i 2).val / 128, by omega⟩
  have q0 : win0_2.index t (0 : Fin 4) = (i 0).val := congrFun ht 0
  have q1 : win0_2.index t (1 : Fin 4) = 0 := congrFun ht 1
  have q2 : win0_2.index t (2 : Fin 4) = (i 2).val / 128 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 2 ≤ (i 1).val ∧ (i 1).val < win0_2.index t (1 : Fin 4) * 2 + 2; omega
  | ⟨2, _⟩ => show win0_2.index t (2 : Fin 4) * 128 ≤ (i 2).val ∧ (i 2).val < win0_2.index t (2 : Fin 4) * 128 + 128; omega
  | ⟨3, _⟩ => show win0_2.index t (3 : Fin 4) * 512 ≤ (i 3).val ∧ (i 3).val < win0_2.index t (3 : Fin 4) * 512 + 512; omega

/-- THE RESULT ARRAY after the run is the specification's. -/
theorem final (c : Dev nD) (hT : Cert.Lut.TableFinite (table m c)) :
    (dats m 0 c).arrAt 2 cfg0.N = Cert.Lut.Garr (coords m c) (table m c) :=
  (dats m 0 c).arrAt_eq_of_cover 2 _ (fun t _ => flushed_eq m c hT t) cover

/-- The frame run re-posted: the result array at the specification's function of the launch arrays, the arguments
    unchanged. -/
theorem run (hT : ∀ c : Dev nD, Cert.Lut.TableFinite (table m c)) :
    θ_run defs (onTc (τ := τ) (main (F := Ideal))) ⟨m, fun _ => 0, ρ⟩ fun r => ∀ c : Dev nD,
      r.2.mem ((c : Thread nD τ).loc main_v5) = Cert.Lut.Garr (coords m c) (table m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c (hT c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.ArrayValue

end
-- ==== Proof.RefValue.lean ====
/-
  The reference's result, index by index, is the specification's bilinear pixel.

  Per result index (b, c, h, w) the reference clips the two input channels at (b, h, w) to [0, 1] and scales them by
  250: the pixel's row and column coordinates. Each coordinate's integer part clamped to 0 … 249 is its cell, the
  remainder its weight. The row and the column of the cell (or of the cell's far corner, one more) are laid side by
  side as a start index, and a gather reads the table's channel c there. A negative start index would be wrapped by
  251 and an out-of-range one clamped, but a cell lies in 0 … 249 and its successor in 1 … 250, so neither happens.
  The four corners are weighted (1 − fa)(1 − fb), (1 − fa)·fb, fa·(1 − fb), fa·fb and summed left to right.
-/
import proofs.«159610_j32693291057269_2_alg».proof.Defs
import proofs.«159610_j32693291057269_2_alg».proof.Proof.Gen.ReferenceIdeal.Read
import proofs.«159610_j32693291057269_2_alg».proof.Proof.Spec
import proofs.«159610_j32693291057269_2_alg».proof.Proof.Algebra
import Idealize.ShloMosaic.Lib.ValueIdx
import Idealize.ShloMosaic.Lib.Pipeline.Value
import Idealize.ShloMosaic.PureOps.Ideal.Laws

noncomputable section

namespace Cert.Lut.Ref

open Idealize.ShloMosaic Idealize.ShloMosaic.ValueIdx
open Cert.ReferenceIdeal Cert.ReferenceIdeal.Gen Cert.ReferenceIdeal.Read

/-! ## Two general readings: the join of two index planes, and the two-index gather -/

/-- Two [32, 512, 512, 1] planes joined along the last axis, read at last coordinate 0: the first plane. -/
theorem concat_at0 {α : Type} (p q : S32x512x512x1.Idx → α)
    (hc : Shape.Concatenates [S32x512x512x1, S32x512x512x1] S32x512x512x2 3) (b : Fin 32) (h w : Fin 512) :
    concatenate S32x512x512x2 3 [⟨S32x512x512x1, p⟩, ⟨S32x512x512x1, q⟩] hc (ix4 b h w (0 : Fin 2))
      = p (ix4 b h w (0 : Fin 1)) := by
  refine concatenate_pair_apply_left 3 p q hc _ rfl _ ?_
  intro a
  match a with
  | ⟨0, _⟩ => rfl
  | ⟨1, _⟩ => rfl
  | ⟨2, _⟩ => rfl
  | ⟨3, _⟩ => rfl

/-- … and at last coordinate 1: the second plane. -/
theorem concat_at1 {α : Type} (p q : S32x512x512x1.Idx → α)
    (hc : Shape.Concatenates [S32x512x512x1, S32x512x512x1] S32x512x512x2 3) (b : Fin 32) (h w : Fin 512) :
    concatenate S32x512x512x2 3 [⟨S32x512x512x1, p⟩, ⟨S32x512x512x1, q⟩] hc (ix4 b h w (1 : Fin 2))
      = q (ix4 b h w (0 : Fin 1)) := by
  refine concatenate_pair_apply_right 3 p q hc _ rfl rfl _ ?_ ?_
  · intro a ha
    match a with
    | ⟨0, _⟩ => rfl
    | ⟨1, _⟩ => rfl
    | ⟨2, _⟩ => rfl
    | ⟨3, _⟩ => exact absurd rfl ha
  · rfl

/-- The gather's dimension numbers: operand [2, 251, 251], start indices [32, 512, 512, 2] (a row and a column for
    each position), result [2, 32, 512, 512]; the channel axis is kept whole, the row and column axes are collapsed. -/
abbrev gd : GatherDims S2x251x251 S32x512x512x2 S2x32x512x512 :=
  gather_S2x251x251_S32x512x512x2_S2x32x512x512_0_12_n_n_12_3_211

/-- THE GATHER READ AT (c, b, h, w): the operand at channel c, at the row and the column read signed off the start
    indices at (b, h, w) and clamped into 0 … 250. -/
theorem gather_at {α : Type} {wd : Nat} (tab : S2x251x251.Idx → α) (idx : IVec S32x512x512x2 wd)
    (c : Fin 2) (b : Fin 32) (h w : Fin 512) :
    Host.gather gather_S2x251x251_S32x512x512x2_S2x32x512x512_0_12_n_n_12_3_211 tab idx (ix4 c b h w)
      = tab (ix3 c (⟨min (idx (ix4 b h w (0 : Fin 2))).toInt.toNat 250, by omega⟩ : Fin 251)
                   (⟨min (idx (ix4 b h w (1 : Fin 2))).toInt.toNat 250, by omega⟩ : Fin 251)) := by
  unfold Host.gather
  congr 1
  funext a
  refine Fin.ext ?_
  match a with
  | ⟨0, _⟩ =>
    show gd.start (ix4 c b h w) idx 0 + gd.batchCoord (ix4 c b h w) 0 + gd.offCoord (ix4 c b h w) 0 = c.val
    rw [GatherDims.batchCoord_eq_zero _ _ _ List.not_mem_nil]
    unfold GatherDims.start GatherDims.offCoord
    rw [dif_neg (by decide), dif_pos (by decide)]
    simp only [Nat.add_zero, Nat.zero_add]
    rfl
  | ⟨1, _⟩ =>
    show gd.start (ix4 c b h w) idx 1 + gd.batchCoord (ix4 c b h w) 1 + gd.offCoord (ix4 c b h w) 1 = _
    rw [GatherDims.batchCoord_eq_zero _ _ _ List.not_mem_nil,
      GatherDims.offCoord_eq_zero _ _ _ (fun hm => ((GatherDims.mem_sKept _ _).mp hm).1 (by decide))]
    simp only [Nat.add_zero]
    unfold GatherDims.start
    rw [dif_pos (show (1 : Fin 3) ∈ gd.startIndexMap by decide)]
    have hsi : gd.siIdx (ix4 c b h w) ⟨List.idxOf (1 : Fin 3) gd.startIndexMap,
        List.idxOf_lt_length_iff.2 (by decide)⟩ = ix4 b h w (0 : Fin 2) := by
      funext e; refine Fin.ext ?_
      match e with
      | ⟨0, _⟩ => rfl
      | ⟨1, _⟩ => rfl
      | ⟨2, _⟩ => rfl
      | ⟨3, _⟩ => rfl
    rw [hsi]
    rfl
  | ⟨2, _⟩ =>
    show gd.start (ix4 c b h w) idx 2 + gd.batchCoord (ix4 c b h w) 2 + gd.offCoord (ix4 c b h w) 2 = _
    rw [GatherDims.batchCoord_eq_zero _ _ _ List.not_mem_nil,
      GatherDims.offCoord_eq_zero _ _ _ (fun hm => ((GatherDims.mem_sKept _ _).mp hm).1 (by decide))]
    simp only [Nat.add_zero]
    unfold GatherDims.start
    rw [dif_pos (show (2 : Fin 3) ∈ gd.startIndexMap by decide)]
    have hsi : gd.siIdx (ix4 c b h w) ⟨List.idxOf (2 : Fin 3) gd.startIndexMap,
        List.idxOf_lt_length_iff.2 (by decide)⟩ = ix4 b h w (1 : Fin 2) := by
      funext e; refine Fin.ext ?_
      match e with
      | ⟨0, _⟩ => rfl
      | ⟨1, _⟩ => rfl
      | ⟨2, _⟩ => rfl
      | ⟨3, _⟩ => rfl
    rw [hsi]
    rfl

/-- The same, with the row and the column named: any p, q equal to the clamped start indices. -/
theorem gather_at' {α : Type} {wd : Nat} (tab : S2x251x251.Idx → α) (idx : IVec S32x512x512x2 wd)
    (c : Fin 2) (b : Fin 32) (h w : Fin 512) (p q : Fin 251)
    (hp : p.val = min (idx (ix4 b h w (0 : Fin 2))).toInt.toNat 250)
    (hq : q.val = min (idx (ix4 b h w (1 : Fin 2))).toInt.toNat 250) :
    Host.gather gather_S2x251x251_S32x512x512x2_S2x32x512x512_0_12_n_n_12_3_211 tab idx (ix4 c b h w)
      = tab (ix3 c p q) := by
  rw [gather_at]
  have e1 : (⟨min (idx (ix4 b h w (0 : Fin 2))).toInt.toNat 250, by omega⟩ : Fin 251) = p := Fin.ext hp.symm
  have e2 : (⟨min (idx (ix4 b h w (1 : Fin 2))).toInt.toNat 250, by omega⟩ : Fin 251) = q := Fin.ext hq.symm
  rw [e1, e2]

/-! ## Words: a wrap that never fires, and a cell's successor read signed -/

/-- A select on "v is negative" with v not negative is its second operand. -/
theorem select_slt_zero {α : Type} (v : BitVec 32) (hv : v.slt 0#32 = false) (A B : α) :
    Scalar.select (IntOp.cmpi .slt v 0#32) A B = B := by
  have e : IntOp.cmpi .slt v 0#32 = 0#1 := by
    show BitVec.ofBool (v.slt 0#32) = 0#1
    rw [hv]; rfl
  rw [e]; exact select_zero A B

/-- A cell read signed and clamped into 0 … 250 is the cell. -/
theorem cell_start (v : EReal) : (cell v).toNat = min (cell v).toInt.toNat 250 := by
  have hle := cell_toNat_le v
  rw [cell_toInt, Int.toNat_natCast]; omega

/-- A cell's successor read signed and clamped into 0 … 250 is the cell plus one. -/
theorem cell_succ_start (v : EReal) : (cell v).toNat + 1 = min (IntOp.addi (cell v) 1#32).toInt.toNat 250 := by
  have hle := cell_toNat_le v
  have hs := cell_succ_toNat v
  rw [BitVec.toInt_eq_toNat_of_lt (by omega), Int.toNat_natCast, hs]; omega

/-! ## The reference's stages at an index -/

section Stages

variable (x : (⟨S32x2x512x512, .f32⟩ : BufTy).Contents (Elt Ideal))
  (T : (⟨S1x2x251x251, .f32⟩ : BufTy).Contents (Elt Ideal))
  (b : Fin 32) (c : Fin 2) (h w : Fin 512)

/-- The clipped input at (b, c, h, w). -/
theorem clip_at :
    val_main_v1 (F := Ideal) x (ix4 b c h w)
      = min (Ideal.ofBits .f32 0x3F800000#32) (max (Ideal.ofBits .f32 0x00000000#32) (x (ix4 b c h w))) := by
  rw [val_main_v1_apply, val_main_call0_v4_apply, val_main_call0_v3_apply, val_main_cst_0_apply,
    val_main_call0_v2_apply, val_main_call0_v1_apply, val_main_call0_v0_apply, val_main_cst_apply]
  rfl

/-- Channel 0 at (b, h, w) through the slice and the reshape. -/
theorem idx_row : idx_main_v2 (idx_main_v3 (ix3 b h w)) = ix4 b (0 : Fin 2) h w := by
  funext a; refine Fin.ext ?_
  have hb := b.isLt; have hh := h.isLt; have hw := w.isLt
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

/-- Channel 1 at (b, h, w) through the slice and the reshape. -/
theorem idx_col : idx_main_v6 (idx_main_v7 (ix3 b h w)) = ix4 b (1 : Fin 2) h w := by
  funext a; refine Fin.ext ?_
  have hb := b.isLt; have hh := h.isLt; have hw := w.isLt
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

/-- The scaled row coordinate at (b, h, w). -/
theorem rowc_at : val_main_v5 (F := Ideal) x (ix3 b h w) = coord (x (ix4 b (0 : Fin 2) h w)) := by
  rw [val_main_v5_apply, val_main_v3_apply, val_main_v2_apply, idx_row, clip_at, val_main_v4_apply,
    val_main_cst_1_apply]
  rfl

/-- The scaled column coordinate at (b, h, w). -/
theorem colc_at : val_main_v9 (F := Ideal) x (ix3 b h w) = coord (x (ix4 b (1 : Fin 2) h w)) := by
  rw [val_main_v9_apply, val_main_v7_apply, val_main_v6_apply, idx_col, clip_at, val_main_v8_apply,
    val_main_cst_2_apply]
  rfl

/-- The row cell at (b, h, w). -/
theorem rowcell_at : val_main_v12 (F := Ideal) x (ix3 b h w) = cell (x (ix4 b (0 : Fin 2) h w)) := by
  rw [val_main_v12_apply, val_main_call1_v4_apply, val_main_call1_v3_apply, val_main_c_3_apply,
    val_main_call1_v2_apply, val_main_call1_v1_apply, val_main_call1_v0_apply, val_main_c_apply,
    val_main_v11_apply, val_main_v10_apply, rowc_at]
  rfl

/-- The column cell at (b, h, w). -/
theorem colcell_at : val_main_v15 (F := Ideal) x (ix3 b h w) = cell (x (ix4 b (1 : Fin 2) h w)) := by
  rw [val_main_v15_apply, val_main_call2_v4_apply, val_main_call2_v3_apply, val_main_c_5_apply,
    val_main_call2_v2_apply, val_main_call2_v1_apply, val_main_call2_v0_apply, val_main_c_4_apply,
    val_main_v14_apply, val_main_v13_apply, colc_at]
  rfl

/-- The row weight at (b, h, w). -/
theorem rowfrac_at : val_main_v17 (F := Ideal) x (ix3 b h w) = frac (x (ix4 b (0 : Fin 2) h w)) := by
  rw [val_main_v17_apply, val_main_v16_apply, rowc_at, rowcell_at]
  rfl

/-- The column weight at (b, h, w). -/
theorem colfrac_at : val_main_v19 (F := Ideal) x (ix3 b h w) = frac (x (ix4 b (1 : Fin 2) h w)) := by
  rw [val_main_v19_apply, val_main_v18_apply, colc_at, colcell_at]
  rfl

/-- The far corner's row at (b, h, w). -/
theorem rowsucc_at :
    val_main_v21 (F := Ideal) x (ix3 b h w) = IntOp.addi (cell (x (ix4 b (0 : Fin 2) h w))) 1#32 := by
  rw [val_main_v21_apply, val_main_v20_apply, val_main_c_6_apply, rowcell_at]

/-- The far corner's column at (b, h, w). -/
theorem colsucc_at :
    val_main_v23 (F := Ideal) x (ix3 b h w) = IntOp.addi (cell (x (ix4 b (1 : Fin 2) h w))) 1#32 := by
  rw [val_main_v23_apply, val_main_v22_apply, val_main_c_7_apply, colcell_at]

/-! ### The start indices: the wrap of a negative index by 251 never fires -/

/-- The start index of corner (p, q): its row, after the wrap. -/
theorem srow00_at : val_main_v28 (F := Ideal) x (ix3 b h w) = cell (x (ix4 b (0 : Fin 2) h w)) := by
  rw [val_main_v28_apply, val_main_v25_apply, val_main_v24_apply, val_main_c_8_apply, rowcell_at]
  exact select_slt_zero _ (cell_nonneg _) _ _

/-- The start index of corner (p, q): its column, after the wrap. -/
theorem scol00_at : val_main_v33 (F := Ideal) x (ix3 b h w) = cell (x (ix4 b (1 : Fin 2) h w)) := by
  rw [val_main_v33_apply, val_main_v30_apply, val_main_v29_apply, val_main_c_10_apply, colcell_at]
  exact select_slt_zero _ (cell_nonneg _) _ _

/-- The start index of corner (p, q + 1): its row, after the wrap. -/
theorem srow01_at : val_main_v42 (F := Ideal) x (ix3 b h w) = cell (x (ix4 b (0 : Fin 2) h w)) := by
  rw [val_main_v42_apply, val_main_v39_apply, val_main_v38_apply, val_main_c_12_apply, rowcell_at]
  exact select_slt_zero _ (cell_nonneg _) _ _

/-- The start index of corner (p, q + 1): its column, after the wrap. -/
theorem scol01_at : val_main_v47 (F := Ideal) x (ix3 b h w) = IntOp.addi (cell (x (ix4 b (1 : Fin 2) h w))) 1#32 := by
  rw [val_main_v47_apply, val_main_v44_apply, val_main_v43_apply, val_main_c_14_apply, colsucc_at]
  exact select_slt_zero _ (cell_succ_nonneg _) _ _

/-- The start index of corner (p + 1, q): its row, after the wrap. -/
theorem srow10_at : val_main_v56 (F := Ideal) x (ix3 b h w) = IntOp.addi (cell (x (ix4 b (0 : Fin 2) h w))) 1#32 := by
  rw [val_main_v56_apply, val_main_v53_apply, val_main_v52_apply, val_main_c_16_apply, rowsucc_at]
  exact select_slt_zero _ (cell_succ_nonneg _) _ _

/-- The start index of corner (p + 1, q): its column, after the wrap. -/
theorem scol10_at : val_main_v61 (F := Ideal) x (ix3 b h w) = cell (x (ix4 b (1 : Fin 2) h w)) := by
  rw [val_main_v61_apply, val_main_v58_apply, val_main_v57_apply, val_main_c_18_apply, colcell_at]
  exact select_slt_zero _ (cell_nonneg _) _ _

/-- The start index of corner (p + 1, q + 1): its row, after the wrap. -/
theorem srow11_at : val_main_v70 (F := Ideal) x (ix3 b h w) = IntOp.addi (cell (x (ix4 b (0 : Fin 2) h w))) 1#32 := by
  rw [val_main_v70_apply, val_main_v67_apply, val_main_v66_apply, val_main_c_20_apply, rowsucc_at]
  exact select_slt_zero _ (cell_succ_nonneg _) _ _

/-- The start index of corner (p + 1, q + 1): its column, after the wrap. -/
theorem scol11_at : val_main_v75 (F := Ideal) x (ix3 b h w) = IntOp.addi (cell (x (ix4 b (1 : Fin 2) h w))) 1#32 := by
  rw [val_main_v75_apply, val_main_v72_apply, val_main_v71_apply, val_main_c_22_apply, colsucc_at]
  exact select_slt_zero _ (cell_succ_nonneg _) _ _

/-! ### The start-index pairs: row on last coordinate 0, column on last coordinate 1 -/

/-- Corner 00's start index pair at (b, h, w), its row component. -/
theorem start00_row : val_main_v36 (F := Ideal) x (ix4 b h w (0 : Fin 2)) = cell (x (ix4 b (0 : Fin 2) h w)) := by
  have e : idx_main_v34 (ix4 b h w (0 : Fin 1)) = ix3 b h w := by
    funext a
    match a with
    | ⟨0, _⟩ => rfl
    | ⟨1, _⟩ => rfl
    | ⟨2, _⟩ => rfl
  unfold val_main_v36
  rw [concat_at0, val_main_v34_apply, e, srow00_at]

/-- Corner 00's start index pair at (b, h, w), its column component. -/
theorem start00_col : val_main_v36 (F := Ideal) x (ix4 b h w (1 : Fin 2)) = cell (x (ix4 b (1 : Fin 2) h w)) := by
  have e : idx_main_v35 (ix4 b h w (0 : Fin 1)) = ix3 b h w := by
    funext a
    match a with
    | ⟨0, _⟩ => rfl
    | ⟨1, _⟩ => rfl
    | ⟨2, _⟩ => rfl
  unfold val_main_v36
  rw [concat_at1, val_main_v35_apply, e, scol00_at]

/-- Corner 01's start index pair at (b, h, w), its row component. -/
theorem start01_row : val_main_v50 (F := Ideal) x (ix4 b h w (0 : Fin 2)) = cell (x (ix4 b (0 : Fin 2) h w)) := by
  have e : idx_main_v48 (ix4 b h w (0 : Fin 1)) = ix3 b h w := by
    funext a
    match a with
    | ⟨0, _⟩ => rfl
    | ⟨1, _⟩ => rfl
    | ⟨2, _⟩ => rfl
  unfold val_main_v50
  rw [concat_at0, val_main_v48_apply, e, srow01_at]

/-- Corner 01's start index pair at (b, h, w), its column component. -/
theorem start01_col :
    val_main_v50 (F := Ideal) x (ix4 b h w (1 : Fin 2))
      = IntOp.addi (cell (x (ix4 b (1 : Fin 2) h w))) 1#32 := by
  have e : idx_main_v49 (ix4 b h w (0 : Fin 1)) = ix3 b h w := by
    funext a
    match a with
    | ⟨0, _⟩ => rfl
    | ⟨1, _⟩ => rfl
    | ⟨2, _⟩ => rfl
  unfold val_main_v50
  rw [concat_at1, val_main_v49_apply, e, scol01_at]

/-- Corner 10's start index pair at (b, h, w), its row component. -/
theorem start10_row :
    val_main_v64 (F := Ideal) x (ix4 b h w (0 : Fin 2))
      = IntOp.addi (cell (x (ix4 b (0 : Fin 2) h w))) 1#32 := by
  have e : idx_main_v62 (ix4 b h w (0 : Fin 1)) = ix3 b h w := by
    funext a
    match a with
    | ⟨0, _⟩ => rfl
    | ⟨1, _⟩ => rfl
    | ⟨2, _⟩ => rfl
  unfold val_main_v64
  rw [concat_at0, val_main_v62_apply, e, srow10_at]

/-- Corner 10's start index pair at (b, h, w), its column component. -/
theorem start10_col : val_main_v64 (F := Ideal) x (ix4 b h w (1 : Fin 2)) = cell (x (ix4 b (1 : Fin 2) h w)) := by
  have e : idx_main_v63 (ix4 b h w (0 : Fin 1)) = ix3 b h w := by
    funext a
    match a with
    | ⟨0, _⟩ => rfl
    | ⟨1, _⟩ => rfl
    | ⟨2, _⟩ => rfl
  unfold val_main_v64
  rw [concat_at1, val_main_v63_apply, e, scol10_at]

/-- Corner 11's start index pair at (b, h, w), its row component. -/
theorem start11_row :
    val_main_v78 (F := Ideal) x (ix4 b h w (0 : Fin 2))
      = IntOp.addi (cell (x (ix4 b (0 : Fin 2) h w))) 1#32 := by
  have e : idx_main_v76 (ix4 b h w (0 : Fin 1)) = ix3 b h w := by
    funext a
    match a with
    | ⟨0, _⟩ => rfl
    | ⟨1, _⟩ => rfl
    | ⟨2, _⟩ => rfl
  unfold val_main_v78
  rw [concat_at0, val_main_v76_apply, e, srow11_at]

/-- Corner 11's start index pair at (b, h, w), its column component. -/
theorem start11_col :
    val_main_v78 (F := Ideal) x (ix4 b h w (1 : Fin 2))
      = IntOp.addi (cell (x (ix4 b (1 : Fin 2) h w))) 1#32 := by
  have e : idx_main_v77 (ix4 b h w (0 : Fin 1)) = ix3 b h w := by
    funext a
    match a with
    | ⟨0, _⟩ => rfl
    | ⟨1, _⟩ => rfl
    | ⟨2, _⟩ => rfl
  unfold val_main_v78
  rw [concat_at1, val_main_v77_apply, e, scol11_at]

/-! ### The table and the four gathered corners -/

/-- The table without its leading unit axis, at (c, p, q): the table's entry. -/
theorem table_at (p q : Fin 251) : val_main_v0 (F := Ideal) T (ix3 c p q) = tableAt T c p.val q.val := by
  have e : idx_main_v0 (ix3 c p q) = ix4 (0 : Fin 1) c p q := by
    funext a; refine Fin.ext ?_
    have hc := c.isLt; have hp := p.isLt; have hq := q.isLt
    match a with
    | ⟨0, _⟩ => rfl
    | ⟨1, _⟩ => show ((c.val * 251 + p.val) * 251 + q.val) / 63001 % 2 = c.val; omega
    | ⟨2, _⟩ => show ((c.val * 251 + p.val) * 251 + q.val) / 251 % 251 = p.val; omega
    | ⟨3, _⟩ => show ((c.val * 251 + p.val) * 251 + q.val) % 251 = q.val; omega
  rw [val_main_v0_apply, e]
  unfold tableAt
  rw [dif_pos ⟨p.isLt, q.isLt⟩]

/-- The gathered corner 00 at (c, b, h, w): the table at the cell's near row and near column. -/
theorem corner00_at :
    val_main_v37 (F := Ideal) x T (ix4 c b h w) = tableAt T c ((cell (x (ix4 b (0 : Fin 2) h w))).toNat) ((cell (x (ix4 b (1 : Fin 2) h w))).toNat) := by
  unfold val_main_v37
  rw [gather_at' (val_main_v0 (F := Ideal) T) (val_main_v36 (F := Ideal) x) c b h w
      ⟨(cell (x (ix4 b (0 : Fin 2) h w))).toNat, by have := cell_toNat_le (x (ix4 b (0 : Fin 2) h w)); omega⟩
      ⟨(cell (x (ix4 b (1 : Fin 2) h w))).toNat, by have := cell_toNat_le (x (ix4 b (1 : Fin 2) h w)); omega⟩
      (by rw [start00_row]; exact cell_start _) (by rw [start00_col]; exact cell_start _)]
  exact table_at T c _ _

/-- The gathered corner 01 at (c, b, h, w): the table at the cell's near row and far column. -/
theorem corner01_at :
    val_main_v51 (F := Ideal) x T (ix4 c b h w) = tableAt T c ((cell (x (ix4 b (0 : Fin 2) h w))).toNat) ((cell (x (ix4 b (1 : Fin 2) h w))).toNat + 1) := by
  unfold val_main_v51
  rw [gather_at' (val_main_v0 (F := Ideal) T) (val_main_v50 (F := Ideal) x) c b h w
      ⟨(cell (x (ix4 b (0 : Fin 2) h w))).toNat, by have := cell_toNat_le (x (ix4 b (0 : Fin 2) h w)); omega⟩
      ⟨(cell (x (ix4 b (1 : Fin 2) h w))).toNat + 1, by have := cell_toNat_le (x (ix4 b (1 : Fin 2) h w)); omega⟩
      (by rw [start01_row]; exact cell_start _) (by rw [start01_col]; exact cell_succ_start _)]
  exact table_at T c _ _

/-- The gathered corner 10 at (c, b, h, w): the table at the cell's far row and near column. -/
theorem corner10_at :
    val_main_v65 (F := Ideal) x T (ix4 c b h w) = tableAt T c ((cell (x (ix4 b (0 : Fin 2) h w))).toNat + 1) ((cell (x (ix4 b (1 : Fin 2) h w))).toNat) := by
  unfold val_main_v65
  rw [gather_at' (val_main_v0 (F := Ideal) T) (val_main_v64 (F := Ideal) x) c b h w
      ⟨(cell (x (ix4 b (0 : Fin 2) h w))).toNat + 1, by have := cell_toNat_le (x (ix4 b (0 : Fin 2) h w)); omega⟩
      ⟨(cell (x (ix4 b (1 : Fin 2) h w))).toNat, by have := cell_toNat_le (x (ix4 b (1 : Fin 2) h w)); omega⟩
      (by rw [start10_row]; exact cell_succ_start _) (by rw [start10_col]; exact cell_start _)]
  exact table_at T c _ _

/-- The gathered corner 11 at (c, b, h, w): the table at the cell's far row and far column. -/
theorem corner11_at :
    val_main_v79 (F := Ideal) x T (ix4 c b h w) = tableAt T c ((cell (x (ix4 b (0 : Fin 2) h w))).toNat + 1) ((cell (x (ix4 b (1 : Fin 2) h w))).toNat + 1) := by
  unfold val_main_v79
  rw [gather_at' (val_main_v0 (F := Ideal) T) (val_main_v78 (F := Ideal) x) c b h w
      ⟨(cell (x (ix4 b (0 : Fin 2) h w))).toNat + 1, by have := cell_toNat_le (x (ix4 b (0 : Fin 2) h w)); omega⟩
      ⟨(cell (x (ix4 b (1 : Fin 2) h w))).toNat + 1, by have := cell_toNat_le (x (ix4 b (1 : Fin 2) h w)); omega⟩
      (by rw [start11_row]; exact cell_succ_start _) (by rw [start11_col]; exact cell_succ_start _)]
  exact table_at T c _ _

/-! ### The four weights, and their broadcast over the two table channels -/

/-- The weight of corner (p, q) at (b, h, w). -/
theorem w00_at :
    val_main_v84 (F := Ideal) x (ix3 b h w)
      = (1 - frac (x (ix4 b (0 : Fin 2) h w))) * (1 - frac (x (ix4 b (1 : Fin 2) h w))) := by
  rw [val_main_v84_apply, val_main_v81_apply, val_main_v80_apply, val_main_cst_24_apply, val_main_v83_apply,
    val_main_v82_apply, val_main_cst_25_apply, rowfrac_at, colfrac_at]
  show (Ideal.ofBits .f32 0x3F800000#32 - _) * (Ideal.ofBits .f32 0x3F800000#32 - _) = _
  rw [lit_one]

/-- The weight of corner (p, q + 1) at (b, h, w). -/
theorem w01_at :
    val_main_v87 (F := Ideal) x (ix3 b h w)
      = (1 - frac (x (ix4 b (0 : Fin 2) h w))) * frac (x (ix4 b (1 : Fin 2) h w)) := by
  rw [val_main_v87_apply, val_main_v86_apply, val_main_v85_apply, val_main_cst_26_apply, rowfrac_at, colfrac_at]
  show (Ideal.ofBits .f32 0x3F800000#32 - _) * _ = _
  rw [lit_one]

/-- The weight of corner (p + 1, q) at (b, h, w). -/
theorem w10_at :
    val_main_v90 (F := Ideal) x (ix3 b h w)
      = frac (x (ix4 b (0 : Fin 2) h w)) * (1 - frac (x (ix4 b (1 : Fin 2) h w))) := by
  rw [val_main_v90_apply, val_main_v89_apply, val_main_v88_apply, val_main_cst_27_apply, rowfrac_at, colfrac_at]
  show _ * (Ideal.ofBits .f32 0x3F800000#32 - _) = _
  rw [lit_one]

/-- The weight of corner (p + 1, q + 1) at (b, h, w). -/
theorem w11_at :
    val_main_v91 (F := Ideal) x (ix3 b h w)
      = frac (x (ix4 b (0 : Fin 2) h w)) * frac (x (ix4 b (1 : Fin 2) h w)) := by
  rw [val_main_v91_apply, rowfrac_at, colfrac_at]
  rfl

/-- Corner 00's weight at (c, b, h, w): the same for both table channels. -/
theorem bw00_at :
    val_main_v93 (F := Ideal) x (ix4 c b h w)
      = (1 - frac (x (ix4 b (0 : Fin 2) h w))) * (1 - frac (x (ix4 b (1 : Fin 2) h w))) := by
  have e : idx_main_v92 (idx_main_v93 (ix4 c b h w)) = ix3 b h w := by
    funext a
    match a with
    | ⟨0, _⟩ => rfl
    | ⟨1, _⟩ => rfl
    | ⟨2, _⟩ => rfl
  rw [val_main_v93_apply, val_main_v92_apply, e, w00_at]

/-- Corner 01's weight at (c, b, h, w): the same for both table channels. -/
theorem bw01_at :
    val_main_v96 (F := Ideal) x (ix4 c b h w)
      = (1 - frac (x (ix4 b (0 : Fin 2) h w))) * frac (x (ix4 b (1 : Fin 2) h w)) := by
  have e : idx_main_v95 (idx_main_v96 (ix4 c b h w)) = ix3 b h w := by
    funext a
    match a with
    | ⟨0, _⟩ => rfl
    | ⟨1, _⟩ => rfl
    | ⟨2, _⟩ => rfl
  rw [val_main_v96_apply, val_main_v95_apply, e, w01_at]

/-- Corner 10's weight at (c, b, h, w): the same for both table channels. -/
theorem bw10_at :
    val_main_v100 (F := Ideal) x (ix4 c b h w)
      = frac (x (ix4 b (0 : Fin 2) h w)) * (1 - frac (x (ix4 b (1 : Fin 2) h w))) := by
  have e : idx_main_v99 (idx_main_v100 (ix4 c b h w)) = ix3 b h w := by
    funext a
    match a with
    | ⟨0, _⟩ => rfl
    | ⟨1, _⟩ => rfl
    | ⟨2, _⟩ => rfl
  rw [val_main_v100_apply, val_main_v99_apply, e, w10_at]

/-- Corner 11's weight at (c, b, h, w): the same for both table channels. -/
theorem bw11_at :
    val_main_v104 (F := Ideal) x (ix4 c b h w)
      = frac (x (ix4 b (0 : Fin 2) h w)) * frac (x (ix4 b (1 : Fin 2) h w)) := by
  have e : idx_main_v103 (idx_main_v104 (ix4 c b h w)) = ix3 b h w := by
    funext a
    match a with
    | ⟨0, _⟩ => rfl
    | ⟨1, _⟩ => rfl
    | ⟨2, _⟩ => rfl
  rw [val_main_v104_apply, val_main_v103_apply, e, w11_at]

end Stages

/-! ## The reference is the specification -/

/-- The reference's result is the bilinear pixel at every index. -/
theorem ref_eq (x : (⟨Cert.ReferenceIdeal.S32x2x512x512, .f32⟩ : BufTy).Contents (Elt Ideal))
    (T : (⟨Cert.ReferenceIdeal.S1x2x251x251, .f32⟩ : BufTy).Contents (Elt Ideal)) :
    Cert.ReferenceIdeal.Read.val_main_v107 (F := Ideal) x T = Cert.Lut.Garr x T := by
  funext j
  obtain ⟨b, c, h, w, rfl⟩ : ∃ (b : Fin 32) (c : Fin 2) (h w : Fin 512), j = ix4 b c h w :=
    ⟨j 0, j 1, j 2, j 3, eq_ix4 j⟩
  have e : idx_main_v107 (ix4 b c h w) = ix4 c b h w := by
    funext a
    match a with
    | ⟨0, _⟩ => rfl
    | ⟨1, _⟩ => rfl
    | ⟨2, _⟩ => rfl
    | ⟨3, _⟩ => rfl
  rw [val_main_v107_apply, e, val_main_v106_apply, val_main_v102_apply, val_main_v98_apply, val_main_v94_apply,
    val_main_v97_apply, val_main_v101_apply, val_main_v105_apply, corner00_at, corner01_at, corner10_at, corner11_at,
    bw00_at, bw01_at, bw10_at, bw11_at]
  rfl

end Cert.Lut.Ref

end
-- ==== Proof.LibFiniteAll.lean ====
/-
  "Every entry is finite", decoded.

  A precondition of the form `jnp.all(jnp.abs(x) < inf)` prints as an all-reduction by `and`, into a scalar, of the bits
  of the comparison `|x i| < (the f32 word of +inf)`.  On the extended reals `|x|` is `max x (-x)`, and it is below `⊤`
  exactly when `x` is neither infinity, that is, when `x` is a real number.  So:

  * `real_of_abs_lt_inf`: an extended real whose absolute value compares below the word `0x7F800000` is a real number;
  * `all_real`: when the all-reduction (over any axes, into the scalar shape, from any initial word) of those bits for
    an array `x` of any shape is 1, every entry of `x` is a real number.

  The scalar shape here is `S0 = ⟨0, ![]⟩`, the shape a printed program calls `S_`; its one index is `ValueIdx.ix0`.
-/
import Idealize.ShloMosaic.PureOps.Ideal
import Idealize.ShloMosaic.Lib.ReduceAll
import Idealize.ShloMosaic.Lib.Pipeline.Value
import Idealize.ShloMosaic.Lib.ValueIdx

noncomputable section

namespace Cert.LibFiniteAll

open Idealize.ShloMosaic Idealize.ShloMosaic.ValueIdx

/-- The scalar shape. -/
abbrev S0 : Shape := ⟨0, ![]⟩

instance : Subsingleton S0.Idx := ⟨fun _ _ => funext fun d => d.elim0⟩

/-- An extended real whose absolute value is below the f32 word of +inf is a real number. -/
theorem real_of_abs_lt_inf (x : EReal)
    (h : FloatOps.cmpf (F := Ideal) .olt (FloatOps.hostAbsf x) (Ideal.ofBits .f32 0x7F800000#32) = 1#1) :
    ∃ r : ℝ, x = r := by
  have htop : Ideal.ofBits .f32 0x7F800000#32 = ⊤ := by simp [Ideal.ofBits, Ideal.ieee]
  rw [htop] at h
  change BitVec.ofBool (decide (max x (-x) < ⊤)) = 1#1 at h
  have hlt : max x (-x) < ⊤ := by
    by_contra hn
    rw [decide_eq_false hn] at h
    exact absurd h (by decide)
  induction x using EReal.rec with
  | bot => exact absurd hlt (by simp)
  | coe r => exact ⟨r, rfl⟩
  | top => exact absurd hlt (by simp)

/-- `jnp.all(|x| < inf)`: when the all-reduction of the comparison's bits is 1, every entry of `x` is a real. -/
theorem all_real {s : Shape} {axes : List (Fin s.rank)} (x : FVec Ideal s .f32) (dims : Fin S0.rank → Fin s.rank)
    (hb : S0.BroadcastsInDim s dims) (h : s.ReducesTo axes S0) (hu : 0 < S0.numel)
    (e : Host.reduce IntOp.andi (cmpf .olt (Host.absf x) (broadcastInDim s dims hb (constant (F := Ideal) S0 .f32 0x7F800000#32)))
      (constantI S0 1 1#1) h hu ix0 = 1#1) (i : s.Idx) : ∃ r : ℝ, x i = r := by
  have hi := Host.reduce_andi_all _ _ h hu ix0 e i
  have hbc : broadcastInDim s dims hb (constant (F := Ideal) S0 .f32 0x7F800000#32) i = Ideal.ofBits .f32 0x7F800000#32 :=
    broadcastInDim_apply dims hb _ i (fun a => a.elim0) (fun a => a.elim0)
  refine real_of_abs_lt_inf (x i) ?_
  rw [← hbc]
  exact hi

end Cert.LibFiniteAll

end
-- ==== Proof.Finite.lean ====
/-
  The table is finite under the precondition: the precondition is the conjunction of two statements "every entry has
  absolute value below +∞", one for each argument; its second half, read entry by entry, says that every entry of the
  table is a real number.
-/
import proofs.«159610_j32693291057269_2_alg».proof.Pre_finite_inputs
import proofs.«159610_j32693291057269_2_alg».proof.Proof.Spec
import proofs.«159610_j32693291057269_2_alg».proof.Proof.LibFiniteAll
import Idealize.ShloMosaic.Lib.ReduceAll
import Idealize.ShloMosaic.Lib.ValueIdx
import Idealize.ShloMosaic.Lib.Affine

noncomputable section

namespace Cert.Lut

open Idealize.ShloMosaic Idealize.ShloMosaic.ValueIdx

/-- When the precondition holds, every entry of the table is a real number. -/
theorem tableFinite_of_pre [Cert.Pre_finite_inputs.Facts]
    (x : FVec Ideal Cert.Pre_finite_inputs.S32x2x512x512 .f32) (T : FVec Ideal Cert.Pre_finite_inputs.S1x2x251x251 .f32)
    (h : Cert.Pre_finite_inputs.fn (F := Ideal) x T = fun _ => 1#1) : TableFinite T := by
  have h0 := congrFun h ValueIdx.ix0
  dsimp only [Cert.Pre_finite_inputs.fn] at h0
  have h1 := (IntOp.andi_eq_one.1 h0).2
  intro i
  exact Cert.LibFiniteAll.all_real T _ _ _ _ h1 i

end Cert.Lut

end
-- ==== Proof.lean ====
/-
  A per-pixel bilinear lookup into a 251 × 251 table: the kernel against its reference.

  Both programs take a coordinates array x [32, 2, 512, 512] and a table T [1, 2, 251, 251]. A pixel (b, h, w) has two
  coordinates, x[b, 0, h, w] and x[b, 1, h, w]; each is clipped to [0, 1] and scaled by 250, its cell is the integer part
  clamped to 0 … 249, its weight the remainder. The result at (b, c, h, w) is the bilinear interpolation of table
  channel c over the cell's four corners (Proof/Spec.lean).

  The reference gathers the four corners and sums them against the four weight products. The kernel pads the table to
  256 × 256 with zeros, transposes it, and per row of 512 pixels contracts it with a two-hot weight matrix over the row
  candidates by a matrix product, then contracts the result with the two-hot column weights by a sum: the same
  pixel grouped by column first. The two groupings agree because every table entry is a real number (the
  precondition) and the weights are real whatever the coordinates are, so the arithmetic is distributive there
  (Proof/Algebra.lean). Zero weights annihilate the padded entries and every other candidate.

  The kernel's frame (at both instances) is its body run at every grid point — a sixteen-trip row loop by its
  invariant (Proof/KI/Loop.lean, Proof/KI/TripValue.lean, Proof/KI/Body.lean and their twins under Proof/K/) —
  under the pipeline's launch theorem; its value is read off that run block by block (Proof/OutValue.lean,
  Proof/ArrayValue.lean). The reference's frame and value are its operations read one at a time, the gathers
  and the index planes' join by hand (Proof/RefValue.lean). The idealization rewrote nothing, so the kernel's
  relation to its idealization has nothing to state.
-/
import proofs.«159610_j32693291057269_2_alg».proof.Defs
import proofs.«159610_j32693291057269_2_alg».proof.Proof.Gen.Kernel
import proofs.«159610_j32693291057269_2_alg».proof.Proof.Gen.KernelIdeal
import proofs.«159610_j32693291057269_2_alg».proof.Proof.Gen.ReferenceIdeal
import proofs.«159610_j32693291057269_2_alg».proof.Proof.Gen.Pre_finite_inputs
import proofs.«159610_j32693291057269_2_alg».proof.Proof.K.Body
import proofs.«159610_j32693291057269_2_alg».proof.Proof.KI.Body
import proofs.«159610_j32693291057269_2_alg».proof.Proof.ArrayValue
import proofs.«159610_j32693291057269_2_alg».proof.Proof.RefValue
import proofs.«159610_j32693291057269_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments as launched. -/
theorem frame_kernel : Cert.frame_Kernel := fun m ρ _ => Cert.Kernel.BodyRun.frame m ρ

/-- So does its idealization. -/
theorem frame_kernelIdeal : Cert.frame_KernelIdeal := fun m ρ _ => Cert.KernelIdeal.BodyRun.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories agreeing on the arguments, with every input finite: both programs end
    with the specification's array — the kernel by its run read block by block, the reference by its operations
    read one at a time. -/
theorem algebraic : Cert.algebraic_KernelIdeal_ReferenceIdeal := by
  intro m ρ m' ρ' hpre hagree
  have hT : ∀ c : Dev Cert.KernelIdeal.nD, Cert.Lut.TableFinite (Cert.KernelIdeal.ArrayValue.table m c) :=
    fun c => Cert.Lut.tableFinite_of_pre _ _ (hpre c)
  refine ⟨fun c => Cert.Lut.Garr (Cert.KernelIdeal.ArrayValue.coords m c) (Cert.KernelIdeal.ArrayValue.table m c),
    Cert.KernelIdeal.ArrayValue.run m ρ hT, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v107_eq, Cert.Lut.Ref.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
